-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S4x32x64 : Shape := ⟨3, ![4, 32, 64]⟩
abbrev S64 : Shape := ⟨1, ![64]⟩
abbrev S4x64x10 : Shape := ⟨3, ![4, 64, 10]⟩
abbrev S10 : Shape := ⟨1, ![10]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S4x32x64 : S_.BroadcastsInDim S4x32x64 (![] : Fin 0 → Fin S4x32x64.rank)
  reducesTo_S4x32x64_S_d0_1_2 : S4x32x64.ReducesTo [0, 1, 2] S_
  bcast_S_S64 : S_.BroadcastsInDim S64 (![] : Fin 0 → Fin S64.rank)
  reducesTo_S64_S_d0 : S64.ReducesTo [0] S_
  bcast_S_S4x64x10 : S_.BroadcastsInDim S4x64x10 (![] : Fin 0 → Fin S4x64x10.rank)
  reducesTo_S4x64x10_S_d0_1_2 : S4x64x10.ReducesTo [0, 1, 2] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S4x64x10 1) : IVec S_ 1 :=
  let main_c_5 : IVec S_ 1 := constantI S_ 1 1#1
  let main_v17 : IVec S_ 1 := (fun x v => Host.reduce IntOp.andi x v reducesTo_S4x64x10_S_d0_1_2 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S4x32x64 .f32) (main_arg3 : FVec F S64 .f32) (main_arg4 : FVec F S4x64x10 .f32) (main_arg5 : FVec F S10 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S4x32x64 .f32 := Host.absf main_arg2
  let main_cst_0 : FVec F S_ .f32 := constant S_ .f32 0x7F800000#32
  let main_v5 : FVec F S4x32x64 .f32 := broadcastInDim S4x32x64 ![] bcast_S_S4x32x64 main_cst_0
  let main_v6 : IVec S4x32x64 1 := cmpf .olt main_v4 main_v5
  let main_c_1 : IVec S_ 1 := constantI S_ 1 1#1
  let main_v7 : IVec S_ 1 := (fun x v => Host.reduce IntOp.andi x v reducesTo_S4x32x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x10 .f32 := Host.absf main_arg4
  let main_cst_4 : FVec F S_ .f32 := constant S_ .f32 0x7F800000#32
  let main_v15 : FVec F S4x64x10 .f32 := broadcastInDim S4x64x10 ![] bcast_S_S4x64x10 main_cst_4
  let main_v16 : IVec S4x64x10 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S4x32x64 : Shape := ⟨3, ![4, 32, 64]⟩
abbrev S64 : Shape := ⟨1, ![64]⟩
abbrev S4x64x10 : Shape := ⟨3, ![4, 64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S1x100000x32 : Shape := ⟨3, ![1, 100000, 32]⟩
abbrev S4x100000x32 : Shape := ⟨3, ![4, 100000, 32]⟩
abbrev S100000x64 : Shape := ⟨2, ![100000, 64]⟩
abbrev S4x5000x32 : Shape := ⟨3, ![4, 5000, 32]⟩
abbrev S5000x64 : Shape := ⟨2, ![5000, 64]⟩
abbrev S1x5000x32 : Shape := ⟨3, ![1, 5000, 32]⟩
abbrev S5000x32 : Shape := ⟨2, ![5000, 32]⟩
abbrev S1x32x64 : Shape := ⟨3, ![1, 32, 64]⟩
abbrev S32x64 : Shape := ⟨2, ![32, 64]⟩
abbrev S1x64 : Shape := ⟨2, ![1, 64]⟩
abbrev S1600000x64 : Shape := ⟨2, ![1600000, 64]⟩
abbrev S1x100000x64 : Shape := ⟨3, ![1, 100000, 64]⟩
abbrev S4x100000x64 : Shape := ⟨3, ![4, 100000, 64]⟩
abbrev S100000x10 : Shape := ⟨2, ![100000, 10]⟩
abbrev S4x5000x64 : Shape := ⟨3, ![4, 5000, 64]⟩
abbrev S5000x10 : Shape := ⟨2, ![5000, 10]⟩
abbrev S1x5000x64 : Shape := ⟨3, ![1, 5000, 64]⟩
abbrev S1x64x10 : Shape := ⟨3, ![1, 64, 10]⟩
abbrev S64x10 : Shape := ⟨2, ![64, 10]⟩
abbrev S1x10 : Shape := ⟨2, ![1, 10]⟩
abbrev S5000 : Shape := ⟨1, ![5000]⟩
abbrev S5000x1 : Shape := ⟨2, ![5000, 1]⟩

abbrev nBuf : Space → Nat
  | .hbm => 203
  | .vmem => 12
  | .smem => 0
  | _ => 0

abbrev hbmTy0_0 (i : Nat) : BufTy := match i % 128 with
  | 0 => ⟨S100000x32, .f32⟩
  | 1 => ⟨S2x1600000, .i32⟩
  | 2 => ⟨S4x32x64, .f32⟩
  | 3 => ⟨S64, .f32⟩
  | 4 => ⟨S4x64x10, .f32⟩
  | 5 => ⟨S10, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S100000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S_, .f32⟩
  | 21 => ⟨S1600000, .f32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x32, .f32⟩
  | 63 => ⟨S1600000x32, .f32⟩
  | 64 => ⟨S1600000x32, .f32⟩
  | 65 => ⟨S_, .f32⟩
  | 66 => ⟨S100000x32, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S100000x32, .f32⟩
  | 76 => ⟨S1600000x1, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x32, .f32⟩
  | 86 => ⟨S1600000x32, .f32⟩
  | 87 => ⟨S1600000x32, .f32⟩
  | 88 => ⟨S_, .f32⟩
  | 89 => ⟨S100000x32, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S100000x32, .f32⟩
  | 99 => ⟨S1600000x1, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x32, .f32⟩
  | 109 => ⟨S1600000x32, .f32⟩
  | 110 => ⟨S1600000x32, .f32⟩
  | 111 => ⟨S_, .f32⟩
  | 112 => ⟨S100000x32, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S100000x32, .f32⟩
  | 122 => ⟨S1x100000x32, .f32⟩
  | 123 => ⟨S1x100000x32, .f32⟩
  | 124 => ⟨S1x100000x32, .f32⟩
  | 125 => ⟨S1x100000x32, .f32⟩
  | 126 => ⟨S4x100000x32, .f32⟩
  | 127 => ⟨S100000x64, .f32⟩
  | _ => ⟨S100000x32, .f32⟩

abbrev hbmTy0_1 (i : Nat) : BufTy := match i % 128 with
  | 0 => ⟨S1600000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1600000x64, .f32⟩
  | 11 => ⟨S1600000x64, .f32⟩
  | 12 => ⟨S_, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S100000x64, .f32⟩
  | 23 => ⟨S1600000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x64, .f32⟩
  | 34 => ⟨S1600000x64, .f32⟩
  | 35 => ⟨S_, .f32⟩
  | 36 => ⟨S100000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S100000x64, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x64, .f32⟩
  | 57 => ⟨S1600000x64, .f32⟩
  | 58 => ⟨S_, .f32⟩
  | 59 => ⟨S100000x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S100000x64, .f32⟩
  | 69 => ⟨S1x100000x64, .f32⟩
  | 70 => ⟨S1x100000x64, .f32⟩
  | 71 => ⟨S1x100000x64, .f32⟩
  | 72 => ⟨S1x100000x64, .f32⟩
  | 73 => ⟨S4x100000x64, .f32⟩
  | 74 => ⟨S100000x10, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S4x5000x32, .f32⟩
  | .local _ .vmem, ⟨1, _⟩ => ⟨S4x5000x32, .f32⟩
  | .local _ .vmem, ⟨2, _⟩ => ⟨S4x32x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S4x5000x64, .f32⟩
  | .local _ .vmem, ⟨7, _⟩ => ⟨S4x5000x64, .f32⟩
  | .local _ .vmem, ⟨8, _⟩ => ⟨S4x64x10, .f32⟩
  | .local _ .vmem, ⟨9, _⟩ => ⟨S10, .f32⟩
  | .local _ .vmem, ⟨10, _⟩ => ⟨S5000x10, .f32⟩
  | .local _ .vmem, ⟨11, _⟩ => ⟨S5000x10, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_c_12 : Ref sig .tc := ⟨.hbm, 67, rfl⟩
abbrev main_v45 : Ref sig .tc := ⟨.hbm, 68, rfl⟩
abbrev main_v46 : Ref sig .tc := ⟨.hbm, 69, rfl⟩
abbrev main_c_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_14 : Ref sig .tc := ⟨.hbm, 77, rfl⟩
abbrev main_v53 : Ref sig .tc := ⟨.hbm, 78, rfl⟩
abbrev main_v54 : Ref sig .tc := ⟨.hbm, 79, rfl⟩
abbrev main_c_15 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_c_17 : Ref sig .tc := ⟨.hbm, 90, rfl⟩
abbrev main_v63 : Ref sig .tc := ⟨.hbm, 91, rfl⟩
abbrev main_v64 : Ref sig .tc := ⟨.hbm, 92, rfl⟩
abbrev main_c_18 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_19 : Ref sig .tc := ⟨.hbm, 100, rfl⟩
abbrev main_v71 : Ref sig .tc := ⟨.hbm, 101, rfl⟩
abbrev main_v72 : Ref sig .tc := ⟨.hbm, 102, rfl⟩
abbrev main_c_20 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_21 : Ref sig .tc := ⟨.hbm, 111, rfl⟩
abbrev main_v80 : Ref sig .tc := ⟨.hbm, 112, rfl⟩
abbrev main_c_22 : Ref sig .tc := ⟨.hbm, 113, rfl⟩
abbrev main_v81 : Ref sig .tc := ⟨.hbm, 114, rfl⟩
abbrev main_v82 : Ref sig .tc := ⟨.hbm, 115, rfl⟩
abbrev main_c_23 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_24 : Ref sig .tc := ⟨.hbm, 129, rfl⟩
abbrev main_v95 : Ref sig .tc := ⟨.hbm, 130, rfl⟩
abbrev main_v96 : Ref sig .tc := ⟨.hbm, 131, rfl⟩
abbrev main_c_25 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_26 : Ref sig .tc := ⟨.hbm, 140, rfl⟩
abbrev main_v104 : Ref sig .tc := ⟨.hbm, 141, rfl⟩
abbrev main_c_27 : Ref sig .tc := ⟨.hbm, 142, rfl⟩
abbrev main_v105 : Ref sig .tc := ⟨.hbm, 143, rfl⟩
abbrev main_v106 : Ref sig .tc := ⟨.hbm, 144, rfl⟩
abbrev main_c_28 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_c_29 : Ref sig .tc := ⟨.hbm, 152, rfl⟩
abbrev main_v113 : Ref sig .tc := ⟨.hbm, 153, rfl⟩
abbrev main_v114 : Ref sig .tc := ⟨.hbm, 154, rfl⟩
abbrev main_c_30 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_31 : Ref sig .tc := ⟨.hbm, 163, rfl⟩
abbrev main_v122 : Ref sig .tc := ⟨.hbm, 164, rfl⟩
abbrev main_c_32 : Ref sig .tc := ⟨.hbm, 165, rfl⟩
abbrev main_v123 : Ref sig .tc := ⟨.hbm, 166, rfl⟩
abbrev main_v124 : Ref sig .tc := ⟨.hbm, 167, rfl⟩
abbrev main_c_33 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_c_34 : Ref sig .tc := ⟨.hbm, 175, rfl⟩
abbrev main_v131 : Ref sig .tc := ⟨.hbm, 176, rfl⟩
abbrev main_v132 : Ref sig .tc := ⟨.hbm, 177, rfl⟩
abbrev main_c_35 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_36 : Ref sig .tc := ⟨.hbm, 186, rfl⟩
abbrev main_v140 : Ref sig .tc := ⟨.hbm, 187, rfl⟩
abbrev main_c_37 : Ref sig .tc := ⟨.hbm, 188, rfl⟩
abbrev main_v141 : Ref sig .tc := ⟨.hbm, 189, rfl⟩
abbrev main_v142 : Ref sig .tc := ⟨.hbm, 190, rfl⟩
abbrev main_c_38 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x32_S1x100000x32_1_2 : S100000x32.BroadcastsInDim S1x100000x32 (![1, 2] : Fin 2 → Fin S1x100000x32.rank)
  concatenates_S1x100000x32_S1x100000x32_S1x100000x32_S1x100000x32_S4x100000x32_d0 : Shape.Concatenates [S1x100000x32, S1x100000x32, S1x100000x32, S1x100000x32] S4x100000x32 0
  inb_S4x5000x32_S1x5000x32_0_0_0 : ∀ a, (![0, 0, 0] : Fin 3 → Nat) a + S1x5000x32.size a ≤ S4x5000x32.size a
  h_S1x5000x32 : 0 < S1x5000x32.numel
  shapeCasts_S1x5000x32_S5000x32 : S1x5000x32.ShapeCasts S5000x32
  bitsLt_bf16_f32 : FTy.bits .bf16 < FTy.bits .f32
  inb_S4x32x64_S1x32x64_0_0_0 : ∀ a, (![0, 0, 0] : Fin 3 → Nat) a + S1x32x64.size a ≤ S4x32x64.size a
  h_S1x32x64 : 0 < S1x32x64.numel
  shapeCasts_S1x32x64_S32x64 : S1x32x64.ShapeCasts S32x64
  inb_S4x5000x32_S1x5000x32_1_0_0 : ∀ a, (![1, 0, 0] : Fin 3 → Nat) a + S1x5000x32.size a ≤ S4x5000x32.size a
  inb_S4x32x64_S1x32x64_1_0_0 : ∀ a, (![1, 0, 0] : Fin 3 → Nat) a + S1x32x64.size a ≤ S4x32x64.size a
  inb_S4x5000x32_S1x5000x32_2_0_0 : ∀ a, (![2, 0, 0] : Fin 3 → Nat) a + S1x5000x32.size a ≤ S4x5000x32.size a
  inb_S4x32x64_S1x32x64_2_0_0 : ∀ a, (![2, 0, 0] : Fin 3 → Nat) a + S1x32x64.size a ≤ S4x32x64.size a
  inb_S4x5000x32_S1x5000x32_3_0_0 : ∀ a, (![3, 0, 0] : Fin 3 → Nat) a + S1x5000x32.size a ≤ S4x5000x32.size a
  inb_S4x32x64_S1x32x64_3_0_0 : ∀ a, (![3, 0, 0] : Fin 3 → Nat) a + S1x32x64.size a ≤ S4x32x64.size a
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  inb_S4x5000x64_S1x5000x64_0_0_0 : ∀ a, (![0, 0, 0] : Fin 3 → Nat) a + S1x5000x64.size a ≤ S4x5000x64.size a
  h_S1x5000x64 : 0 < S1x5000x64.numel
  shapeCasts_S1x5000x64_S5000x64 : S1x5000x64.ShapeCasts S5000x64
  inb_S4x64x10_S1x64x10_0_0_0 : ∀ a, (![0, 0, 0] : Fin 3 → Nat) a + S1x64x10.size a ≤ S4x64x10.size a
  h_S1x64x10 : 0 < S1x64x10.numel
  shapeCasts_S1x64x10_S64x10 : S1x64x10.ShapeCasts S64x10
  inb_S4x5000x64_S1x5000x64_1_0_0 : ∀ a, (![1, 0, 0] : Fin 3 → Nat) a + S1x5000x64.size a ≤ S4x5000x64.size a
  inb_S4x64x10_S1x64x10_1_0_0 : ∀ a, (![1, 0, 0] : Fin 3 → Nat) a + S1x64x10.size a ≤ S4x64x10.size a
  inb_S4x5000x64_S1x5000x64_2_0_0 : ∀ a, (![2, 0, 0] : Fin 3 → Nat) a + S1x5000x64.size a ≤ S4x5000x64.size a
  inb_S4x64x10_S1x64x10_2_0_0 : ∀ a, (![2, 0, 0] : Fin 3 → Nat) a + S1x64x10.size a ≤ S4x64x10.size a
  inb_S4x5000x64_S1x5000x64_3_0_0 : ∀ a, (![3, 0, 0] : Fin 3 → Nat) a + S1x5000x64.size a ≤ S4x5000x64.size a
  inb_S4x64x10_S1x64x10_3_0_0 : ∀ a, (![3, 0, 0] : Fin 3 → Nat) a + S1x64x10.size a ≤ S4x64x10.size a
  inb_S10_S10_0 : ∀ a, (![0] : Fin 1 → Nat) a + S10.size a ≤ S10.size a
  h_S10 : 0 < S10.numel
  shapeCasts_S10_S1x10 : S10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x32.size a ≤ S4x100000x32.size a
  hwx0_0 : ∀ i : grid0.Coords, EltTy.bits .f32 = 32 ∨ (Rect.block (s := S4x100000x32) S4x5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32x64.size a ≤ S4x32x64.size a
  hwx0_1 : ∀ i : grid0.Coords, EltTy.bits .f32 = 32 ∨ (Rect.block (s := S4x32x64) S4x32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x5000x64.size a ≤ S4x100000x64.size a
  hwx1_0 : ∀ i : grid1.Coords, EltTy.bits .f32 = 32 ∨ (Rect.block (s := S4x100000x64) S4x5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64x10.size a ≤ S4x64x10.size a
  hwx1_1 : ∀ i : grid1.Coords, EltTy.bits .f32 = 32 ∨ (Rect.block (s := S4x64x10) S4x64x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10.size a ≤ S10.size a
  hwx1_2 : ∀ i : grid1.Coords, EltTy.bits .f32 = 32 ∨ (Rect.block (s := S10) S10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x10.size a ≤ S100000x10.size a
  hwx1_3 : ∀ i : grid1.Coords, EltTy.bits .f32 = 32 ∨ (Rect.block (s := S100000x10) S5000x10.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v92) S4x5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v93) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v152) S4x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4x64x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v153) S5000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S4x32x64 : Shape := ⟨3, ![4, 32, 64]⟩
abbrev S64 : Shape := ⟨1, ![64]⟩
abbrev S4x64x10 : Shape := ⟨3, ![4, 64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x32x64 : Shape := ⟨3, ![1, 32, 64]⟩
abbrev S32x64 : Shape := ⟨2, ![32, 64]⟩
abbrev S100000x64 : Shape := ⟨2, ![100000, 64]⟩
abbrev S1600000x32 : Shape := ⟨2, ![1600000, 32]⟩
abbrev S1x64 : Shape := ⟨2, ![1, 64]⟩
abbrev S1x64x10 : Shape := ⟨3, ![1, 64, 10]⟩
abbrev S64x10 : Shape := ⟨2, ![64, 10]⟩
abbrev S100000x10 : Shape := ⟨2, ![100000, 10]⟩
abbrev S1600000x64 : Shape := ⟨2, ![1600000, 64]⟩
abbrev S1x10 : Shape := ⟨2, ![1, 10]⟩
abbrev S100000x1 : Shape := ⟨2, ![100000, 1]⟩

abbrev nBuf : Space → Nat
  | .hbm => 245
  | .vmem => 0
  | .smem => 0
  | _ => 0

abbrev hbmTy0_0 (i : Nat) : BufTy := match i % 128 with
  | 0 => ⟨S100000x32, .f32⟩
  | 1 => ⟨S2x1600000, .i32⟩
  | 2 => ⟨S4x32x64, .f32⟩
  | 3 => ⟨S64, .f32⟩
  | 4 => ⟨S4x64x10, .f32⟩
  | 5 => ⟨S10, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S100000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S_, .f32⟩
  | 21 => ⟨S1600000, .f32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1x32x64, .f32⟩
  | 54 => ⟨S32x64, .f32⟩
  | 55 => ⟨S100000x64, .f32⟩
  | 56 => ⟨S_, .f32⟩
  | 57 => ⟨S100000x32, .f32⟩
  | 58 => ⟨S1600000x1, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x32, .f32⟩
  | 68 => ⟨S1600000x32, .f32⟩
  | 69 => ⟨S1600000x32, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S100000x32, .f32⟩
  | 79 => ⟨S1x32x64, .f32⟩
  | 80 => ⟨S32x64, .f32⟩
  | 81 => ⟨S100000x64, .f32⟩
  | 82 => ⟨S100000x64, .f32⟩
  | 83 => ⟨S_, .f32⟩
  | 84 => ⟨S100000x32, .f32⟩
  | 85 => ⟨S1600000x1, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x32, .f32⟩
  | 95 => ⟨S1600000x32, .f32⟩
  | 96 => ⟨S1600000x32, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S100000x32, .f32⟩
  | 106 => ⟨S1x32x64, .f32⟩
  | 107 => ⟨S32x64, .f32⟩
  | 108 => ⟨S100000x64, .f32⟩
  | 109 => ⟨S100000x64, .f32⟩
  | 110 => ⟨S_, .f32⟩
  | 111 => ⟨S100000x32, .f32⟩
  | 112 => ⟨S1600000x1, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x32, .f32⟩
  | 122 => ⟨S1600000x32, .f32⟩
  | 123 => ⟨S1600000x32, .f32⟩
  | 124 => ⟨S_, .i32⟩
  | 125 => ⟨S1600000, .i32⟩
  | 126 => ⟨S1600000, .i1⟩
  | 127 => ⟨S_, .i32⟩
  | _ => ⟨S100000x32, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S100000x32, .f32⟩
  | 5 => ⟨S1x32x64, .f32⟩
  | 6 => ⟨S32x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S1x64x10, .f32⟩
  | 16 => ⟨S64x10, .f32⟩
  | 17 => ⟨S100000x10, .f32⟩
  | 18 => ⟨S_, .f32⟩
  | 19 => ⟨S100000x64, .f32⟩
  | 20 => ⟨S1600000x1, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S1600000x64, .f32⟩
  | 31 => ⟨S1600000x64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S100000x64, .f32⟩
  | 41 => ⟨S1x64x10, .f32⟩
  | 42 => ⟨S64x10, .f32⟩
  | 43 => ⟨S100000x10, .f32⟩
  | 44 => ⟨S100000x10, .f32⟩
  | 45 => ⟨S_, .f32⟩
  | 46 => ⟨S100000x64, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S1600000x64, .f32⟩
  | 58 => ⟨S1600000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S100000x64, .f32⟩
  | 68 => ⟨S1x64x10, .f32⟩
  | 69 => ⟨S64x10, .f32⟩
  | 70 => ⟨S100000x10, .f32⟩
  | 71 => ⟨S100000x10, .f32⟩
  | 72 => ⟨S_, .f32⟩
  | 73 => ⟨S100000x64, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x64, .f32⟩
  | 84 => ⟨S1600000x64, .f32⟩
  | 85 => ⟨S1600000x64, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S100000x64, .f32⟩
  | 95 => ⟨S1x64x10, .f32⟩
  | 96 => ⟨S64x10, .f32⟩
  | 97 => ⟨S100000x10, .f32⟩
  | 98 => ⟨S100000x10, .f32⟩
  | 99 => ⟨S1x10, .f32⟩
  | 100 => ⟨S100000x10, .f32⟩
  | 101 => ⟨S100000x10, .f32⟩
  | 102 => ⟨S_, .f32⟩
  | 103 => ⟨S100000, .f32⟩
  | 104 => ⟨S_, .f32⟩
  | 105 => ⟨S100000, .f32⟩
  | 106 => ⟨S100000, .f32⟩
  | 107 => ⟨S100000x1, .f32⟩
  | 108 => ⟨S100000x10, .f32⟩
  | 109 => ⟨S100000x10, .f32⟩
  | 110 => ⟨S100000x10, .f32⟩
  | 111 => ⟨S_, .f32⟩
  | 112 => ⟨S100000, .f32⟩
  | 113 => ⟨S100000x1, .f32⟩
  | 114 => ⟨S100000x1, .f32⟩
  | 115 => ⟨S100000x10, .f32⟩
  | 116 => ⟨S100000x10, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_c_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_c_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_17 : Ref sig .tc := ⟨.hbm, 97, rfl⟩
abbrev main_v70 : Ref sig .tc := ⟨.hbm, 98, rfl⟩
abbrev main_v71 : Ref sig .tc := ⟨.hbm, 99, rfl⟩
abbrev main_c_18 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_19 : Ref sig .tc := ⟨.hbm, 110, rfl⟩
abbrev main_v81 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_v84 : Ref sig .tc := ⟨.hbm, 115, rfl⟩
abbrev main_c_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_22 : Ref sig .tc := ⟨.hbm, 124, rfl⟩
abbrev main_v92 : Ref sig .tc := ⟨.hbm, 125, rfl⟩
abbrev main_v93 : Ref sig .tc := ⟨.hbm, 126, rfl⟩
abbrev main_c_23 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_call1_cst : Ref sig .tc := ⟨.hbm, 140, rfl⟩
abbrev main_call1_v0 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_24 : Ref sig .tc := ⟨.hbm, 146, rfl⟩
abbrev main_v110 : Ref sig .tc := ⟨.hbm, 147, rfl⟩
abbrev main_v111 : Ref sig .tc := ⟨.hbm, 148, rfl⟩
abbrev main_c_25 : Ref sig .tc := ⟨.hbm, 149, rfl⟩
abbrev main_v112 : Ref sig .tc := ⟨.hbm, 150, rfl⟩
abbrev main_v113 : Ref sig .tc := ⟨.hbm, 151, rfl⟩
abbrev main_c_26 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_27 : Ref sig .tc := ⟨.hbm, 160, rfl⟩
abbrev main_v121 : Ref sig .tc := ⟨.hbm, 161, rfl⟩
abbrev main_v122 : Ref sig .tc := ⟨.hbm, 162, rfl⟩
abbrev main_c_28 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_29 : Ref sig .tc := ⟨.hbm, 173, rfl⟩
abbrev main_v132 : Ref sig .tc := ⟨.hbm, 174, rfl⟩
abbrev main_v133 : Ref sig .tc := ⟨.hbm, 175, rfl⟩
abbrev main_c_30 : Ref sig .tc := ⟨.hbm, 176, rfl⟩
abbrev main_v134 : Ref sig .tc := ⟨.hbm, 177, rfl⟩
abbrev main_v135 : Ref sig .tc := ⟨.hbm, 178, rfl⟩
abbrev main_c_31 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_c_32 : Ref sig .tc := ⟨.hbm, 187, rfl⟩
abbrev main_v143 : Ref sig .tc := ⟨.hbm, 188, rfl⟩
abbrev main_v144 : Ref sig .tc := ⟨.hbm, 189, rfl⟩
abbrev main_c_33 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_34 : Ref sig .tc := ⟨.hbm, 200, rfl⟩
abbrev main_v154 : Ref sig .tc := ⟨.hbm, 201, rfl⟩
abbrev main_v155 : Ref sig .tc := ⟨.hbm, 202, rfl⟩
abbrev main_c_35 : Ref sig .tc := ⟨.hbm, 203, rfl⟩
abbrev main_v156 : Ref sig .tc := ⟨.hbm, 204, rfl⟩
abbrev main_v157 : Ref sig .tc := ⟨.hbm, 205, rfl⟩
abbrev main_c_36 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_c_37 : Ref sig .tc := ⟨.hbm, 214, rfl⟩
abbrev main_v165 : Ref sig .tc := ⟨.hbm, 215, rfl⟩
abbrev main_v166 : Ref sig .tc := ⟨.hbm, 216, rfl⟩
abbrev main_c_38 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_call2_cst : Ref sig .tc := ⟨.hbm, 230, rfl⟩
abbrev main_call2_v0 : Ref sig .tc := ⟨.hbm, 231, rfl⟩
abbrev main_call2_cst_0 : Ref sig .tc := ⟨.hbm, 232, rfl⟩
abbrev main_call2_v1 : Ref sig .tc := ⟨.hbm, 233, rfl⟩
abbrev main_call2_v2 : Ref sig .tc := ⟨.hbm, 234, rfl⟩
abbrev main_call2_v3 : Ref sig .tc := ⟨.hbm, 235, rfl⟩
abbrev main_call2_v4 : Ref sig .tc := ⟨.hbm, 236, rfl⟩
abbrev main_call2_v5 : Ref sig .tc := ⟨.hbm, 237, rfl⟩
abbrev main_call2_v6 : Ref sig .tc := ⟨.hbm, 238, rfl⟩
abbrev main_call2_cst_1 : Ref sig .tc := ⟨.hbm, 239, rfl⟩
abbrev main_call2_v7 : Ref sig .tc := ⟨.hbm, 240, rfl⟩
abbrev main_call2_v8 : Ref sig .tc := ⟨.hbm, 241, rfl⟩
abbrev main_call2_v9 : Ref sig .tc := ⟨.hbm, 242, rfl⟩
abbrev main_call2_v10 : Ref sig .tc := ⟨.hbm, 243, rfl⟩
abbrev main_v179 : Ref sig .tc := ⟨.hbm, 244, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S4x32x64_S1x32x64_0_0_0 : S4x32x64.Slices ![0, 0, 0] S1x32x64
  shapeCasts_S1x32x64_S32x64 : S1x32x64.ShapeCasts S32x64
  bcast_S_S100000x32 : S_.BroadcastsInDim S100000x32 (![] : Fin 0 → Fin S100000x32.rank)
  bcast_S1600000x1_S1600000x32_0_1 : S1600000x1.BroadcastsInDim S1600000x32 (![0, 1] : Fin 2 → Fin S1600000x32.rank)
  slices_S4x32x64_S1x32x64_1_0_0 : S4x32x64.Slices ![1, 0, 0] S1x32x64
  slices_S4x32x64_S1x32x64_2_0_0 : S4x32x64.Slices ![2, 0, 0] S1x32x64
  slices_S4x32x64_S1x32x64_3_0_0 : S4x32x64.Slices ![3, 0, 0] S1x32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S4x64x10_S1x64x10_0_0_0 : S4x64x10.Slices ![0, 0, 0] S1x64x10
  shapeCasts_S1x64x10_S64x10 : S1x64x10.ShapeCasts S64x10
  bcast_S1600000x1_S1600000x64_0_1 : S1600000x1.BroadcastsInDim S1600000x64 (![0, 1] : Fin 2 → Fin S1600000x64.rank)
  slices_S4x64x10_S1x64x10_1_0_0 : S4x64x10.Slices ![1, 0, 0] S1x64x10
  slices_S4x64x10_S1x64x10_2_0_0 : S4x64x10.Slices ![2, 0, 0] S1x64x10
  slices_S4x64x10_S1x64x10_3_0_0 : S4x64x10.Slices ![3, 0, 0] S1x64x10
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x32_S32x64_S100000x64_1_0_0_1_n_n_wf : DotDims.WF S100000x32 S32x64 S100000x64 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x64_S64x10_S100000x10_1_0_0_1_n_n_wf : DotDims.WF S100000x64 S64x10 S100000x10 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KBody.lean ====
/-
  The two kernel bodies of the program as pipeline proof data, at any float instance.

  Each body loads, for the four hop powers g = 0..3, the rows of hop g from the stacked feature block and the
  weight matrix of hop g from the stacked weights, multiplies them on the matrix unit into a zero accumulator, adds
  the four products left to right, adds the bias row, and stores the result (clipped at zero in the first body,
  normalised row by row in the second) over the whole output block. So after the body at a grid point every input
  buffer still holds its block and the output buffer holds one function of the three input blocks; this is what the
  pipeline's proof data record, and the body's triple is run by the symbolic executor over the named payloads.
-/
import proofs.«137570_j56891136803143_1_alg».proof.Proof.Gen.Kernel.Launch
import proofs.«137570_j56891136803143_1_alg».proof.Proof.Gen.Kernel.Skeleton
import proofs.«137570_j56891136803143_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: `cc0__combine_kernel` (pipeline 0), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: hop `g`'s rows of the stacked features, hop `g`'s weight matrix, the bias, the output block. -/
abbrev rA0_0 : Rect S4x5000x32 := Rect.unit (s := S4x5000x32) ![0, 0, 0] S1x5000x32.size inb_S4x5000x32_S1x5000x32_0_0_0
abbrev rB0_0 : Rect S4x32x64 := Rect.unit (s := S4x32x64) ![0, 0, 0] S1x32x64.size inb_S4x32x64_S1x32x64_0_0_0
abbrev rA0_1 : Rect S4x5000x32 := Rect.unit (s := S4x5000x32) ![1, 0, 0] S1x5000x32.size inb_S4x5000x32_S1x5000x32_1_0_0
abbrev rB0_1 : Rect S4x32x64 := Rect.unit (s := S4x32x64) ![1, 0, 0] S1x32x64.size inb_S4x32x64_S1x32x64_1_0_0
abbrev rA0_2 : Rect S4x5000x32 := Rect.unit (s := S4x5000x32) ![2, 0, 0] S1x5000x32.size inb_S4x5000x32_S1x5000x32_2_0_0
abbrev rB0_2 : Rect S4x32x64 := Rect.unit (s := S4x32x64) ![2, 0, 0] S1x32x64.size inb_S4x32x64_S1x32x64_2_0_0
abbrev rA0_3 : Rect S4x5000x32 := Rect.unit (s := S4x5000x32) ![3, 0, 0] S1x5000x32.size inb_S4x5000x32_S1x5000x32_3_0_0
abbrev rB0_3 : Rect S4x32x64 := Rect.unit (s := S4x32x64) ![3, 0, 0] S1x32x64.size inb_S4x32x64_S1x32x64_3_0_0
abbrev rC0 : Rect S64 := Rect.unit (s := S64) ![0] S64.size inb_S64_S64_0
abbrev rO0 : Rect S5000x64 := Rect.unit (s := S5000x64) ![0, 0] S5000x64.size inb_S5000x64_S5000x64_0_0

/-- The output window's staging buffer after the body: its one store, the combination of the four hops' products
    plus the bias, clipped at zero. -/
def out0_3 (x0 : Vec F S4x5000x32 .f32) (x1 : Vec F S4x32x64 .f32) (x2 : Vec F S64 .f32) : Vec F S5000x64 .f32 :=
  View.canon [⟨rO0, k0_pay1 (k0_pay2 (View.ld x0 rA0_0) (View.ld x1 rB0_0) (View.ld x0 rA0_1) (View.ld x1 rB0_1) (View.ld x0 rA0_2) (View.ld x1 rB0_2) (View.ld x0 rA0_3) (View.ld x1 rB0_3)) (View.ld x2 rC0)⟩]

/-- The one store covers the buffer. -/
theorem cover0_3 (p0 : Vec F S5000x64 .f32) (y : S5000x64.Idx) :
    ∃ pc ∈ ([⟨rO0, p0⟩] : List (View.Piece (Elt F) S5000x64 .f32)), y ∈ pc.1.set :=
  View.cover_of_tiled [⟨rO0, p0⟩] S5000x64.size (by rfl) y

set_option maxHeartbeats 4000000 in
/-- The body on whole staging memrefs: the inputs stay, the output ends at `out0_3` of the inputs. -/
theorem sound_kernel0 (c : Dev nD) (E : Set ℕ) (i : grid0.Coords) (arg1 : Memref sig .tc .vmem S4x5000x32 .f32) (harg1 : arg1.IsWhole) (arg2 : Memref sig .tc .vmem S4x32x64 .f32) (harg2 : arg2.IsWhole) (arg3 : Memref sig .tc .vmem S64 .f32) (harg3 : arg3.IsWhole) (arg4 : Memref sig .tc .vmem S5000x64 .f32) (harg4 : arg4.IsWhole)
    (x0 : Vec F S4x5000x32 .f32) (x1 : Vec F S4x32x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The proof data of pipeline 0 on core `c`: the arrays as the region finds them; after the body each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__combine_kernel` (pipeline 1), at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: hop `g`'s rows of the stacked features, hop `g`'s weight matrix, the bias, the output block. -/
abbrev rA1_0 : Rect S4x5000x64 := Rect.unit (s := S4x5000x64) ![0, 0, 0] S1x5000x64.size inb_S4x5000x64_S1x5000x64_0_0_0
abbrev rB1_0 : Rect S4x64x10 := Rect.unit (s := S4x64x10) ![0, 0, 0] S1x64x10.size inb_S4x64x10_S1x64x10_0_0_0
abbrev rA1_1 : Rect S4x5000x64 := Rect.unit (s := S4x5000x64) ![1, 0, 0] S1x5000x64.size inb_S4x5000x64_S1x5000x64_1_0_0
abbrev rB1_1 : Rect S4x64x10 := Rect.unit (s := S4x64x10) ![1, 0, 0] S1x64x10.size inb_S4x64x10_S1x64x10_1_0_0
abbrev rA1_2 : Rect S4x5000x64 := Rect.unit (s := S4x5000x64) ![2, 0, 0] S1x5000x64.size inb_S4x5000x64_S1x5000x64_2_0_0
abbrev rB1_2 : Rect S4x64x10 := Rect.unit (s := S4x64x10) ![2, 0, 0] S1x64x10.size inb_S4x64x10_S1x64x10_2_0_0
abbrev rA1_3 : Rect S4x5000x64 := Rect.unit (s := S4x5000x64) ![3, 0, 0] S1x5000x64.size inb_S4x5000x64_S1x5000x64_3_0_0
abbrev rB1_3 : Rect S4x64x10 := Rect.unit (s := S4x64x10) ![3, 0, 0] S1x64x10.size inb_S4x64x10_S1x64x10_3_0_0
abbrev rC1 : Rect S10 := Rect.unit (s := S10) ![0] S10.size inb_S10_S10_0
abbrev rO1 : Rect S5000x10 := Rect.unit (s := S5000x10) ![0, 0] S5000x10.size inb_S5000x10_S5000x10_0_0

/-- The output window's staging buffer after the body: its one store, the combination of the four hops' products
    plus the bias, rows normalised. -/
def out1_3 (x0 : Vec F S4x5000x64 .f32) (x1 : Vec F S4x64x10 .f32) (x2 : Vec F S10 .f32) : Vec F S5000x10 .f32 :=
  View.canon [⟨rO1, k1_pay1 (k1_pay2 (View.ld x0 rA1_0) (View.ld x1 rB1_0) (View.ld x0 rA1_1) (View.ld x1 rB1_1) (View.ld x0 rA1_2) (View.ld x1 rB1_2) (View.ld x0 rA1_3) (View.ld x1 rB1_3)) (View.ld x2 rC1)⟩]

/-- The one store covers the buffer. -/
theorem cover1_3 (p0 : Vec F S5000x10 .f32) (y : S5000x10.Idx) :
    ∃ pc ∈ ([⟨rO1, p0⟩] : List (View.Piece (Elt F) S5000x10 .f32)), y ∈ pc.1.set :=
  View.cover_of_tiled [⟨rO1, p0⟩] S5000x10.size (by rfl) y

set_option maxHeartbeats 4000000 in
/-- The body on whole staging memrefs: the inputs stay, the output ends at `out1_3` of the inputs. -/
theorem sound_kernel1 (c : Dev nD) (E : Set ℕ) (i : grid1.Coords) (arg1 : Memref sig .tc .vmem S4x5000x64 .f32) (harg1 : arg1.IsWhole) (arg2 : Memref sig .tc .vmem S4x64x10 .f32) (harg2 : arg2.IsWhole) (arg3 : Memref sig .tc .vmem S10 .f32) (harg3 : arg3.IsWhole) (arg4 : Memref sig .tc .vmem S5000x10 .f32) (harg4 : arg4.IsWhole)
    (x0 : Vec F S4x5000x64 .f32) (x1 : Vec F S4x64x10 .f32) (x2 : Vec F S10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The proof data of pipeline 1 on core `c`: the arrays as the region finds them; after the body each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The program's run from launch to return, at any float instance: the buffer contents at each boundary between the
  host stretches and the two kernel regions, and the run itself.

  The contents are a fold through the program: a host stretch applies its operations in order; a region leaves every
  buffer as it found it except its output array, which ends at what its grid points wrote back. Every weakly fair
  execution terminates, and the final memory holds every buffer that is not kernel-private at the last boundary's
  contents. No host stretch and no region writes an argument array, so each argument is read back through the fold
  to its launch contents; the result array is the second region's output.
-/
import proofs.«137570_j56891136803143_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the outlined selection. -/
abbrev W2 : Dev nD → Valuation τ sig (Elt F) := fun c => StableHlo.after hostOps0_1 (W1 m ρ c)
/-- After the first layer's propagation and stacking: the first region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the second layer's propagation and stacking: the second region's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched -/

/-- The six argument arrays. -/
abbrev isArg (r : Ref sig .tc) : Prop := r = main_arg0 ∨ r = main_arg1 ∨ r = main_arg2 ∨ r = main_arg3 ∨ r = main_arg4 ∨ r = main_arg5

/-- No host operation writes an argument array. -/
theorem after0_arg (c : Dev nD) (W : Valuation τ sig (Elt F)) (r : Ref sig .tc) (hr : isArg r) :
    StableHlo.after (hostOps0 (F := F)) W (Proc.devRef .tc r) = W (Proc.devRef .tc r) := by
  rcases hr with rfl | rfl | rfl | rfl | rfl | rfl <;>
  exact StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))
theorem after0_1_arg (c : Dev nD) (W : Valuation τ sig (Elt F)) (r : Ref sig .tc) (hr : isArg r) :
    StableHlo.after (hostOps0_1 (F := F)) W (Proc.devRef .tc r) = W (Proc.devRef .tc r) := by
  rcases hr with rfl | rfl | rfl | rfl | rfl | rfl <;>
  exact StableHlo.after_of_forall_not_mem _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))
set_option maxHeartbeats 4000000 in
theorem after0_2_arg (c : Dev nD) (W : Valuation τ sig (Elt F)) (r : Ref sig .tc) (hr : isArg r) :
    StableHlo.after (hostOps0_2 (F := F)) W (Proc.devRef .tc r) = W (Proc.devRef .tc r) := by
  rcases hr with rfl | rfl | rfl | rfl | rfl | rfl <;>
  exact StableHlo.after_of_forall_not_mem _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))
set_option maxHeartbeats 4000000 in
theorem after1_arg (c : Dev nD) (W : Valuation τ sig (Elt F)) (r : Ref sig .tc) (hr : isArg r) :
    StableHlo.after (hostOps1 (F := F)) W (Proc.devRef .tc r) = W (Proc.devRef .tc r) := by
  rcases hr with rfl | rfl | rfl | rfl | rfl | rfl <;>
  exact StableHlo.after_of_forall_not_mem _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))

/-- The first region leaves an argument as it found it: the weights and the bias are input windows, the others
    are no array of it. -/
theorem W4_arg (c : Dev nD) (r : Ref sig .tc) (hr : isArg r) : W4 m ρ c (Proc.devRef .tc r) = W3 m ρ c (Proc.devRef .tc r) := by
  rcases hr with rfl | rfl | rfl | rfl | rfl | rfl
  · exact W4_of_ne m ρ c _ (by decide)
  · exact W4_of_ne m ρ c _ (by decide)
  · exact (W4_arr m ρ c 1).trans (((dat0 (V3 m ρ) c).arrAt_in 1 rfl _).trans (A_eq0 (V3 m ρ) c 1))
  · exact (W4_arr m ρ c 2).trans (((dat0 (V3 m ρ) c).arrAt_in 2 rfl _).trans (A_eq0 (V3 m ρ) c 2))
  · exact W4_of_ne m ρ c _ (by decide)
  · exact W4_of_ne m ρ c _ (by decide)
theorem W6_arg (c : Dev nD) (r : Ref sig .tc) (hr : isArg r) : W6 m ρ c (Proc.devRef .tc r) = W5 m ρ c (Proc.devRef .tc r) := by
  rcases hr with rfl | rfl | rfl | rfl | rfl | rfl
  · exact W6_of_ne m ρ c _ (by decide)
  · exact W6_of_ne m ρ c _ (by decide)
  · exact W6_of_ne m ρ c _ (by decide)
  · exact W6_of_ne m ρ c _ (by decide)
  · exact (W6_arr m ρ c 1).trans (((dat1 (V5 m ρ) c).arrAt_in 1 rfl _).trans (A_eq1 (V5 m ρ) c 1))
  · exact (W6_arr m ρ c 2).trans (((dat1 (V5 m ρ) c).arrAt_in 2 rfl _).trans (A_eq1 (V5 m ρ) c 2))

/-- An argument array at the first region's entry holds its launch contents. -/
theorem W3_arg (c : Dev nD) (r : Ref sig .tc) (hr : isArg r) : W3 m ρ c (Proc.devRef .tc r) = m ((c : Thread nD τ).loc r) :=
  (after0_2_arg c _ r hr).trans ((after0_1_arg c _ r hr).trans ((after0_arg c _ r hr).trans rfl))
/-- An argument array at the end holds its launch contents. -/
theorem W6_arg_launch (c : Dev nD) (r : Ref sig .tc) (hr : isArg r) : W6 m ρ c (Proc.devRef .tc r) = m ((c : Thread nD τ).loc r) :=
  (W6_arg m ρ c r hr).trans ((after1_arg c _ r hr).trans ((W4_arg m ρ c r hr).trans (W3_arg m ρ c r hr)))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the buffers that are not kernel-private. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first region over the thread state: entered from every buffer at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
theorem main_run (c : Dev nD) : main (F := F) c = Pipeline.Seg.run (segs m ρ) := (main_chain c).trans (by chain_rfl)

set_option backward.isDefEq.respectTransparency.types false in
/-- The run: every weakly fair execution terminates, and every final memory holds every buffer that is not
    kernel-private at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_arg_launch m ρ c main_arg0 (.inl rfl)),
     (h c _ (mem_uc main_arg1 (by decide))).trans (W6_arg_launch m ρ c main_arg1 (.inr (.inl rfl))),
     (h c _ (mem_uc main_arg2 (by decide))).trans (W6_arg_launch m ρ c main_arg2 (.inr (.inr (.inl rfl)))),
     (h c _ (mem_uc main_arg3 (by decide))).trans (W6_arg_launch m ρ c main_arg3 (.inr (.inr (.inr (.inl rfl))))),
     (h c _ (mem_uc main_arg4 (by decide))).trans (W6_arg_launch m ρ c main_arg4 (.inr (.inr (.inr (.inr (.inl rfl)))))),
     (h c _ (mem_uc main_arg5 (by decide))).trans (W6_arg_launch m ρ c main_arg5 (.inr (.inr (.inr (.inr (.inr rfl))))))⟩)
    (run_all m ρ)

end Cert.Kernel.Hand

end
-- ==== Proof.KiBody.lean ====
/-
  The two kernel bodies of the program as pipeline proof data, at any float instance.

  Each body loads, for the four hop powers g = 0..3, the rows of hop g from the stacked feature block and the
  weight matrix of hop g from the stacked weights, multiplies them on the matrix unit into a zero accumulator, adds
  the four products left to right, adds the bias row, and stores the result (clipped at zero in the first body,
  normalised row by row in the second) over the whole output block. So after the body at a grid point every input
  buffer still holds its block and the output buffer holds one function of the three input blocks; this is what the
  pipeline's proof data record, and the body's triple is run by the symbolic executor over the named payloads.
-/
import proofs.«137570_j56891136803143_1_alg».proof.Proof.Gen.KernelIdeal.Launch
import proofs.«137570_j56891136803143_1_alg».proof.Proof.Gen.KernelIdeal.Skeleton
import proofs.«137570_j56891136803143_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: `cc0__combine_kernel` (pipeline 0), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: hop `g`'s rows of the stacked features, hop `g`'s weight matrix, the bias, the output block. -/
abbrev rA0_0 : Rect S4x5000x32 := Rect.unit (s := S4x5000x32) ![0, 0, 0] S1x5000x32.size inb_S4x5000x32_S1x5000x32_0_0_0
abbrev rB0_0 : Rect S4x32x64 := Rect.unit (s := S4x32x64) ![0, 0, 0] S1x32x64.size inb_S4x32x64_S1x32x64_0_0_0
abbrev rA0_1 : Rect S4x5000x32 := Rect.unit (s := S4x5000x32) ![1, 0, 0] S1x5000x32.size inb_S4x5000x32_S1x5000x32_1_0_0
abbrev rB0_1 : Rect S4x32x64 := Rect.unit (s := S4x32x64) ![1, 0, 0] S1x32x64.size inb_S4x32x64_S1x32x64_1_0_0
abbrev rA0_2 : Rect S4x5000x32 := Rect.unit (s := S4x5000x32) ![2, 0, 0] S1x5000x32.size inb_S4x5000x32_S1x5000x32_2_0_0
abbrev rB0_2 : Rect S4x32x64 := Rect.unit (s := S4x32x64) ![2, 0, 0] S1x32x64.size inb_S4x32x64_S1x32x64_2_0_0
abbrev rA0_3 : Rect S4x5000x32 := Rect.unit (s := S4x5000x32) ![3, 0, 0] S1x5000x32.size inb_S4x5000x32_S1x5000x32_3_0_0
abbrev rB0_3 : Rect S4x32x64 := Rect.unit (s := S4x32x64) ![3, 0, 0] S1x32x64.size inb_S4x32x64_S1x32x64_3_0_0
abbrev rC0 : Rect S64 := Rect.unit (s := S64) ![0] S64.size inb_S64_S64_0
abbrev rO0 : Rect S5000x64 := Rect.unit (s := S5000x64) ![0, 0] S5000x64.size inb_S5000x64_S5000x64_0_0

/-- The output window's staging buffer after the body: its one store, the combination of the four hops' products
    plus the bias, clipped at zero. -/
def out0_3 (x0 : Vec F S4x5000x32 .f32) (x1 : Vec F S4x32x64 .f32) (x2 : Vec F S64 .f32) : Vec F S5000x64 .f32 :=
  View.canon [⟨rO0, k0_pay1 (k0_pay2 (View.ld x0 rA0_0) (View.ld x1 rB0_0) (View.ld x0 rA0_1) (View.ld x1 rB0_1) (View.ld x0 rA0_2) (View.ld x1 rB0_2) (View.ld x0 rA0_3) (View.ld x1 rB0_3)) (View.ld x2 rC0)⟩]

/-- The one store covers the buffer. -/
theorem cover0_3 (p0 : Vec F S5000x64 .f32) (y : S5000x64.Idx) :
    ∃ pc ∈ ([⟨rO0, p0⟩] : List (View.Piece (Elt F) S5000x64 .f32)), y ∈ pc.1.set :=
  View.cover_of_tiled [⟨rO0, p0⟩] S5000x64.size (by rfl) y

set_option maxHeartbeats 4000000 in
/-- The body on whole staging memrefs: the inputs stay, the output ends at `out0_3` of the inputs. -/
theorem sound_kernel0 (c : Dev nD) (E : Set ℕ) (i : grid0.Coords) (arg1 : Memref sig .tc .vmem S4x5000x32 .f32) (harg1 : arg1.IsWhole) (arg2 : Memref sig .tc .vmem S4x32x64 .f32) (harg2 : arg2.IsWhole) (arg3 : Memref sig .tc .vmem S64 .f32) (harg3 : arg3.IsWhole) (arg4 : Memref sig .tc .vmem S5000x64 .f32) (harg4 : arg4.IsWhole)
    (x0 : Vec F S4x5000x32 .f32) (x1 : Vec F S4x32x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The proof data of pipeline 0 on core `c`: the arrays as the region finds them; after the body each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__combine_kernel` (pipeline 1), at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: hop `g`'s rows of the stacked features, hop `g`'s weight matrix, the bias, the output block. -/
abbrev rA1_0 : Rect S4x5000x64 := Rect.unit (s := S4x5000x64) ![0, 0, 0] S1x5000x64.size inb_S4x5000x64_S1x5000x64_0_0_0
abbrev rB1_0 : Rect S4x64x10 := Rect.unit (s := S4x64x10) ![0, 0, 0] S1x64x10.size inb_S4x64x10_S1x64x10_0_0_0
abbrev rA1_1 : Rect S4x5000x64 := Rect.unit (s := S4x5000x64) ![1, 0, 0] S1x5000x64.size inb_S4x5000x64_S1x5000x64_1_0_0
abbrev rB1_1 : Rect S4x64x10 := Rect.unit (s := S4x64x10) ![1, 0, 0] S1x64x10.size inb_S4x64x10_S1x64x10_1_0_0
abbrev rA1_2 : Rect S4x5000x64 := Rect.unit (s := S4x5000x64) ![2, 0, 0] S1x5000x64.size inb_S4x5000x64_S1x5000x64_2_0_0
abbrev rB1_2 : Rect S4x64x10 := Rect.unit (s := S4x64x10) ![2, 0, 0] S1x64x10.size inb_S4x64x10_S1x64x10_2_0_0
abbrev rA1_3 : Rect S4x5000x64 := Rect.unit (s := S4x5000x64) ![3, 0, 0] S1x5000x64.size inb_S4x5000x64_S1x5000x64_3_0_0
abbrev rB1_3 : Rect S4x64x10 := Rect.unit (s := S4x64x10) ![3, 0, 0] S1x64x10.size inb_S4x64x10_S1x64x10_3_0_0
abbrev rC1 : Rect S10 := Rect.unit (s := S10) ![0] S10.size inb_S10_S10_0
abbrev rO1 : Rect S5000x10 := Rect.unit (s := S5000x10) ![0, 0] S5000x10.size inb_S5000x10_S5000x10_0_0

/-- The output window's staging buffer after the body: its one store, the combination of the four hops' products
    plus the bias, rows normalised. -/
def out1_3 (x0 : Vec F S4x5000x64 .f32) (x1 : Vec F S4x64x10 .f32) (x2 : Vec F S10 .f32) : Vec F S5000x10 .f32 :=
  View.canon [⟨rO1, k1_pay1 (k1_pay2 (View.ld x0 rA1_0) (View.ld x1 rB1_0) (View.ld x0 rA1_1) (View.ld x1 rB1_1) (View.ld x0 rA1_2) (View.ld x1 rB1_2) (View.ld x0 rA1_3) (View.ld x1 rB1_3)) (View.ld x2 rC1)⟩]

/-- The one store covers the buffer. -/
theorem cover1_3 (p0 : Vec F S5000x10 .f32) (y : S5000x10.Idx) :
    ∃ pc ∈ ([⟨rO1, p0⟩] : List (View.Piece (Elt F) S5000x10 .f32)), y ∈ pc.1.set :=
  View.cover_of_tiled [⟨rO1, p0⟩] S5000x10.size (by rfl) y

set_option maxHeartbeats 4000000 in
/-- The body on whole staging memrefs: the inputs stay, the output ends at `out1_3` of the inputs. -/
theorem sound_kernel1 (c : Dev nD) (E : Set ℕ) (i : grid1.Coords) (arg1 : Memref sig .tc .vmem S4x5000x64 .f32) (harg1 : arg1.IsWhole) (arg2 : Memref sig .tc .vmem S4x64x10 .f32) (harg2 : arg2.IsWhole) (arg3 : Memref sig .tc .vmem S10 .f32) (harg3 : arg3.IsWhole) (arg4 : Memref sig .tc .vmem S5000x10 .f32) (harg4 : arg4.IsWhole)
    (x0 : Vec F S4x5000x64 .f32) (x1 : Vec F S4x64x10 .f32) (x2 : Vec F S10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The proof data of pipeline 1 on core `c`: the arrays as the region finds them; after the body each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The program's run from launch to return, at any float instance: the buffer contents at each boundary between the
  host stretches and the two kernel regions, and the run itself.

  The contents are a fold through the program: a host stretch applies its operations in order; a region leaves every
  buffer as it found it except its output array, which ends at what its grid points wrote back. Every weakly fair
  execution terminates, and the final memory holds every buffer that is not kernel-private at the last boundary's
  contents. No host stretch and no region writes an argument array, so each argument is read back through the fold
  to its launch contents; the result array is the second region's output.
-/
import proofs.«137570_j56891136803143_1_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the outlined selection. -/
abbrev W2 : Dev nD → Valuation τ sig (Elt F) := fun c => StableHlo.after hostOps0_1 (W1 m ρ c)
/-- After the first layer's propagation and stacking: the first region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the second layer's propagation and stacking: the second region's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched -/

/-- The six argument arrays. -/
abbrev isArg (r : Ref sig .tc) : Prop := r = main_arg0 ∨ r = main_arg1 ∨ r = main_arg2 ∨ r = main_arg3 ∨ r = main_arg4 ∨ r = main_arg5

/-- No host operation writes an argument array. -/
theorem after0_arg (c : Dev nD) (W : Valuation τ sig (Elt F)) (r : Ref sig .tc) (hr : isArg r) :
    StableHlo.after (hostOps0 (F := F)) W (Proc.devRef .tc r) = W (Proc.devRef .tc r) := by
  rcases hr with rfl | rfl | rfl | rfl | rfl | rfl <;>
  exact StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))
theorem after0_1_arg (c : Dev nD) (W : Valuation τ sig (Elt F)) (r : Ref sig .tc) (hr : isArg r) :
    StableHlo.after (hostOps0_1 (F := F)) W (Proc.devRef .tc r) = W (Proc.devRef .tc r) := by
  rcases hr with rfl | rfl | rfl | rfl | rfl | rfl <;>
  exact StableHlo.after_of_forall_not_mem _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))
set_option maxHeartbeats 4000000 in
theorem after0_2_arg (c : Dev nD) (W : Valuation τ sig (Elt F)) (r : Ref sig .tc) (hr : isArg r) :
    StableHlo.after (hostOps0_2 (F := F)) W (Proc.devRef .tc r) = W (Proc.devRef .tc r) := by
  rcases hr with rfl | rfl | rfl | rfl | rfl | rfl <;>
  exact StableHlo.after_of_forall_not_mem _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))
set_option maxHeartbeats 4000000 in
theorem after1_arg (c : Dev nD) (W : Valuation τ sig (Elt F)) (r : Ref sig .tc) (hr : isArg r) :
    StableHlo.after (hostOps1 (F := F)) W (Proc.devRef .tc r) = W (Proc.devRef .tc r) := by
  rcases hr with rfl | rfl | rfl | rfl | rfl | rfl <;>
  exact StableHlo.after_of_forall_not_mem _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))

/-- The first region leaves an argument as it found it: the weights and the bias are input windows, the others
    are no array of it. -/
theorem W4_arg (c : Dev nD) (r : Ref sig .tc) (hr : isArg r) : W4 m ρ c (Proc.devRef .tc r) = W3 m ρ c (Proc.devRef .tc r) := by
  rcases hr with rfl | rfl | rfl | rfl | rfl | rfl
  · exact W4_of_ne m ρ c _ (by decide)
  · exact W4_of_ne m ρ c _ (by decide)
  · exact (W4_arr m ρ c 1).trans (((dat0 (V3 m ρ) c).arrAt_in 1 rfl _).trans (A_eq0 (V3 m ρ) c 1))
  · exact (W4_arr m ρ c 2).trans (((dat0 (V3 m ρ) c).arrAt_in 2 rfl _).trans (A_eq0 (V3 m ρ) c 2))
  · exact W4_of_ne m ρ c _ (by decide)
  · exact W4_of_ne m ρ c _ (by decide)
theorem W6_arg (c : Dev nD) (r : Ref sig .tc) (hr : isArg r) : W6 m ρ c (Proc.devRef .tc r) = W5 m ρ c (Proc.devRef .tc r) := by
  rcases hr with rfl | rfl | rfl | rfl | rfl | rfl
  · exact W6_of_ne m ρ c _ (by decide)
  · exact W6_of_ne m ρ c _ (by decide)
  · exact W6_of_ne m ρ c _ (by decide)
  · exact W6_of_ne m ρ c _ (by decide)
  · exact (W6_arr m ρ c 1).trans (((dat1 (V5 m ρ) c).arrAt_in 1 rfl _).trans (A_eq1 (V5 m ρ) c 1))
  · exact (W6_arr m ρ c 2).trans (((dat1 (V5 m ρ) c).arrAt_in 2 rfl _).trans (A_eq1 (V5 m ρ) c 2))

/-- An argument array at the first region's entry holds its launch contents. -/
theorem W3_arg (c : Dev nD) (r : Ref sig .tc) (hr : isArg r) : W3 m ρ c (Proc.devRef .tc r) = m ((c : Thread nD τ).loc r) :=
  (after0_2_arg c _ r hr).trans ((after0_1_arg c _ r hr).trans ((after0_arg c _ r hr).trans rfl))
/-- An argument array at the end holds its launch contents. -/
theorem W6_arg_launch (c : Dev nD) (r : Ref sig .tc) (hr : isArg r) : W6 m ρ c (Proc.devRef .tc r) = m ((c : Thread nD τ).loc r) :=
  (W6_arg m ρ c r hr).trans ((after1_arg c _ r hr).trans ((W4_arg m ρ c r hr).trans (W3_arg m ρ c r hr)))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the buffers that are not kernel-private. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first region over the thread state: entered from every buffer at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
theorem main_run (c : Dev nD) : main (F := F) c = Pipeline.Seg.run (segs m ρ) := (main_chain c).trans (by chain_rfl)

set_option backward.isDefEq.respectTransparency.types false in
/-- The run: every weakly fair execution terminates, and every final memory holds every buffer that is not
    kernel-private at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_arg_launch m ρ c main_arg0 (.inl rfl)),
     (h c _ (mem_uc main_arg1 (by decide))).trans (W6_arg_launch m ρ c main_arg1 (.inr (.inl rfl))),
     (h c _ (mem_uc main_arg2 (by decide))).trans (W6_arg_launch m ρ c main_arg2 (.inr (.inr (.inl rfl)))),
     (h c _ (mem_uc main_arg3 (by decide))).trans (W6_arg_launch m ρ c main_arg3 (.inr (.inr (.inr (.inl rfl))))),
     (h c _ (mem_uc main_arg4 (by decide))).trans (W6_arg_launch m ρ c main_arg4 (.inr (.inr (.inr (.inr (.inl rfl)))))),
     (h c _ (mem_uc main_arg5 (by decide))).trans (W6_arg_launch m ρ c main_arg5 (.inr (.inr (.inr (.inr (.inr rfl))))))⟩)
    (run_all m ρ)

end Cert.KernelIdeal.Hand

end
-- ==== Proof.RefProp.lean ====
/-
  One hop of the propagation map, as the reference program computes it.

  Given the edge list, a hop sends node features `h` to the array whose row `v` is the sum, over the edges `e` whose
  target is `v`, of the edge's weight times row `source e` of `h`: a gather of the source rows, a product with the
  weights copied along each row, and an accumulating scatter into a zero array at the target rows. The weights and
  the two index columns depend on the edge list only. The same map is applied at both feature widths.
-/
import proofs.«137570_j56891136803143_1_alg».proof.Proof.RefRead

noncomputable section

namespace Cert.ReferenceIdeal.RefProp

open Cert.ReferenceIdeal Cert.ReferenceIdeal.Gen Cert.ReferenceIdeal.ReadP Idealize.ShloMosaic Idealize.ShloMosaic.TcCoe Idealize.SL.Sem

/-- One hop on features of width 32. -/
def prop32 (x1 : (⟨S2x1600000, .i32⟩ : BufTy).Contents (Elt Ideal)) (h : (⟨S100000x32, .f32⟩ : BufTy).Contents (Elt Ideal)) :
    (⟨S100000x32, .f32⟩ : BufTy).Contents (Elt Ideal) :=
  Host.scatterAdd (F := Ideal) (φ := .f32) scatter_S100000x32_S1600000x1_S1600000x32_1_0_0_1 (val_main_v37 (F := Ideal)) (val_main_v53 (F := Ideal) x1)
    (mulf (F := Ideal) (φ := .f32) (val_main_v46 (F := Ideal) x1) (Host.gather gather_S100000x32_S1600000x1_S1600000x32_1_0_n_n_0_1_132 h (val_main_v44 (F := Ideal) x1)))

/-- One hop on features of width 64. -/
def prop64 (x1 : (⟨S2x1600000, .i32⟩ : BufTy).Contents (Elt Ideal)) (h : (⟨S100000x64, .f32⟩ : BufTy).Contents (Elt Ideal)) :
    (⟨S100000x64, .f32⟩ : BufTy).Contents (Elt Ideal) :=
  Host.scatterAdd (F := Ideal) (φ := .f32) scatter_S100000x64_S1600000x1_S1600000x64_1_0_0_1 (val_main_v110 (F := Ideal)) (val_main_v126 (F := Ideal) x1)
    (mulf (F := Ideal) (φ := .f32) (val_main_v119 (F := Ideal) x1) (Host.gather gather_S100000x64_S1600000x1_S1600000x64_1_0_n_n_0_1_164 h (val_main_v117 (F := Ideal) x1)))

/-- The first hop of the first layer is the map applied to the input features. -/
theorem hop32_1 (x0 : (⟨S100000x32, .f32⟩ : BufTy).Contents (Elt Ideal)) (x1 : (⟨S2x1600000, .i32⟩ : BufTy).Contents (Elt Ideal)) :
    val_main_v54 (F := Ideal) x0 x1 = prop32 x1 x0 := rfl

end Cert.ReferenceIdeal.RefProp

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowSoftmax.lean ====
/-
  The log-softmax of the rows of a matrix, computed on the vector unit, read at an entry.

  For a row `o` the log-softmax at `c` is `(o_c - M) - log Σ_k exp (o_k - M)`, `M` the row's greatest entry. A kernel
  computes it for every row of a block `[R, d]` at once: the row maxima are a reduction along the second axis from the
  word of minus infinity, the reduced vector `[R]` is laid out as a column `[R, 1]` and copied along the row, the
  exponentials of the differences are summed by a reduction from the zero word, and the logarithms of the sums are laid out
  and copied the same way. At `(q, o)` the result is `lsmRow` of row `q`. A host library that takes the row maximum once more
  against minus infinity computes the same thing: a fold of `max` from `b` is already at least `b`.
-/
import Idealize.ShloMosaic.PureOps.Ideal
import Idealize.ShloMosaic.Lib.ValueIdx
import Idealize.ShloMosaic.Lib.Pipeline.Value
import Mathlib.Data.Finset.Fold
import proofs.«137570_j56891136803143_1_alg».proof.Proof.LibRowForms
import proofs.«137570_j56891136803143_1_alg».proof.Proof.LibColumnForms

noncomputable section

open scoped BigOperators

namespace Cert.RowSoftmax

open Idealize.ShloMosaic Idealize.ShloMosaic.ValueIdx

/-- The log-softmax of a row `o` at `c`: `(o_c - M) - log Σ_k exp (o_k - M)`, `M` the row's greatest entry, taken as
    the fold of `max` from `ninf`. -/
def lsmRow {d : ℕ} (ninf : EReal) (o : Fin d → EReal) (c : Fin d) : EReal :=
  (o c - Finset.univ.fold max ninf o) - Ideal.log (∑ k : Fin d, Ideal.exp (o k - Finset.univ.fold max ninf o))

/-- A fold of `max` from `b` is at least `b`, so taking the maximum with `b` once more changes nothing. -/
theorem max_fold_max_self {ι : Type} (s : Finset ι) (b : EReal) (f : ι → EReal) :
    max b (s.fold max b f) = s.fold max b f :=
  max_eq_right (Finset.le_fold_max b |>.mpr (Or.inl le_rfl))

/-- The row normalisation on a block `[R, d]`: at `(q, o)` the log-softmax of row `q`. -/
theorem block_lsm_apply {R d : ℕ} (pre : FVec Ideal ⟨2, ![R, d]⟩ .f32)
    (hr : (⟨2, ![R, d]⟩ : Shape).Reduces [1] ⟨1, ![R]⟩) (hc : (⟨1, ![R]⟩ : Shape).ShapeCasts ⟨2, ![R, 1]⟩)
    (hb : (⟨2, ![R, 1]⟩ : Shape).Broadcasts ⟨2, ![R, d]⟩) (q : Fin R) (o : Fin d) :
    subf (subf pre (broadcastTo ⟨2, ![R, d]⟩ (shapeCast ⟨2, ![R, 1]⟩
        (multiReduction .maximumf [1] ⟨1, ![R]⟩ pre 0xFF800000#32 hr (.inl rfl) rfl) hc) hb))
      (broadcastTo ⟨2, ![R, d]⟩ (log (shapeCast ⟨2, ![R, 1]⟩
        (multiReduction .add [1] ⟨1, ![R]⟩ (exp (subf pre (broadcastTo ⟨2, ![R, d]⟩ (shapeCast ⟨2, ![R, 1]⟩
          (multiReduction .maximumf [1] ⟨1, ![R]⟩ pre 0xFF800000#32 hr (.inl rfl) rfl) hc) hb))) 0x00000000#32 hr (.inl rfl) rfl) hc)) hb) (ix2 q o)
      = lsmRow (Ideal.ofBits .f32 0xFF800000#32) (fun c => pre (ix2 q c)) o := by
  have hmax : ∀ o' : Fin d, broadcastTo ⟨2, ![R, d]⟩ (shapeCast ⟨2, ![R, 1]⟩
        (multiReduction .maximumf [1] ⟨1, ![R]⟩ pre 0xFF800000#32 hr (.inl rfl) rfl) hc) hb (ix2 q o')
      = Finset.univ.fold max (Ideal.ofBits .f32 0xFF800000#32) (fun c => pre (ix2 q c)) := fun o' => by
    rw [Cert.ColumnForms.broadcastTo_a1_ab_apply, Cert.ColumnForms.shapeCast_a_a1_apply, Cert.RowForms.multiReduction_max_rows]
  rw [subf_apply, subf_apply, hmax, Cert.ColumnForms.broadcastTo_a1_ab_apply]
  unfold lsmRow
  refine congrArg (pre (ix2 q o) - _ - ·) ?_
  show Ideal.log (shapeCast ⟨2, ![R, 1]⟩ _ hc (ix2 q (0 : Fin 1))) = _
  rw [Cert.ColumnForms.shapeCast_a_a1_apply, Cert.RowForms.multiReduction_add_rows]
  refine congrArg Ideal.log (Finset.sum_congr rfl fun c _ => ?_)
  show Ideal.exp (pre (ix2 q c) - _) = _
  rw [hmax]

end Cert.RowSoftmax

end
-- ==== Proof.Spec.lean ====
/-
  The function both programs compute: a two-layer graph convolution over powers of a propagation map, followed by
  a row-wise log-softmax.

  A layer takes node features `x` (one row per node), a propagation map `P` on feature arrays (one hop along the
  edges of the graph, with the edges' weights), four weight matrices stacked as `W (k, c, o)` and a bias row `b`,
  and forms for node `r` and output feature `o` the number
  `(((∑_c x(r,c) W(0,c,o) + ∑_c (P x)(r,c) W(1,c,o)) + ∑_c (P² x)(r,c) W(2,c,o)) + ∑_c (P³ x)(r,c) W(3,c,o)) + b(o)`,
  the four sums added in this order. The first layer clips the result below at zero, the second normalises every
  row by the log-softmax. The propagation map stays a parameter: both programs apply the same one, and nothing here
  opens it. No law of arithmetic beyond the definitions is used, so no entry need be finite.
-/
import Idealize.ShloMosaic.PureOps.Ideal
import Idealize.ShloMosaic.Lib.ValueIdx
import proofs.«137570_j56891136803143_1_alg».proof.Proof.LibRowSoftmax

noncomputable section

open scoped BigOperators

namespace Cert.TagSpec

open Idealize.ShloMosaic Idealize.ShloMosaic.ValueIdx

/-- Four contractions of length `d`, added left to right, plus a bias: `a k c` the `k`-th feature row, `w k c` the
    `k`-th weight column. -/
def comb4 {d : ℕ} (a w : Fin 4 → Fin d → EReal) (b : EReal) : EReal :=
  ((((∑ c : Fin d, a 0 c * w 0 c) + ∑ c : Fin d, a 1 c * w 1 c) + ∑ c : Fin d, a 2 c * w 2 c)
    + ∑ c : Fin d, a 3 c * w 3 c) + b

/-- Four things listed by a number below four. -/
def sel4 {α : Type} (a0 a1 a2 a3 : α) : Fin 4 → α
  | ⟨0, _⟩ => a0
  | ⟨1, _⟩ => a1
  | ⟨2, _⟩ => a2
  | ⟨3, _⟩ => a3

/-- The features after 0, 1, 2 and 3 hops. -/
def hops {α : Type} (P : α → α) (x : α) : Fin 4 → α := sel4 x (P x) (P (P x)) (P (P (P x)))

/-- The first layer: the combination over the four hop powers, clipped below at the zero word's value. -/
def layer1 {n d k : ℕ} (P : ((⟨2, ![n, d]⟩ : Shape).Idx → EReal) → ((⟨2, ![n, d]⟩ : Shape).Idx → EReal))
    (x : (⟨2, ![n, d]⟩ : Shape).Idx → EReal) (W : (⟨3, ![4, d, k]⟩ : Shape).Idx → EReal)
    (b : (⟨1, ![k]⟩ : Shape).Idx → EReal) : (⟨2, ![n, k]⟩ : Shape).Idx → EReal :=
  fun i => max (comb4 (fun g c => hops P x g (ix2 (i 0) c)) (fun g c => W (ix3 g c (i 1))) (b (ix1 (i 1))))
    (Ideal.ofBits .f32 0x00000000#32)

/-- The second layer: the same combination, each row then normalised by the log-softmax. -/
def layer2 {n d k : ℕ} (P : ((⟨2, ![n, d]⟩ : Shape).Idx → EReal) → ((⟨2, ![n, d]⟩ : Shape).Idx → EReal))
    (x : (⟨2, ![n, d]⟩ : Shape).Idx → EReal) (W : (⟨3, ![4, d, k]⟩ : Shape).Idx → EReal)
    (b : (⟨1, ![k]⟩ : Shape).Idx → EReal) : (⟨2, ![n, k]⟩ : Shape).Idx → EReal :=
  fun i => Cert.RowSoftmax.lsmRow (Ideal.ofBits .f32 0xFF800000#32)
    (fun o => comb4 (fun g c => hops P x g (ix2 (i 0) c)) (fun g c => W (ix3 g c o)) (b (ix1 o))) (i 1)

theorem layer1_ix2 {n d k : ℕ} (P) (x : (⟨2, ![n, d]⟩ : Shape).Idx → EReal) (W : (⟨3, ![4, d, k]⟩ : Shape).Idx → EReal)
    (b : (⟨1, ![k]⟩ : Shape).Idx → EReal) (r : Fin n) (o : Fin k) :
    layer1 P x W b (ix2 r o) = max (comb4 (fun g c => hops P x g (ix2 r c)) (fun g c => W (ix3 g c o)) (b (ix1 o)))
      (Ideal.ofBits .f32 0x00000000#32) := rfl

theorem layer2_ix2 {n d k : ℕ} (P) (x : (⟨2, ![n, d]⟩ : Shape).Idx → EReal) (W : (⟨3, ![4, d, k]⟩ : Shape).Idx → EReal)
    (b : (⟨1, ![k]⟩ : Shape).Idx → EReal) (r : Fin n) (o : Fin k) :
    layer2 P x W b (ix2 r o) = Cert.RowSoftmax.lsmRow (Ideal.ofBits .f32 0xFF800000#32)
      (fun o' => comb4 (fun g c => hops P x g (ix2 r c)) (fun g c => W (ix3 g c o')) (b (ix1 o'))) o := rfl

/-- The whole model. -/
def model {n d1 d2 d3 : ℕ}
    (P1 : ((⟨2, ![n, d1]⟩ : Shape).Idx → EReal) → ((⟨2, ![n, d1]⟩ : Shape).Idx → EReal))
    (P2 : ((⟨2, ![n, d2]⟩ : Shape).Idx → EReal) → ((⟨2, ![n, d2]⟩ : Shape).Idx → EReal))
    (x : (⟨2, ![n, d1]⟩ : Shape).Idx → EReal) (W1 : (⟨3, ![4, d1, d2]⟩ : Shape).Idx → EReal)
    (b1 : (⟨1, ![d2]⟩ : Shape).Idx → EReal) (W2 : (⟨3, ![4, d2, d3]⟩ : Shape).Idx → EReal)
    (b2 : (⟨1, ![d3]⟩ : Shape).Idx → EReal) : (⟨2, ![n, d3]⟩ : Shape).Idx → EReal :=
  layer2 P2 (layer1 P1 x W1 b1) W2 b2

end Cert.TagSpec

end
-- ==== Proof.KiHost.lean ====
/-
  What the two kernel regions find in their input arrays, at the ideal values.

  Before each region the host stacks four feature arrays along a new leading axis: the layer's input and its images
  under one, two and three hops of the propagation map. The hop is a gather of source rows, a product with the edges'
  weights and an accumulating scatter at the target rows; the host applies the same operations as the reference
  program does, so each stacked array is the reference's hop map applied the right number of times. The stack read
  at (g, r, c) is array g at (r, c). The weights and the biases are the argument arrays.
-/
import proofs.«137570_j56891136803143_1_alg».proof.Proof.KiRun
import proofs.«137570_j56891136803143_1_alg».proof.Proof.RefProp
import proofs.«137570_j56891136803143_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.StableHlo
open Cert.ReferenceIdeal.RefProp (prop32 prop64)

/-- Four arrays `[100000, 32]` stacked along a new leading axis: each laid out as `[1, 100000, 32]`, the four joined. -/
def stack32 (a0 a1 a2 a3 : (⟨S100000x32, .f32⟩ : BufTy).Contents (Elt Ideal)) : (⟨S4x100000x32, .f32⟩ : BufTy).Contents (Elt Ideal) :=
  concatenate S4x100000x32 0 [⟨S1x100000x32, broadcastInDim S1x100000x32 ![1, 2] bcast_S100000x32_S1x100000x32_1_2 a0⟩, ⟨S1x100000x32, broadcastInDim S1x100000x32 ![1, 2] bcast_S100000x32_S1x100000x32_1_2 a1⟩, ⟨S1x100000x32, broadcastInDim S1x100000x32 ![1, 2] bcast_S100000x32_S1x100000x32_1_2 a2⟩, ⟨S1x100000x32, broadcastInDim S1x100000x32 ![1, 2] bcast_S100000x32_S1x100000x32_1_2 a3⟩] concatenates_S1x100000x32_S1x100000x32_S1x100000x32_S1x100000x32_S4x100000x32_d0

/-- The stack read at `(g, r, c)` is array `g` at `(r, c)`. -/
theorem stack32_apply (a0 a1 a2 a3 : (⟨S100000x32, .f32⟩ : BufTy).Contents (Elt Ideal)) (g : Fin 4) (r : Fin 100000) (c : Fin 32) :
    stack32 a0 a1 a2 a3 (ix3 g r c) = Cert.TagSpec.sel4 a0 a1 a2 a3 g (ix2 r c) := by
  unfold stack32
  refine (concatenate_ofFn_unit_apply (t := S4x100000x32) (s₁ := S1x100000x32) (0 : Fin 3) (N := 4)
    (fun n => Cert.TagSpec.sel4 (broadcastInDim S1x100000x32 ![1, 2] bcast_S100000x32_S1x100000x32_1_2 a0) (broadcastInDim S1x100000x32 ![1, 2] bcast_S100000x32_S1x100000x32_1_2 a1) (broadcastInDim S1x100000x32 ![1, 2] bcast_S100000x32_S1x100000x32_1_2 a2) (broadcastInDim S1x100000x32 ![1, 2] bcast_S100000x32_S1x100000x32_1_2 a3) n)
    concatenates_S1x100000x32_S1x100000x32_S1x100000x32_S1x100000x32_S4x100000x32_d0 rfl rfl (ix3 g r c) g rfl (ix3 (0 : Fin 1) r c)
    (fun b hb => by
      match b with
      | ⟨0, _⟩ => exact absurd rfl hb
      | ⟨1, _⟩ => rfl
      | ⟨2, _⟩ => rfl)).trans ?_
  match g with
  | ⟨0, _⟩ => exact broadcastInDim_apply _ bcast_S100000x32_S1x100000x32_1_2 _ (ix3 (0 : Fin 1) r c) (ix2 r c) (fun a => by match a with | ⟨0, _⟩ => rfl | ⟨1, _⟩ => rfl)
  | ⟨1, _⟩ => exact broadcastInDim_apply _ bcast_S100000x32_S1x100000x32_1_2 _ (ix3 (0 : Fin 1) r c) (ix2 r c) (fun a => by match a with | ⟨0, _⟩ => rfl | ⟨1, _⟩ => rfl)
  | ⟨2, _⟩ => exact broadcastInDim_apply _ bcast_S100000x32_S1x100000x32_1_2 _ (ix3 (0 : Fin 1) r c) (ix2 r c) (fun a => by match a with | ⟨0, _⟩ => rfl | ⟨1, _⟩ => rfl)
  | ⟨3, _⟩ => exact broadcastInDim_apply _ bcast_S100000x32_S1x100000x32_1_2 _ (ix3 (0 : Fin 1) r c) (ix2 r c) (fun a => by match a with | ⟨0, _⟩ => rfl | ⟨1, _⟩ => rfl)

/-- Four arrays `[100000, 64]` stacked along a new leading axis: each laid out as `[1, 100000, 64]`, the four joined. -/
def stack64 (a0 a1 a2 a3 : (⟨S100000x64, .f32⟩ : BufTy).Contents (Elt Ideal)) : (⟨S4x100000x64, .f32⟩ : BufTy).Contents (Elt Ideal) :=
  concatenate S4x100000x64 0 [⟨S1x100000x64, broadcastInDim S1x100000x64 ![1, 2] bcast_S100000x64_S1x100000x64_1_2 a0⟩, ⟨S1x100000x64, broadcastInDim S1x100000x64 ![1, 2] bcast_S100000x64_S1x100000x64_1_2 a1⟩, ⟨S1x100000x64, broadcastInDim S1x100000x64 ![1, 2] bcast_S100000x64_S1x100000x64_1_2 a2⟩, ⟨S1x100000x64, broadcastInDim S1x100000x64 ![1, 2] bcast_S100000x64_S1x100000x64_1_2 a3⟩] concatenates_S1x100000x64_S1x100000x64_S1x100000x64_S1x100000x64_S4x100000x64_d0

/-- The stack read at `(g, r, c)` is array `g` at `(r, c)`. -/
theorem stack64_apply (a0 a1 a2 a3 : (⟨S100000x64, .f32⟩ : BufTy).Contents (Elt Ideal)) (g : Fin 4) (r : Fin 100000) (c : Fin 64) :
    stack64 a0 a1 a2 a3 (ix3 g r c) = Cert.TagSpec.sel4 a0 a1 a2 a3 g (ix2 r c) := by
  unfold stack64
  refine (concatenate_ofFn_unit_apply (t := S4x100000x64) (s₁ := S1x100000x64) (0 : Fin 3) (N := 4)
    (fun n => Cert.TagSpec.sel4 (broadcastInDim S1x100000x64 ![1, 2] bcast_S100000x64_S1x100000x64_1_2 a0) (broadcastInDim S1x100000x64 ![1, 2] bcast_S100000x64_S1x100000x64_1_2 a1) (broadcastInDim S1x100000x64 ![1, 2] bcast_S100000x64_S1x100000x64_1_2 a2) (broadcastInDim S1x100000x64 ![1, 2] bcast_S100000x64_S1x100000x64_1_2 a3) n)
    concatenates_S1x100000x64_S1x100000x64_S1x100000x64_S1x100000x64_S4x100000x64_d0 rfl rfl (ix3 g r c) g rfl (ix3 (0 : Fin 1) r c)
    (fun b hb => by
      match b with
      | ⟨0, _⟩ => exact absurd rfl hb
      | ⟨1, _⟩ => rfl
      | ⟨2, _⟩ => rfl)).trans ?_
  match g with
  | ⟨0, _⟩ => exact broadcastInDim_apply _ bcast_S100000x64_S1x100000x64_1_2 _ (ix3 (0 : Fin 1) r c) (ix2 r c) (fun a => by match a with | ⟨0, _⟩ => rfl | ⟨1, _⟩ => rfl)
  | ⟨1, _⟩ => exact broadcastInDim_apply _ bcast_S100000x64_S1x100000x64_1_2 _ (ix3 (0 : Fin 1) r c) (ix2 r c) (fun a => by match a with | ⟨0, _⟩ => rfl | ⟨1, _⟩ => rfl)
  | ⟨2, _⟩ => exact broadcastInDim_apply _ bcast_S100000x64_S1x100000x64_1_2 _ (ix3 (0 : Fin 1) r c) (ix2 r c) (fun a => by match a with | ⟨0, _⟩ => rfl | ⟨1, _⟩ => rfl)
  | ⟨3, _⟩ => exact broadcastInDim_apply _ bcast_S100000x64_S1x100000x64_1_2 _ (ix3 (0 : Fin 1) r c) (ix2 r c) (fun a => by match a with | ⟨0, _⟩ => rfl | ⟨1, _⟩ => rfl)

/-- Two stacks of the same four pieces are equal. -/
theorem stack32_congr {u0 u1 u2 u3 v0 v1 v2 v3 : S1x100000x32.Idx → EReal} (e0 : u0 = v0) (e1 : u1 = v1) (e2 : u2 = v2) (e3 : u3 = v3)
    (h : Shape.Concatenates (([⟨S1x100000x32, u0⟩, ⟨S1x100000x32, u1⟩, ⟨S1x100000x32, u2⟩, ⟨S1x100000x32, u3⟩] : List ((s : Shape) × (s.Idx → EReal))).map (·.1)) S4x100000x32 0) :
    concatenate S4x100000x32 0 [⟨S1x100000x32, u0⟩, ⟨S1x100000x32, u1⟩, ⟨S1x100000x32, u2⟩, ⟨S1x100000x32, u3⟩] h
      = concatenate S4x100000x32 0 [⟨S1x100000x32, v0⟩, ⟨S1x100000x32, v1⟩, ⟨S1x100000x32, v2⟩, ⟨S1x100000x32, v3⟩] h := by
  subst e0 e1 e2 e3; rfl

/-- Two stacks of the same four pieces are equal. -/
theorem stack64_congr {u0 u1 u2 u3 v0 v1 v2 v3 : S1x100000x64.Idx → EReal} (e0 : u0 = v0) (e1 : u1 = v1) (e2 : u2 = v2) (e3 : u3 = v3)
    (h : Shape.Concatenates (([⟨S1x100000x64, u0⟩, ⟨S1x100000x64, u1⟩, ⟨S1x100000x64, u2⟩, ⟨S1x100000x64, u3⟩] : List ((s : Shape) × (s.Idx → EReal))).map (·.1)) S4x100000x64 0) :
    concatenate S4x100000x64 0 [⟨S1x100000x64, u0⟩, ⟨S1x100000x64, u1⟩, ⟨S1x100000x64, u2⟩, ⟨S1x100000x64, u3⟩] h
      = concatenate S4x100000x64 0 [⟨S1x100000x64, v0⟩, ⟨S1x100000x64, v1⟩, ⟨S1x100000x64, v2⟩, ⟨S1x100000x64, v3⟩] h := by
  subst e0 e1 e2 e3; rfl

variable (m : (ℓ : Loc nD τ sig) → Buf (Elt Ideal) ℓ) (ρ : Dev nD → PrngReg)

/-! ## After the first two host stretches: the degree factor, the source and target columns, the features -/

set_option maxRecDepth 65536 in
set_option maxHeartbeats 4000000 in
theorem w1_pos (c : Dev nD) : W1 m ρ c (Proc.devRef .tc main_v14) = Cert.ReferenceIdeal.ReadP.val_main_v14 (F := Ideal) (m ((c : Thread nD τ).loc main_arg1)) := by
  show StableHlo.after hostOps0 (W0 m ρ c) (Proc.devRef .tc main_v14) = _
  after_results_simp <;> rfl
set_option maxRecDepth 65536 in
set_option maxHeartbeats 4000000 in
theorem w1_rsqrt (c : Dev nD) : W1 m ρ c (Proc.devRef .tc main_v17) = Cert.ReferenceIdeal.ReadP.val_main_v17 (F := Ideal) (m ((c : Thread nD τ).loc main_arg1)) := by
  show StableHlo.after hostOps0 (W0 m ρ c) (Proc.devRef .tc main_v17) = _
  after_results_simp <;> rfl
set_option maxRecDepth 65536 in
set_option maxHeartbeats 4000000 in
theorem w1_zero (c : Dev nD) : W1 m ρ c (Proc.devRef .tc main_cst_4) = Cert.ReferenceIdeal.ReadP.val_main_cst_4 (F := Ideal) := by
  show StableHlo.after hostOps0 (W0 m ρ c) (Proc.devRef .tc main_cst_4) = _
  after_results_simp <;> rfl

/-- The outlined selection, over any contents of the buffers it reads: where the degree is positive the reciprocal
    root, elsewhere the zero constant copied to every node. -/
theorem where_eq (Wy : Valuation τ sig (Elt Ideal)) :
    StableHlo.after hostOps0_1 Wy (Proc.devRef .tc main_v18)
      = select (Wy (Proc.devRef .tc main_v14)) (Wy (Proc.devRef .tc main_v17))
          (broadcastInDim S100000 ![] bcast_S_S100000 (id (Wy (Proc.devRef .tc main_cst_4)))) := by
  after_results_simp
  rfl

theorem w2_dinv (c : Dev nD) : W2 m ρ c (Proc.devRef .tc main_v18) = Cert.ReferenceIdeal.ReadP.val_main_v18 (F := Ideal) (m ((c : Thread nD τ).loc main_arg1)) := by
  show StableHlo.after hostOps0_1 (W1 m ρ c) (Proc.devRef .tc main_v18) = _
  rw [where_eq, w1_pos m ρ c, w1_rsqrt m ρ c, w1_zero m ρ c]
  rfl
set_option maxRecDepth 65536 in
set_option maxHeartbeats 4000000 in
theorem w2_row (c : Dev nD) : W2 m ρ c (Proc.devRef .tc main_v1) = Cert.ReferenceIdeal.ReadP.val_main_v1 (F := Ideal) (m ((c : Thread nD τ).loc main_arg1)) := by
  show StableHlo.after hostOps0_1 (StableHlo.after hostOps0 (W0 m ρ c)) (Proc.devRef .tc main_v1) = _
  after_results_simp <;> rfl
set_option maxRecDepth 65536 in
set_option maxHeartbeats 4000000 in
theorem w2_col (c : Dev nD) : W2 m ρ c (Proc.devRef .tc main_v3) = Cert.ReferenceIdeal.ReadP.val_main_v3 (F := Ideal) (m ((c : Thread nD τ).loc main_arg1)) := by
  show StableHlo.after hostOps0_1 (StableHlo.after hostOps0 (W0 m ρ c)) (Proc.devRef .tc main_v3) = _
  after_results_simp <;> rfl
set_option maxRecDepth 65536 in
set_option maxHeartbeats 4000000 in
theorem w2_x (c : Dev nD) : W2 m ρ c (Proc.devRef .tc main_arg0) = (m ((c : Thread nD τ).loc main_arg0)) := by
  show StableHlo.after hostOps0_1 (StableHlo.after hostOps0 (W0 m ρ c)) (Proc.devRef .tc main_arg0) = _
  after_results_simp <;> rfl

/-! ## The first region's entry -/

set_option maxRecDepth 65536 in
set_option maxHeartbeats 8000000 in
/-- The first region's stacked input: the input features and their images under one, two and three hops. -/
theorem entry0 (c : Dev nD) : V3 m ρ c main_v92
    = stack32 (m ((c : Thread nD τ).loc main_arg0)) (prop32 (m ((c : Thread nD τ).loc main_arg1)) (m ((c : Thread nD τ).loc main_arg0))) (prop32 (m ((c : Thread nD τ).loc main_arg1)) (prop32 (m ((c : Thread nD τ).loc main_arg1)) (m ((c : Thread nD τ).loc main_arg0)))) (prop32 (m ((c : Thread nD τ).loc main_arg1)) (prop32 (m ((c : Thread nD τ).loc main_arg1)) (prop32 (m ((c : Thread nD τ).loc main_arg1)) (m ((c : Thread nD τ).loc main_arg0))))) := by
  show StableHlo.after hostOps0_2 (W2 m ρ c) (Proc.devRef .tc main_v92) = _
  have e18 := w2_dinv m ρ c
  have e1 := w2_row m ρ c
  have e3 := w2_col m ρ c
  have e0 := w2_x m ρ c
  generalize W2 m ρ c = Wx at e18 e1 e3 e0 ⊢
  after_results_simp
  simp only [Matrix.cons_val]
  unfold stack32
  refine stack32_congr ?_ ?_ ?_ ?_ _
  all_goals (after_results_simp; simp only [e18, e1, e3, e0]; try rfl)

set_option maxRecDepth 65536 in
set_option maxHeartbeats 8000000 in
/-- The edge weights as the second host stretch finds them. -/
theorem norm_eq (c : Dev nD) : W3 m ρ c (Proc.devRef .tc main_v33) = Cert.ReferenceIdeal.ReadP.val_main_v33 (F := Ideal) (m ((c : Thread nD τ).loc main_arg1)) := by
  show StableHlo.after hostOps0_2 (W2 m ρ c) (Proc.devRef .tc main_v33) = _
  have e18 := w2_dinv m ρ c
  have e1 := w2_row m ρ c
  have e3 := w2_col m ρ c
  generalize W2 m ρ c = Wx at e18 e1 e3 ⊢
  after_results_simp
  simp only [e18, e1, e3]
  rfl
set_option maxRecDepth 65536 in
set_option maxHeartbeats 8000000 in
theorem row_eq (c : Dev nD) : W3 m ρ c (Proc.devRef .tc main_v1) = Cert.ReferenceIdeal.ReadP.val_main_v1 (F := Ideal) (m ((c : Thread nD τ).loc main_arg1)) := by
  show StableHlo.after hostOps0_2 (W2 m ρ c) (Proc.devRef .tc main_v1) = _
  have e1 := w2_row m ρ c
  generalize W2 m ρ c = Wx at e1 ⊢
  after_results_simp
  exact e1
set_option maxRecDepth 65536 in
set_option maxHeartbeats 8000000 in
theorem col_eq (c : Dev nD) : W3 m ρ c (Proc.devRef .tc main_v3) = Cert.ReferenceIdeal.ReadP.val_main_v3 (F := Ideal) (m ((c : Thread nD τ).loc main_arg1)) := by
  show StableHlo.after hostOps0_2 (W2 m ρ c) (Proc.devRef .tc main_v3) = _
  have e3 := w2_col m ρ c
  generalize W2 m ρ c = Wx at e3 ⊢
  after_results_simp
  exact e3

/-! ## The second region's entry -/

set_option maxRecDepth 65536 in
set_option maxHeartbeats 8000000 in
/-- The second region's stacked input: the first layer's output and its images under one, two and three hops. -/
theorem entry1 (c : Dev nD) : V5 m ρ c main_v152
    = stack64 (W4 m ρ c (Proc.devRef .tc main_v93)) (prop64 (m ((c : Thread nD τ).loc main_arg1)) (W4 m ρ c (Proc.devRef .tc main_v93)))
        (prop64 (m ((c : Thread nD τ).loc main_arg1)) (prop64 (m ((c : Thread nD τ).loc main_arg1)) (W4 m ρ c (Proc.devRef .tc main_v93))))
        (prop64 (m ((c : Thread nD τ).loc main_arg1)) (prop64 (m ((c : Thread nD τ).loc main_arg1)) (prop64 (m ((c : Thread nD τ).loc main_arg1)) (W4 m ρ c (Proc.devRef .tc main_v93))))) := by
  show StableHlo.after hostOps1 (W4 m ρ c) (Proc.devRef .tc main_v152) = _
  generalize hh : W4 m ρ c (Proc.devRef .tc main_v93) = h
  have e33 : W4 m ρ c (Proc.devRef .tc main_v33) = Cert.ReferenceIdeal.ReadP.val_main_v33 (F := Ideal) (m ((c : Thread nD τ).loc main_arg1)) :=
    (W4_of_ne m ρ c main_v33 (by decide)).trans (norm_eq m ρ c)
  have e1 : W4 m ρ c (Proc.devRef .tc main_v1) = Cert.ReferenceIdeal.ReadP.val_main_v1 (F := Ideal) (m ((c : Thread nD τ).loc main_arg1)) :=
    (W4_of_ne m ρ c main_v1 (by decide)).trans (row_eq m ρ c)
  have e3 : W4 m ρ c (Proc.devRef .tc main_v3) = Cert.ReferenceIdeal.ReadP.val_main_v3 (F := Ideal) (m ((c : Thread nD τ).loc main_arg1)) :=
    (W4_of_ne m ρ c main_v3 (by decide)).trans (col_eq m ρ c)
  generalize W4 m ρ c = Wx at hh e33 e1 e3 ⊢
  after_results_simp
  simp only [Matrix.cons_val]
  unfold stack64
  refine stack64_congr ?_ ?_ ?_ ?_ _
  all_goals (after_results_simp; simp only [hh, e33, e1, e3]; try rfl)

end Cert.KernelIdeal.Hand

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.KiPayload.lean ====
/-
  The arithmetic of the two combine bodies, read at one entry.

  Each body multiplies four blocks of feature rows with four weight matrices into zero accumulators, adds the four
  products left to right, and adds a bias row to every row. The first body then clips below at zero; the second
  normalises every row by the log-softmax. Each operand reaches its product through a cast that drops a leading unit
  axis and a change of float format; over the extended reals the format change is the identity and the cast only
  renames the entry (i, j) as (0, i, j). So at (q, o) the first body is the maximum of the four-fold combination with
  zero, and the second is the log-softmax of the row of four-fold combinations. Only the definitions of the
  operations at an entry are used; no entry need be finite.
-/
import proofs.«137570_j56891136803143_1_alg».proof.Proof.Gen.KernelIdeal.Skeleton
import proofs.«137570_j56891136803143_1_alg».proof.Proof.Spec
import proofs.«137570_j56891136803143_1_alg».proof.Proof.LibPlainProduct
import proofs.«137570_j56891136803143_1_alg».proof.Proof.LibMergeForms
import proofs.«137570_j56891136803143_1_alg».proof.Proof.LibRowSoftmax
import Idealize.ShloMosaic.Lib.ValueIdx
import Idealize.ShloMosaic.Lib.ValueLayout

noncomputable section

open scoped BigOperators

namespace Cert.KernelIdeal.Payload

open Cert.KernelIdeal Cert.KernelIdeal.Gen Idealize.ShloMosaic Idealize.ShloMosaic.ValueIdx

/-! ## The first body -/

/-- One product of the first body at (q, o): a feature block and a weight matrix, each with its leading unit axis
    dropped and its entries narrowed, multiplied into the zero accumulator. It is the sum over the contracted
    coordinate of the products of the entries. -/
theorem prod0_apply (x : Vec Ideal S1x5000x32 .f32) (w : Vec Ideal S1x32x64 .f32) (q : Fin 5000) (o : Fin 64) :
    matmul (F := Ideal) dot_S5000x32_S32x64_S5000x64_1_0_0_1_n_n none
        (truncf .bf16 (shapeCast S5000x32 x shapeCasts_S1x5000x32_S5000x32 : FVec Ideal S5000x32 .f32) bitsLt_bf16_f32)
        (truncf .bf16 (shapeCast S32x64 w shapeCasts_S1x32x64_S32x64 : FVec Ideal S32x64 .f32) bitsLt_bf16_f32)
        (constant S5000x64 .f32 0x00000000#32) (ix2 q o)
      = ∑ c : Fin 32, x (ix3 0 q c) * w (ix3 0 c o) := by
  refine (PlainProduct.matmul_of_plain _ rfl none _ _ q o).trans ?_
  refine Finset.sum_congr rfl fun c _ => ?_
  rw [truncf_apply, truncf_apply, shapeCast_1ab_ab_apply, shapeCast_1ab_ab_apply]

/-- THE FIRST BODY at (q, o): the four products added left to right, plus the bias, clipped below at zero. -/
theorem pay0_apply (v0 v7 v15 v23 : Vec Ideal S1x5000x32 .f32) (v3 v10 v18 v26 : Vec Ideal S1x32x64 .f32)
    (v31 : Vec Ideal S64 .f32) (q : Fin 5000) (o : Fin 64) :
    k0_pay1 (F := Ideal) (k0_pay2 (F := Ideal) v0 v3 v7 v10 v15 v18 v23 v26) v31 (ix2 q o)
      = max (Cert.TagSpec.comb4 (fun g c => Cert.TagSpec.sel4 v0 v7 v15 v23 g (ix3 0 q c))
          (fun g c => Cert.TagSpec.sel4 v3 v10 v18 v26 g (ix3 0 c o)) (v31 (ix1 o)))
        (Ideal.ofBits .f32 0x00000000#32) := by
  show max (((((matmul (F := Ideal) dot_S5000x32_S32x64_S5000x64_1_0_0_1_n_n none
        (truncf .bf16 (shapeCast S5000x32 v0 shapeCasts_S1x5000x32_S5000x32 : FVec Ideal S5000x32 .f32) bitsLt_bf16_f32)
        (truncf .bf16 (shapeCast S32x64 v3 shapeCasts_S1x32x64_S32x64 : FVec Ideal S32x64 .f32) bitsLt_bf16_f32)
        (constant S5000x64 .f32 0x00000000#32) (ix2 q o))
      + (matmul (F := Ideal) dot_S5000x32_S32x64_S5000x64_1_0_0_1_n_n none
        (truncf .bf16 (shapeCast S5000x32 v7 shapeCasts_S1x5000x32_S5000x32 : FVec Ideal S5000x32 .f32) bitsLt_bf16_f32)
        (truncf .bf16 (shapeCast S32x64 v10 shapeCasts_S1x32x64_S32x64 : FVec Ideal S32x64 .f32) bitsLt_bf16_f32)
        (constant S5000x64 .f32 0x00000000#32) (ix2 q o)))
      + (matmul (F := Ideal) dot_S5000x32_S32x64_S5000x64_1_0_0_1_n_n none
        (truncf .bf16 (shapeCast S5000x32 v15 shapeCasts_S1x5000x32_S5000x32 : FVec Ideal S5000x32 .f32) bitsLt_bf16_f32)
        (truncf .bf16 (shapeCast S32x64 v18 shapeCasts_S1x32x64_S32x64 : FVec Ideal S32x64 .f32) bitsLt_bf16_f32)
        (constant S5000x64 .f32 0x00000000#32) (ix2 q o)))
      + (matmul (F := Ideal) dot_S5000x32_S32x64_S5000x64_1_0_0_1_n_n none
        (truncf .bf16 (shapeCast S5000x32 v23 shapeCasts_S1x5000x32_S5000x32 : FVec Ideal S5000x32 .f32) bitsLt_bf16_f32)
        (truncf .bf16 (shapeCast S32x64 v26 shapeCasts_S1x32x64_S32x64 : FVec Ideal S32x64 .f32) bitsLt_bf16_f32)
        (constant S5000x64 .f32 0x00000000#32) (ix2 q o)))
      + broadcastTo S5000x64 (shapeCast S1x64 v31 shapeCasts_S64_S1x64) broadcasts_S1x64_S5000x64 (ix2 q o))
    (Ideal.ofBits .f32 0x00000000#32) = _
  rw [prod0_apply, prod0_apply, prod0_apply, prod0_apply, Cert.PointConv.rowBias_apply]
  rfl

/-! ## The second body -/

/-- One product of the second body at (q, o): the same sum, over 64 contracted coordinates. -/
theorem prod1_apply (x : Vec Ideal S1x5000x64 .f32) (w : Vec Ideal S1x64x10 .f32) (q : Fin 5000) (o : Fin 10) :
    matmul (F := Ideal) dot_S5000x64_S64x10_S5000x10_1_0_0_1_n_n none
        (truncf .bf16 (shapeCast S5000x64 x shapeCasts_S1x5000x64_S5000x64 : FVec Ideal S5000x64 .f32) bitsLt_bf16_f32)
        (truncf .bf16 (shapeCast S64x10 w shapeCasts_S1x64x10_S64x10 : FVec Ideal S64x10 .f32) bitsLt_bf16_f32)
        (constant S5000x10 .f32 0x00000000#32) (ix2 q o)
      = ∑ c : Fin 64, x (ix3 0 q c) * w (ix3 0 c o) := by
  refine (PlainProduct.matmul_of_plain _ rfl none _ _ q o).trans ?_
  refine Finset.sum_congr rfl fun c _ => ?_
  rw [truncf_apply, truncf_apply, shapeCast_1ab_ab_apply, shapeCast_1ab_ab_apply]

/-- The second body before the row normalisation, at (q, o): the four products added left to right, plus the bias. -/
theorem pre1_apply (v0 v7 v15 v23 : Vec Ideal S1x5000x64 .f32) (v3 v10 v18 v26 : Vec Ideal S1x64x10 .f32)
    (v31 : Vec Ideal S10 .f32) (q : Fin 5000) (o : Fin 10) :
    addf (k1_pay2 (F := Ideal) v0 v3 v7 v10 v15 v18 v23 v26)
        (broadcastTo S5000x10 (shapeCast S1x10 v31 shapeCasts_S10_S1x10) broadcasts_S1x10_S5000x10) (ix2 q o)
      = Cert.TagSpec.comb4 (fun g c => Cert.TagSpec.sel4 v0 v7 v15 v23 g (ix3 0 q c))
          (fun g c => Cert.TagSpec.sel4 v3 v10 v18 v26 g (ix3 0 c o)) (v31 (ix1 o)) := by
  show ((((matmul (F := Ideal) dot_S5000x64_S64x10_S5000x10_1_0_0_1_n_n none
        (truncf .bf16 (shapeCast S5000x64 v0 shapeCasts_S1x5000x64_S5000x64 : FVec Ideal S5000x64 .f32) bitsLt_bf16_f32)
        (truncf .bf16 (shapeCast S64x10 v3 shapeCasts_S1x64x10_S64x10 : FVec Ideal S64x10 .f32) bitsLt_bf16_f32)
        (constant S5000x10 .f32 0x00000000#32) (ix2 q o))
      + (matmul (F := Ideal) dot_S5000x64_S64x10_S5000x10_1_0_0_1_n_n none
        (truncf .bf16 (shapeCast S5000x64 v7 shapeCasts_S1x5000x64_S5000x64 : FVec Ideal S5000x64 .f32) bitsLt_bf16_f32)
        (truncf .bf16 (shapeCast S64x10 v10 shapeCasts_S1x64x10_S64x10 : FVec Ideal S64x10 .f32) bitsLt_bf16_f32)
        (constant S5000x10 .f32 0x00000000#32) (ix2 q o)))
      + (matmul (F := Ideal) dot_S5000x64_S64x10_S5000x10_1_0_0_1_n_n none
        (truncf .bf16 (shapeCast S5000x64 v15 shapeCasts_S1x5000x64_S5000x64 : FVec Ideal S5000x64 .f32) bitsLt_bf16_f32)
        (truncf .bf16 (shapeCast S64x10 v18 shapeCasts_S1x64x10_S64x10 : FVec Ideal S64x10 .f32) bitsLt_bf16_f32)
        (constant S5000x10 .f32 0x00000000#32) (ix2 q o)))
      + (matmul (F := Ideal) dot_S5000x64_S64x10_S5000x10_1_0_0_1_n_n none
        (truncf .bf16 (shapeCast S5000x64 v23 shapeCasts_S1x5000x64_S5000x64 : FVec Ideal S5000x64 .f32) bitsLt_bf16_f32)
        (truncf .bf16 (shapeCast S64x10 v26 shapeCasts_S1x64x10_S64x10 : FVec Ideal S64x10 .f32) bitsLt_bf16_f32)
        (constant S5000x10 .f32 0x00000000#32) (ix2 q o)))
      + broadcastTo S5000x10 (shapeCast S1x10 v31 shapeCasts_S10_S1x10) broadcasts_S1x10_S5000x10 (ix2 q o) = _
  rw [prod1_apply, prod1_apply, prod1_apply, prod1_apply, Cert.PointConv.rowBias_apply]
  rfl

/-- THE SECOND BODY at (q, o): the log-softmax of row q of the four-fold combinations. -/
theorem pay1_apply (v0 v7 v15 v23 : Vec Ideal S1x5000x64 .f32) (v3 v10 v18 v26 : Vec Ideal S1x64x10 .f32)
    (v31 : Vec Ideal S10 .f32) (q : Fin 5000) (o : Fin 10) :
    k1_pay1 (F := Ideal) (k1_pay2 (F := Ideal) v0 v3 v7 v10 v15 v18 v23 v26) v31 (ix2 q o)
      = Cert.RowSoftmax.lsmRow (Ideal.ofBits .f32 0xFF800000#32)
          (fun o' => Cert.TagSpec.comb4 (fun g c => Cert.TagSpec.sel4 v0 v7 v15 v23 g (ix3 0 q c))
            (fun g c => Cert.TagSpec.sel4 v3 v10 v18 v26 g (ix3 0 c o')) (v31 (ix1 o'))) o := by
  refine (Cert.RowSoftmax.block_lsm_apply
    (addf (k1_pay2 (F := Ideal) v0 v3 v7 v10 v15 v18 v23 v26)
      (broadcastTo S5000x10 (shapeCast S1x10 v31 shapeCasts_S10_S1x10) broadcasts_S1x10_S5000x10))
    reduces_S5000x10_S5000 shapeCasts_S5000_S5000x1 broadcasts_S5000x1_S5000x10 q o).trans ?_
  exact congrArg (fun r => Cert.RowSoftmax.lsmRow (Ideal.ofBits .f32 0xFF800000#32) r o)
    (funext fun o' => pre1_apply v0 v7 v15 v23 v3 v10 v18 v26 v31 q o')

end Cert.KernelIdeal.Payload

end
-- ==== Proof.KiBlocks.lean ====
/-
  From the blocks to the whole arrays: what the two pipelines leave in their output arrays.

  Each pipeline walks twenty points along the node axis. At point `t` it has rows `5000 t … 5000 t + 4999` of the four
  stacked hop powers, the whole stack of weights and the whole bias in its staging buffers, and its body leaves the
  four-fold combination of those rows (clipped at zero in the first pipeline, each row normalised by the log-softmax
  in the second) in the output's buffer, which is written back to rows `5000 t … 5000 t + 4999` of the output array.
  So what point `t` writes back is block `t` of ONE function of the whole input arrays, `G0` (`G1`); the twenty blocks
  tile the array — row `r` is in the block of point `r / 5000` —, so the array ends holding that function.
-/
import proofs.«137570_j56891136803143_1_alg».proof.Proof.KiBody
import proofs.«137570_j56891136803143_1_alg».proof.Proof.KiPayload
import proofs.«137570_j56891136803143_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! # Pipeline 0: from the blocks to the whole array -/

/-- What the first layer's array ends holding: at node `r` and feature `o` the four hop powers' rows of the stacked
    features contracted with the four weight matrices, added left to right, plus the bias, clipped below at zero. -/
def G0 (S : S4x100000x32.Idx → EReal) (W : S4x32x64.Idx → EReal) (b : S64.Idx → EReal) : S100000x64.Idx → EReal :=
  fun i => max (Cert.TagSpec.comb4 (fun g c => S (ix3 g (i 0) c)) (fun g c => W (ix3 g c (i 1))) (b (ix1 (i 1))))
    (Ideal.ofBits .f32 0x00000000#32)

theorem zeroOff0 : (![0, 0] : Fin 2 → Nat) = fun _ => 0 := funext fun a => by fin_cases a <;> rfl

/-- Hop `g`'s rows of a stacked block, loaded as a block with a leading unit axis, read at `(0, q, c)`: the stacked
    block at `(g, q, c)`. -/
theorem ldA0 {Val : EltTy → Type} {e : EltTy} (x : S4x5000x32.Idx → Val e) (g : Nat) (hg : g < 4)
    (inb : ∀ d, (![g, 0, 0] : Fin 3 → Nat) d + S1x5000x32.size d ≤ S4x5000x32.size d) (q : Fin 5000) (c : Fin 32) :
    View.ld x (Rect.unit (s := S4x5000x32) ![g, 0, 0] S1x5000x32.size inb) (ix3 (0 : Fin 1) q c) = x (ix3 ⟨g, hg⟩ q c) := by
  show x _ = x _
  congr 1
  funext d
  apply Fin.ext
  match d with
  | ⟨0, _⟩ => show g + 1 * 0 = g; omega
  | ⟨1, _⟩ => show 0 + 1 * q.val = q.val; omega
  | ⟨2, _⟩ => show 0 + 1 * c.val = c.val; omega

/-- The same for hop `g`'s weight matrix. -/
theorem ldB0 {Val : EltTy → Type} {e : EltTy} (x : S4x32x64.Idx → Val e) (g : Nat) (hg : g < 4)
    (inb : ∀ d, (![g, 0, 0] : Fin 3 → Nat) d + S1x32x64.size d ≤ S4x32x64.size d) (c : Fin 32) (o : Fin 64) :
    View.ld x (Rect.unit (s := S4x32x64) ![g, 0, 0] S1x32x64.size inb) (ix3 (0 : Fin 1) c o) = x (ix3 ⟨g, hg⟩ c o) := by
  show x _ = x _
  congr 1
  funext d
  apply Fin.ext
  match d with
  | ⟨0, _⟩ => show g + 1 * 0 = g; omega
  | ⟨1, _⟩ => show 0 + 1 * c.val = c.val; omega
  | ⟨2, _⟩ => show 0 + 1 * o.val = o.val; omega

/-- The bias, loaded whole. -/
theorem ldC0 {Val : EltTy → Type} {e : EltTy} (x : S64.Idx → Val e) (o : Fin 64) : View.ld x rC0 (ix1 o) = x (ix1 o) := by
  show x _ = x _
  congr 1
  funext d
  apply Fin.ext
  match d with
  | ⟨0, _⟩ => show 0 + 1 * o.val = o.val; omega

/-- What the body leaves in the output block, at `(q, o)`, in terms of its three input blocks. -/
theorem out0_apply (x0 : Vec Ideal S4x5000x32 .f32) (x1 : Vec Ideal S4x32x64 .f32) (x2 : Vec Ideal S64 .f32)
    (q : Fin 5000) (o : Fin 64) :
    out0_3 x0 x1 x2 (ix2 q o)
      = max (Cert.TagSpec.comb4 (fun g c => x0 (ix3 g q c)) (fun g c => x1 (ix3 g c o)) (x2 (ix1 o)))
        (Ideal.ofBits .f32 0x00000000#32) := by
  unfold out0_3
  rw [View.canon_unit_zero zeroOff0]
  refine (Cert.KernelIdeal.Payload.pay0_apply _ _ _ _ _ _ _ _ _ q o).trans ?_
  have hA : (fun (g : Fin 4) (c : Fin 32) => Cert.TagSpec.sel4 (View.ld x0 rA0_0) (View.ld x0 rA0_1) (View.ld x0 rA0_2)
      (View.ld x0 rA0_3) g (ix3 0 q c)) = fun g c => x0 (ix3 g q c) := by
    funext g c
    match g with
    | ⟨0, _⟩ => exact ldA0 x0 0 (by omega) _ q c
    | ⟨1, _⟩ => exact ldA0 x0 1 (by omega) _ q c
    | ⟨2, _⟩ => exact ldA0 x0 2 (by omega) _ q c
    | ⟨3, _⟩ => exact ldA0 x0 3 (by omega) _ q c
  have hB : ∀ o' : Fin 64, (fun (g : Fin 4) (c : Fin 32) => Cert.TagSpec.sel4 (View.ld x1 rB0_0) (View.ld x1 rB0_1)
      (View.ld x1 rB0_2) (View.ld x1 rB0_3) g (ix3 0 c o')) = fun g c => x1 (ix3 g c o') := fun o' => by
    funext g c
    match g with
    | ⟨0, _⟩ => exact ldB0 x1 0 (by omega) _ c o'
    | ⟨1, _⟩ => exact ldB0 x1 1 (by omega) _ c o'
    | ⟨2, _⟩ => exact ldB0 x1 2 (by omega) _ c o'
    | ⟨3, _⟩ => exact ldB0 x1 3 (by omega) _ c o'
  rw [hA, hB o, ldC0]

/-- The printed index maps, decided over the grid: the feature rows and the output move with the point along the node
    axis, the weights and the bias stay. -/
theorem idx_facts0 : ∀ t : Fin cfg0.N, win0_0.index t (0 : Fin 3) = 0 ∧ win0_0.index t (1 : Fin 3) = t.val
    ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 2) = t.val ∧ win0_3.index t (1 : Fin 2) = 0 :=
  (by decide +kernel : ∀ t : Fin grid0.N, _)

/-- The feature window's block at point `t`: rows `5000 t … 5000 t + 4999` of every hop power. -/
theorem iblk0_0_apply (c : Dev nD) (t : Fin cfg0.N) (g : Fin 4) (q : Fin 5000) (k : Fin 32) (r : Fin 100000)
    (hr : r.val = t.val * 5000 + q.val) :
    (iblk0 V c 0 t : Vec Ideal S4x5000x32 .f32) (ix3 g q k) = (V c main_v92 : S4x100000x32.Idx → EReal) (ix3 g r k) := by
  obtain ⟨e0, e1, e2, -⟩ := idx_facts0 t
  unfold iblk0
  rw [View.read_apply]
  show V c main_v92 _ = V c main_v92 _
  congr 1
  funext a
  apply Fin.ext
  match a with
  | ⟨0, _⟩ => show win0_0.index t (0 : Fin 3) * 4 + 1 * g.val = g.val; rw [e0]; omega
  | ⟨1, _⟩ => show win0_0.index t (1 : Fin 3) * 5000 + 1 * q.val = r.val; rw [e1, hr]; omega
  | ⟨2, _⟩ => show win0_0.index t (2 : Fin 3) * 32 + 1 * k.val = k.val; rw [e2]; omega

/-- The weight window's block at any point: the whole stack of weights. -/
theorem iblk0_1_apply (c : Dev nD) (t : Fin cfg0.N) (g : Fin 4) (k : Fin 32) (o o' : Fin 64) (ho : o'.val = o.val) :
    (iblk0 V c 1 t : Vec Ideal S4x32x64 .f32) (ix3 g k o) = (V c main_arg2 : S4x32x64.Idx → EReal) (ix3 g k o') := by
  obtain ⟨-, -, -, e0, e1, e2, -⟩ := idx_facts0 t
  unfold iblk0
  rw [View.read_apply]
  show V c main_arg2 _ = V c main_arg2 _
  congr 1
  funext a
  apply Fin.ext
  match a with
  | ⟨0, _⟩ => show win0_1.index t (0 : Fin 3) * 4 + 1 * g.val = g.val; rw [e0]; omega
  | ⟨1, _⟩ => show win0_1.index t (1 : Fin 3) * 32 + 1 * k.val = k.val; rw [e1]; omega
  | ⟨2, _⟩ => show win0_1.index t (2 : Fin 3) * 64 + 1 * o.val = o'.val; rw [e2, ho]; omega

/-- The bias window's block at any point: the whole bias. -/
theorem iblk0_2_apply (c : Dev nD) (t : Fin cfg0.N) (o o' : Fin 64) (ho : o'.val = o.val) :
    (iblk0 V c 2 t : Vec Ideal S64 .f32) (ix1 o) = (V c main_arg3 : S64.Idx → EReal) (ix1 o') := by
  obtain ⟨-, -, -, -, -, -, e0, -⟩ := idx_facts0 t
  unfold iblk0
  rw [View.read_apply]
  show V c main_arg3 _ = V c main_arg3 _
  congr 1
  funext a
  apply Fin.ext
  match a with
  | ⟨0, _⟩ => show win0_2.index t (0 : Fin 1) * 64 + 1 * o.val = o'.val; rw [e0, ho]; omega

/-- WHAT POINT `t` WRITES BACK is block `t` of `G0` of the arrays as the region finds them. -/
theorem flushed0_eq (c : Dev nD) (t : Fin cfg0.N) :
    (dat0 V c).flushed 3 t = ((cfg0.win 3).blk t).view.read (Elt Ideal) (G0 (V c main_v92) (V c main_arg2) (V c main_arg3)) := by
  show (cfg0.win 3).cut (grid0.coords t) ((dat0 V c).after 3 t) = _
  rw [after0_3]
  obtain ⟨-, -, -, -, -, -, -, e0, e1⟩ := idx_facts0 t
  funext j
  obtain ⟨q, o, rfl⟩ : ∃ (q : Fin 5000) (o : Fin 64), j = ix2 q o := ⟨j 0, j 1, eq_ix2 j⟩
  have hr : (((cfg0.win 3).blk t).view.emb (ix2 q o) 0).val = t.val * 5000 + q.val := by
    show win0_3.index t (0 : Fin 2) * 5000 + 1 * q.val = _
    rw [e0]; omega
  have ho : (((cfg0.win 3).blk t).view.emb (ix2 q o) 1).val = o.val := by
    show win0_3.index t (1 : Fin 2) * 64 + 1 * o.val = _
    rw [e1]; omega
  show out0_3 (iblk0 V c 0 t) (iblk0 V c 1 t) (iblk0 V c 2 t) (ix2 q o)
    = G0 (V c main_v92) (V c main_arg2) (V c main_arg3) (((cfg0.win 3).blk t).view.emb (ix2 q o))
  refine (out0_apply _ _ _ q o).trans ?_
  show max (Cert.TagSpec.comb4 _ _ _) _ = max (Cert.TagSpec.comb4 _ _ _) _
  rw [show (fun (g : Fin 4) (k : Fin 32) => (iblk0 V c 0 t : Vec Ideal S4x5000x32 .f32) (ix3 g q k))
        = fun g k => (V c main_v92 : S4x100000x32.Idx → EReal) (ix3 g (((cfg0.win 3).blk t).view.emb (ix2 q o) 0) k) from
      funext fun g => funext fun k => iblk0_0_apply V c t g q k _ hr,
    show (fun (g : Fin 4) (k : Fin 32) => (iblk0 V c 1 t : Vec Ideal S4x32x64 .f32) (ix3 g k o))
        = fun g k => (V c main_arg2 : S4x32x64.Idx → EReal) (ix3 g k (((cfg0.win 3).blk t).view.emb (ix2 q o) 1)) from
      funext fun g => funext fun k => iblk0_1_apply V c t g k o _ ho,
    iblk0_2_apply V c t o _ ho]

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v93).slice (win0_3.rect t)).set ↔ _
  rw [View.set_slice_whole, Rect.mem_set_unit]
  exact Iff.rfl

/-- Every index of the array is in some point's block: row `r` is in the block of point `r / 5000`. -/
theorem cover0 (i : S100000x64.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  have ht : (i 0).val / 5000 < cfg0.N := by rw [hN]; omega
  obtain ⟨-, -, -, -, -, -, -, e0, e1⟩ := idx_facts0 ⟨(i 0).val / 5000, ht⟩
  have e0' : win0_3.index ⟨(i 0).val / 5000, ht⟩ (0 : Fin 2) = (i 0).val / 5000 := e0
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0']; omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e1]; omega

/-- THE ARRAY after the run of pipeline 0: `G0` of the arrays as the region finds them. -/
theorem final0 (c : Dev nD) :
    (dat0 (F := Ideal) V c).arrAt 3 cfg0.N = G0 (V c main_v92) (V c main_arg2) (V c main_arg3) :=
  (dat0 V c).arrAt_eq_of_cover 3 (G0 (V c main_v92) (V c main_arg2) (V c main_arg3)) (fun t _ => flushed0_eq V c t) cover0

/-! # Pipeline 1: from the blocks to the whole array -/

/-- What the second layer's array ends holding: at node `r` the same four-fold combination for every output feature,
    the row then normalised by the log-softmax. -/
def G1 (S : S4x100000x64.Idx → EReal) (W : S4x64x10.Idx → EReal) (b : S10.Idx → EReal) : S100000x10.Idx → EReal :=
  fun i => Cert.RowSoftmax.lsmRow (Ideal.ofBits .f32 0xFF800000#32)
    (fun o' => Cert.TagSpec.comb4 (fun g c => S (ix3 g (i 0) c)) (fun g c => W (ix3 g c o')) (b (ix1 o'))) (i 1)

theorem zeroOff1 : (![0, 0] : Fin 2 → Nat) = fun _ => 0 := funext fun a => by fin_cases a <;> rfl

/-- Hop `g`'s rows of a stacked block, loaded as a block with a leading unit axis, read at `(0, q, c)`: the stacked
    block at `(g, q, c)`. -/
theorem ldA1 {Val : EltTy → Type} {e : EltTy} (x : S4x5000x64.Idx → Val e) (g : Nat) (hg : g < 4)
    (inb : ∀ d, (![g, 0, 0] : Fin 3 → Nat) d + S1x5000x64.size d ≤ S4x5000x64.size d) (q : Fin 5000) (c : Fin 64) :
    View.ld x (Rect.unit (s := S4x5000x64) ![g, 0, 0] S1x5000x64.size inb) (ix3 (0 : Fin 1) q c) = x (ix3 ⟨g, hg⟩ q c) := by
  show x _ = x _
  congr 1
  funext d
  apply Fin.ext
  match d with
  | ⟨0, _⟩ => show g + 1 * 0 = g; omega
  | ⟨1, _⟩ => show 0 + 1 * q.val = q.val; omega
  | ⟨2, _⟩ => show 0 + 1 * c.val = c.val; omega

/-- The same for hop `g`'s weight matrix. -/
theorem ldB1 {Val : EltTy → Type} {e : EltTy} (x : S4x64x10.Idx → Val e) (g : Nat) (hg : g < 4)
    (inb : ∀ d, (![g, 0, 0] : Fin 3 → Nat) d + S1x64x10.size d ≤ S4x64x10.size d) (c : Fin 64) (o : Fin 10) :
    View.ld x (Rect.unit (s := S4x64x10) ![g, 0, 0] S1x64x10.size inb) (ix3 (0 : Fin 1) c o) = x (ix3 ⟨g, hg⟩ c o) := by
  show x _ = x _
  congr 1
  funext d
  apply Fin.ext
  match d with
  | ⟨0, _⟩ => show g + 1 * 0 = g; omega
  | ⟨1, _⟩ => show 0 + 1 * c.val = c.val; omega
  | ⟨2, _⟩ => show 0 + 1 * o.val = o.val; omega

/-- The bias, loaded whole. -/
theorem ldC1 {Val : EltTy → Type} {e : EltTy} (x : S10.Idx → Val e) (o : Fin 10) : View.ld x rC1 (ix1 o) = x (ix1 o) := by
  show x _ = x _
  congr 1
  funext d
  apply Fin.ext
  match d with
  | ⟨0, _⟩ => show 0 + 1 * o.val = o.val; omega

/-- What the body leaves in the output block, at `(q, o)`, in terms of its three input blocks. -/
theorem out1_apply (x0 : Vec Ideal S4x5000x64 .f32) (x1 : Vec Ideal S4x64x10 .f32) (x2 : Vec Ideal S10 .f32)
    (q : Fin 5000) (o : Fin 10) :
    out1_3 x0 x1 x2 (ix2 q o)
      = Cert.RowSoftmax.lsmRow (Ideal.ofBits .f32 0xFF800000#32)
        (fun o' => Cert.TagSpec.comb4 (fun g c => x0 (ix3 g q c)) (fun g c => x1 (ix3 g c o')) (x2 (ix1 o'))) o := by
  unfold out1_3
  rw [View.canon_unit_zero zeroOff1]
  refine (Cert.KernelIdeal.Payload.pay1_apply _ _ _ _ _ _ _ _ _ q o).trans ?_
  have hA : (fun (g : Fin 4) (c : Fin 64) => Cert.TagSpec.sel4 (View.ld x0 rA1_0) (View.ld x0 rA1_1) (View.ld x0 rA1_2)
      (View.ld x0 rA1_3) g (ix3 0 q c)) = fun g c => x0 (ix3 g q c) := by
    funext g c
    match g with
    | ⟨0, _⟩ => exact ldA1 x0 0 (by omega) _ q c
    | ⟨1, _⟩ => exact ldA1 x0 1 (by omega) _ q c
    | ⟨2, _⟩ => exact ldA1 x0 2 (by omega) _ q c
    | ⟨3, _⟩ => exact ldA1 x0 3 (by omega) _ q c
  have hB : ∀ o' : Fin 10, (fun (g : Fin 4) (c : Fin 64) => Cert.TagSpec.sel4 (View.ld x1 rB1_0) (View.ld x1 rB1_1)
      (View.ld x1 rB1_2) (View.ld x1 rB1_3) g (ix3 0 c o')) = fun g c => x1 (ix3 g c o') := fun o' => by
    funext g c
    match g with
    | ⟨0, _⟩ => exact ldB1 x1 0 (by omega) _ c o'
    | ⟨1, _⟩ => exact ldB1 x1 1 (by omega) _ c o'
    | ⟨2, _⟩ => exact ldB1 x1 2 (by omega) _ c o'
    | ⟨3, _⟩ => exact ldB1 x1 3 (by omega) _ c o'
  rw [hA]
  refine congrArg (fun r => Cert.RowSoftmax.lsmRow (Ideal.ofBits .f32 0xFF800000#32) r o) (funext fun o' => ?_)
  show Cert.TagSpec.comb4 _ _ _ = Cert.TagSpec.comb4 _ _ _
  rw [hB o', ldC1]

/-- The printed index maps, decided over the grid: the feature rows and the output move with the point along the node
    axis, the weights and the bias stay. -/
theorem idx_facts1 : ∀ t : Fin cfg1.N, win1_0.index t (0 : Fin 3) = 0 ∧ win1_0.index t (1 : Fin 3) = t.val
    ∧ win1_0.index t (2 : Fin 3) = 0
    ∧ win1_1.index t (0 : Fin 3) = 0 ∧ win1_1.index t (1 : Fin 3) = 0 ∧ win1_1.index t (2 : Fin 3) = 0
    ∧ win1_2.index t (0 : Fin 1) = 0
    ∧ win1_3.index t (0 : Fin 2) = t.val ∧ win1_3.index t (1 : Fin 2) = 0 :=
  (by decide +kernel : ∀ t : Fin grid1.N, _)

/-- The feature window's block at point `t`: rows `5000 t … 5000 t + 4999` of every hop power. -/
theorem iblk1_0_apply (c : Dev nD) (t : Fin cfg1.N) (g : Fin 4) (q : Fin 5000) (k : Fin 64) (r : Fin 100000)
    (hr : r.val = t.val * 5000 + q.val) :
    (iblk1 V c 0 t : Vec Ideal S4x5000x64 .f32) (ix3 g q k) = (V c main_v152 : S4x100000x64.Idx → EReal) (ix3 g r k) := by
  obtain ⟨e0, e1, e2, -⟩ := idx_facts1 t
  unfold iblk1
  rw [View.read_apply]
  show V c main_v152 _ = V c main_v152 _
  congr 1
  funext a
  apply Fin.ext
  match a with
  | ⟨0, _⟩ => show win1_0.index t (0 : Fin 3) * 4 + 1 * g.val = g.val; rw [e0]; omega
  | ⟨1, _⟩ => show win1_0.index t (1 : Fin 3) * 5000 + 1 * q.val = r.val; rw [e1, hr]; omega
  | ⟨2, _⟩ => show win1_0.index t (2 : Fin 3) * 64 + 1 * k.val = k.val; rw [e2]; omega

/-- The weight window's block at any point: the whole stack of weights. -/
theorem iblk1_1_apply (c : Dev nD) (t : Fin cfg1.N) (g : Fin 4) (k : Fin 64) (o o' : Fin 10) (ho : o'.val = o.val) :
    (iblk1 V c 1 t : Vec Ideal S4x64x10 .f32) (ix3 g k o) = (V c main_arg4 : S4x64x10.Idx → EReal) (ix3 g k o') := by
  obtain ⟨-, -, -, e0, e1, e2, -⟩ := idx_facts1 t
  unfold iblk1
  rw [View.read_apply]
  show V c main_arg4 _ = V c main_arg4 _
  congr 1
  funext a
  apply Fin.ext
  match a with
  | ⟨0, _⟩ => show win1_1.index t (0 : Fin 3) * 4 + 1 * g.val = g.val; rw [e0]; omega
  | ⟨1, _⟩ => show win1_1.index t (1 : Fin 3) * 64 + 1 * k.val = k.val; rw [e1]; omega
  | ⟨2, _⟩ => show win1_1.index t (2 : Fin 3) * 10 + 1 * o.val = o'.val; rw [e2, ho]; omega

/-- The bias window's block at any point: the whole bias. -/
theorem iblk1_2_apply (c : Dev nD) (t : Fin cfg1.N) (o o' : Fin 10) (ho : o'.val = o.val) :
    (iblk1 V c 2 t : Vec Ideal S10 .f32) (ix1 o) = (V c main_arg5 : S10.Idx → EReal) (ix1 o') := by
  obtain ⟨-, -, -, -, -, -, e0, -⟩ := idx_facts1 t
  unfold iblk1
  rw [View.read_apply]
  show V c main_arg5 _ = V c main_arg5 _
  congr 1
  funext a
  apply Fin.ext
  match a with
  | ⟨0, _⟩ => show win1_2.index t (0 : Fin 1) * 10 + 1 * o.val = o'.val; rw [e0, ho]; omega

/-- WHAT POINT `t` WRITES BACK is block `t` of `G1` of the arrays as the region finds them. -/
theorem flushed1_eq (c : Dev nD) (t : Fin cfg1.N) :
    (dat1 V c).flushed 3 t = ((cfg1.win 3).blk t).view.read (Elt Ideal) (G1 (V c main_v152) (V c main_arg4) (V c main_arg5)) := by
  show (cfg1.win 3).cut (grid1.coords t) ((dat1 V c).after 3 t) = _
  rw [after1_3]
  obtain ⟨-, -, -, -, -, -, -, e0, e1⟩ := idx_facts1 t
  funext j
  obtain ⟨q, o, rfl⟩ : ∃ (q : Fin 5000) (o : Fin 10), j = ix2 q o := ⟨j 0, j 1, eq_ix2 j⟩
  have hr : (((cfg1.win 3).blk t).view.emb (ix2 q o) 0).val = t.val * 5000 + q.val := by
    show win1_3.index t (0 : Fin 2) * 5000 + 1 * q.val = _
    rw [e0]; omega
  have ho : (((cfg1.win 3).blk t).view.emb (ix2 q o) 1).val = o.val := by
    show win1_3.index t (1 : Fin 2) * 10 + 1 * o.val = _
    rw [e1]; omega
  show out1_3 (iblk1 V c 0 t) (iblk1 V c 1 t) (iblk1 V c 2 t) (ix2 q o)
    = G1 (V c main_v152) (V c main_arg4) (V c main_arg5) (((cfg1.win 3).blk t).view.emb (ix2 q o))
  refine (out1_apply _ _ _ q o).trans ?_
  unfold G1
  refine congrArg₂ (Cert.RowSoftmax.lsmRow (Ideal.ofBits .f32 0xFF800000#32)) (funext fun o' => ?_) (Fin.ext ho).symm
  show Cert.TagSpec.comb4 _ _ _ = Cert.TagSpec.comb4 _ _ _
  rw [show (fun (g : Fin 4) (k : Fin 64) => (iblk1 V c 0 t : Vec Ideal S4x5000x64 .f32) (ix3 g q k))
        = fun g k => (V c main_v152 : S4x100000x64.Idx → EReal) (ix3 g (((cfg1.win 3).blk t).view.emb (ix2 q o) 0) k) from
      funext fun g => funext fun k => iblk1_0_apply V c t g q k _ hr,
    show (fun (g : Fin 4) (k : Fin 64) => (iblk1 V c 1 t : Vec Ideal S4x64x10 .f32) (ix3 g k o'))
        = fun g k => (V c main_arg4 : S4x64x10.Idx → EReal) (ix3 g k o') from
      funext fun g => funext fun k => iblk1_1_apply V c t g k o' o' rfl,
    iblk1_2_apply V c t o' o' rfl]

/-- An index of the array is in point `t`'s block iff each coordinate is in the block's range on its axis. -/
theorem mem_blk1 (t : Fin cfg1.N) (i : S100000x10.Idx) :
    i ∈ ((cfg1.win 3).blk t).view.set ↔ ∀ a : Fin 2, win1_3.index t a * S5000x10.size a ≤ (i a).val
      ∧ (i a).val < win1_3.index t a * S5000x10.size a + S5000x10.size a := by
  show i ∈ ((View.whole main_v153).slice (win1_3.rect t)).set ↔ _
  rw [View.set_slice_whole, Rect.mem_set_unit]
  exact Iff.rfl

/-- Every index of the array is in some point's block: row `r` is in the block of point `r / 5000`. -/
theorem cover1 (i : S100000x10.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 10 := (i 1).isLt
  have ht : (i 0).val / 5000 < cfg1.N := by rw [hN]; omega
  obtain ⟨-, -, -, -, -, -, -, e0, e1⟩ := idx_facts1 ⟨(i 0).val / 5000, ht⟩
  have e0' : win1_3.index ⟨(i 0).val / 5000, ht⟩ (0 : Fin 2) = (i 0).val / 5000 := e0
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0']; omega
  | ⟨1, _⟩ =>
    show win1_3.index ⟨(i 0).val / 5000, ht⟩ (1 : Fin 2) * 10 ≤ (i 1).val
      ∧ (i 1).val < win1_3.index ⟨(i 0).val / 5000, ht⟩ (1 : Fin 2) * 10 + 10
    rw [e1]; omega

/-- THE ARRAY after the run of pipeline 1: `G1` of the arrays as the region finds them. -/
theorem final1 (c : Dev nD) :
    (dat1 (F := Ideal) V c).arrAt 3 cfg1.N = G1 (V c main_v152) (V c main_arg4) (V c main_arg5) :=
  (dat1 V c).arrAt_eq_of_cover 3 (G1 (V c main_v152) (V c main_arg4) (V c main_arg5)) (fun t _ => flushed1_eq V c t) cover1

end Cert.KernelIdeal.Hand

end
-- ==== Proof.KiValue.lean ====
/-
  The idealized kernel program's result as one function of its arguments.

  The first region's output array is, entry by entry, the first layer of the model applied to the stacked hop powers
  of the input features; the host then stacks the hop powers of that array, and the second region's output is the
  second layer applied to them. With the stacks read member by member, the result array is the two-layer model over
  the reference's own hop map, of the argument arrays as launched.
-/
import proofs.«137570_j56891136803143_1_alg».proof.Proof.KiHost
import proofs.«137570_j56891136803143_1_alg».proof.Proof.KiBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.ReferenceIdeal.RefProp (prop32 prop64)
open Cert.TagSpec

variable (m : (ℓ : Loc nD τ sig) → Buf (Elt Ideal) ℓ) (ρ : Dev nD → PrngReg)

/-- The first region's output array is the first layer of the model. -/
theorem layer1_val (c : Dev nD) :
    W4 m ρ c (Proc.devRef .tc main_v93) = layer1 (prop32 (m ((c : Thread nD τ).loc main_arg1))) (m ((c : Thread nD τ).loc main_arg0)) (m ((c : Thread nD τ).loc main_arg2)) (m ((c : Thread nD τ).loc main_arg3)) := by
  have e2 : V3 m ρ c main_arg2 = (m ((c : Thread nD τ).loc main_arg2)) := W3_arg m ρ c main_arg2 (.inr (.inr (.inl rfl)))
  have e3 : V3 m ρ c main_arg3 = (m ((c : Thread nD τ).loc main_arg3)) := W3_arg m ρ c main_arg3 (.inr (.inr (.inr (.inl rfl))))
  refine ((W4_arr m ρ c 3).trans (final0 (V3 m ρ) c)).trans ?_
  rw [entry0 m ρ c, e2, e3]
  funext i
  obtain ⟨r, o, rfl⟩ : ∃ (r : Fin 100000) (o : Fin 64), i = ix2 r o := ⟨i 0, i 1, eq_ix2 i⟩
  rw [layer1_ix2]
  show max (comb4 (fun g k => stack32 _ _ _ _ (ix3 g r k)) _ _) _ = _
  simp only [stack32_apply]
  rfl

/-- The program's result array is the two-layer model of the argument arrays. -/
theorem result_val (c : Dev nD) :
    W6 m ρ c (Proc.devRef .tc main_v153)
      = model (prop32 (m ((c : Thread nD τ).loc main_arg1))) (prop64 (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) := by
  have e4 : V5 m ρ c main_arg4 = (m ((c : Thread nD τ).loc main_arg4)) :=
    (after1_arg c _ main_arg4 (.inr (.inr (.inr (.inr (.inl rfl)))))).trans ((W4_arg m ρ c main_arg4 (.inr (.inr (.inr (.inr (.inl rfl)))))).trans (W3_arg m ρ c main_arg4 (.inr (.inr (.inr (.inr (.inl rfl)))))))
  have e5 : V5 m ρ c main_arg5 = (m ((c : Thread nD τ).loc main_arg5)) :=
    (after1_arg c _ main_arg5 (.inr (.inr (.inr (.inr (.inr rfl)))))).trans ((W4_arg m ρ c main_arg5 (.inr (.inr (.inr (.inr (.inr rfl)))))).trans (W3_arg m ρ c main_arg5 (.inr (.inr (.inr (.inr (.inr rfl)))))))
  refine ((W6_arr m ρ c 3).trans (final1 (V5 m ρ) c)).trans ?_
  rw [entry1 m ρ c, e4, e5, layer1_val m ρ c]
  unfold model
  funext i
  obtain ⟨r, o, rfl⟩ : ∃ (r : Fin 100000) (o : Fin 10), i = ix2 r o := ⟨i 0, i 1, eq_ix2 i⟩
  rw [layer2_ix2]
  show Cert.RowSoftmax.lsmRow _ (fun o' => comb4 (fun g k => stack64 _ _ _ _ (ix3 g r k)) _ _) o = _
  simp only [stack64_apply]
  rfl

/-- The run, read: every weakly fair execution terminates with the result array at the two-layer model of the
    argument arrays, and the argument arrays unchanged. -/
theorem run_val : θ_run defs (onTc (τ := τ) (main (F := Ideal))) ⟨m, fun _ => 0, ρ⟩ (fun r => ∀ c : Dev nD,
      r.2.mem ((c.tc : Thread nD τ).loc main_v153)
        = model (prop32 (m ((c : Thread nD τ).loc main_arg1))) (prop64 (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v153 (by decide))).trans (result_val m ρ c),
     (h c _ (mem_uc main_arg0 (by decide))).trans (W6_arg_launch m ρ c main_arg0 (.inl rfl)),
     (h c _ (mem_uc main_arg1 (by decide))).trans (W6_arg_launch m ρ c main_arg1 (.inr (.inl rfl))),
     (h c _ (mem_uc main_arg2 (by decide))).trans (W6_arg_launch m ρ c main_arg2 (.inr (.inr (.inl rfl)))),
     (h c _ (mem_uc main_arg3 (by decide))).trans (W6_arg_launch m ρ c main_arg3 (.inr (.inr (.inr (.inl rfl))))),
     (h c _ (mem_uc main_arg4 (by decide))).trans (W6_arg_launch m ρ c main_arg4 (.inr (.inr (.inr (.inr (.inl rfl)))))),
     (h c _ (mem_uc main_arg5 (by decide))).trans (W6_arg_launch m ρ c main_arg5 (.inr (.inr (.inr (.inr (.inr rfl))))))⟩)
    (run_all m ρ)

end Cert.KernelIdeal.Hand

end
-- ==== Proof.RefRun.lean ====
/-
  The reference program's run, read at its last stage.

  The reference is one line of 239 host operations; every weakly fair execution of it terminates with each buffer at
  the fold of the operations over the launch contents. The result buffer's fold is read stage by stage: the line is
  cut at the three outlined functions (the selection of the degree factor, the clipping at zero, the row-wise
  log-softmax) into six stretches; a stretch of plain operations, started from ANY contents that hold the earlier
  stages where it reads them, leaves the later stages in the buffers it writes; an outlined function's operations are
  read over variables, so that the transports along its typed references' type equations never stand around a
  full-size term; what a stretch does not write it keeps. Composed, the result buffer ends at the last stage of
  the argument arrays, and the argument arrays are never written.
-/
import proofs.«137570_j56891136803143_1_alg».proof.Proof.RefOps

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## The result through the three outlined calls -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v3 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v3 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v3 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    nullary main_cst_1 (constant S_ .f32 0x3F800000#32),
    unary main_cst_1 main_v11 (broadcastInDim S1600000 ![] bcast_S_S1600000 : (⟨S_, .f32⟩ : BufTy).Contents (Elt F) → (⟨S1600000, .f32⟩ : BufTy).Contents (Elt F)),
    ternary main_v4 main_v10 main_v11 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x00000000#32),
    unary main_cst_2 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    unary main_cst_3 main_v15 (broadcastInDim S100000 ![] bcast_S_S100000 : (⟨S_, .f32⟩ : BufTy).Contents (Elt F) → (⟨S100000, .f32⟩ : BufTy).Contents (Elt F)),
    binary main_v12 main_v15 main_v16 (maximumf : (⟨S100000, .f32⟩ : BufTy).Contents (Elt F) → (⟨S100000, .f32⟩ : BufTy).Contents (Elt F) → (⟨S100000, .f32⟩ : BufTy).Contents (Elt F)),
    unary main_v16 main_v17 (Host.rsqrt : (⟨S100000, .f32⟩ : BufTy).Contents (Elt F) → (⟨S100000, .f32⟩ : BufTy).Contents (Elt F)),
    nullary main_cst_4 (constant S_ .f32 0x00000000#32) ]

set_option maxRecDepth 65536 in
set_option maxHeartbeats 8000000 in
theorem A_v14 (W : Valuation τ sig (Elt F)) :
    after (opsA (F := F)) W (Proc.devRef .tc main_v14) = Cert.ReferenceIdeal.ReadP.val_main_v14 (F := F) (W (Proc.devRef .tc main_arg1)) := by
  after_results_simp <;> rfl

set_option maxRecDepth 65536 in
set_option maxHeartbeats 8000000 in
theorem A_v17 (W : Valuation τ sig (Elt F)) :
    after (opsA (F := F)) W (Proc.devRef .tc main_v17) = Cert.ReferenceIdeal.ReadP.val_main_v17 (F := F) (W (Proc.devRef .tc main_arg1)) := by
  after_results_simp <;> rfl

set_option maxRecDepth 65536 in
set_option maxHeartbeats 8000000 in
theorem A_cst_4 (W : Valuation τ sig (Elt F)) :
    after (opsA (F := F)) W (Proc.devRef .tc main_cst_4) = Cert.ReferenceIdeal.ReadP.val_main_cst_4 (F := F) := by
  after_results_simp <;> rfl

set_option maxRecDepth 65536 in
set_option maxHeartbeats 8000000 in
theorem A_v1 (W : Valuation τ sig (Elt F)) :
    after (opsA (F := F)) W (Proc.devRef .tc main_v1) = Cert.ReferenceIdeal.ReadP.val_main_v1 (F := F) (W (Proc.devRef .tc main_arg1)) := by
  after_results_simp <;> rfl

set_option maxRecDepth 65536 in
set_option maxHeartbeats 8000000 in
theorem A_v3 (W : Valuation τ sig (Elt F)) :
    after (opsA (F := F)) W (Proc.devRef .tc main_v3) = Cert.ReferenceIdeal.ReadP.val_main_v3 (F := F) (W (Proc.devRef .tc main_arg1)) := by
  after_results_simp <;> rfl

set_option maxRecDepth 65536 in
set_option maxHeartbeats 8000000 in
theorem A_keep_main_arg0 (W : Valuation τ sig (Elt F)) : after (opsA (F := F)) W (Proc.devRef .tc main_arg0) = W (Proc.devRef .tc main_arg0) := by
  after_results_simp

set_option maxRecDepth 65536 in
set_option maxHeartbeats 8000000 in
theorem A_keep_main_arg2 (W : Valuation τ sig (Elt F)) : after (opsA (F := F)) W (Proc.devRef .tc main_arg2) = W (Proc.devRef .tc main_arg2) := by
  after_results_simp

set_option maxRecDepth 65536 in
set_option maxHeartbeats 8000000 in
theorem A_keep_main_arg3 (W : Valuation τ sig (Elt F)) : after (opsA (F := F)) W (Proc.devRef .tc main_arg3) = W (Proc.devRef .tc main_arg3) := by
  after_results_simp

set_option maxRecDepth 65536 in
set_option maxHeartbeats 8000000 in
theorem A_keep_main_arg4 (W : Valuation τ sig (Elt F)) : after (opsA (F := F)) W (Proc.devRef .tc main_arg4) = W (Proc.devRef .tc main_arg4) := by
  after_results_simp

set_option maxRecDepth 65536 in
set_option maxHeartbeats 8000000 in
theorem A_keep_main_arg5 (W : Valuation τ sig (Elt F)) : after (opsA (F := F)) W (Proc.devRef .tc main_arg5) = W (Proc.devRef .tc main_arg5) := by
  after_results_simp

abbrev opsWh : List (HloOp τ sig (Elt F)) :=
  [ TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v17) (TRef.of (T := ⟨S100000, .f32⟩) main_call0_v1) (TRef.of (T := ⟨S100000, .f32⟩) main_v18) select ]

set_option maxRecDepth 65536 in
set_option maxHeartbeats 8000000 in
theorem Wh_v18 (W : Valuation τ sig (Elt F)) :
    after (opsWh (F := F)) W (Proc.devRef .tc main_v18)
      = select (W (Proc.devRef .tc main_v14)) (W (Proc.devRef .tc main_v17)) (broadcastInDim S100000 ![] bcast_S_S100000 (id (W (Proc.devRef .tc main_cst_4)))) := by
  after_results_simp
  rfl

set_option maxRecDepth 65536 in
set_option maxHeartbeats 8000000 in
theorem Wh_keep_main_v1 (W : Valuation τ sig (Elt F)) : after (opsWh (F := F)) W (Proc.devRef .tc main_v1) = W (Proc.devRef .tc main_v1) := by
  after_results_simp

set_option maxRecDepth 65536 in
set_option maxHeartbeats 8000000 in
theorem Wh_keep_main_v3 (W : Valuation τ sig (Elt F)) : after (opsWh (F := F)) W (Proc.devRef .tc main_v3) = W (Proc.devRef .tc main_v3) := by
  after_results_simp

set_option maxRecDepth 65536 in
set_option maxHeartbeats 8000000 in
theorem Wh_keep_main_arg0 (W : Valuation τ sig (Elt F)) : after (opsWh (F := F)) W (Proc.devRef .tc main_arg0) = W (Proc.devRef .tc main_arg0) := by
  after_results_simp

set_option maxRecDepth 65536 in
set_option maxHeartbeats 8000000 in
theorem Wh_keep_main_arg2 (W : Valuation τ sig (Elt F)) : after (opsWh (F := F)) W (Proc.devRef .tc main_arg2) = W (Proc.devRef .tc main_arg2) := by
  after_results_simp

set_option maxRecDepth 65536 in
set_option maxHeartbeats 8000000 in
theorem Wh_keep_main_arg3 (W : Valuation τ sig (Elt F)) : after (opsWh (F := F)) W (Proc.devRef .tc main_arg3) = W (Proc.devRef .tc main_arg3) := by
  after_results_simp

set_option maxRecDepth 65536 in
set_option maxHeartbeats 8000000 in
theorem Wh_keep_main_arg4 (W : Valuation τ sig (Elt F)) : after (opsWh (F := F)) W (Proc.devRef .tc main_arg4) = W (Proc.devRef .tc main_arg4) := by
  after_results_simp

set_option maxRecDepth 65536 in
set_option maxHeartbeats 8000000 in
theorem Wh_keep_main_arg5 (W : Valuation τ sig (Elt F)) : after (opsWh (F := F)) W (Proc.devRef .tc main_arg5) = W (Proc.devRef .tc main_arg5) := by
  after_results_simp

abbrev opsB : List (HloOp τ sig (Elt F)) :=
  [ nullary main_c_5 (constantI S_ 32 0#32),
    unary main_c_5 main_v19 (broadcastInDim S1600000 ![] bcast_S_S1600000 : (⟨S_, .i32⟩ : BufTy).Contents (Elt F) → (⟨S1600000, .i32⟩ : BufTy).Contents (Elt F)),
    binary main_v1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v21 (broadcastInDim S1600000 ![] bcast_S_S1600000 : (⟨S_, .i32⟩ : BufTy).Contents (Elt F) → (⟨S1600000, .i32⟩ : BufTy).Contents (Elt F)),
    binary main_v1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_7 (constantI S_ 32 0#32),
    unary main_c_7 main_v26 (broadcastInDim S1600000 ![] bcast_S_S1600000 : (⟨S_, .i32⟩ : BufTy).Contents (Elt F) → (⟨S1600000, .i32⟩ : BufTy).Contents (Elt F)),
    binary main_v3 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v28 (broadcastInDim S1600000 ![] bcast_S_S1600000 : (⟨S_, .i32⟩ : BufTy).Contents (Elt F) → (⟨S1600000, .i32⟩ : BufTy).Contents (Elt F)),
    binary main_v3 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_v3 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_v18 main_v31 main_v32 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v25 main_v32 main_v33 (mulf : (⟨S1600000, .f32⟩ : BufTy).Contents (Elt F) → (⟨S1600000, .f32⟩ : BufTy).Contents (Elt F) → (⟨S1600000, .f32⟩ : BufTy).Contents (Elt F)),
    unary main_arg2 main_v34 ((extractStridedSlice S1x32x64 ![0, 0, 0] · slices_S4x32x64_S1x32x64_0_0_0) : (⟨S4x32x64, .f32⟩ : BufTy).Contents (Elt F) → (⟨S1x32x64, .f32⟩ : BufTy).Contents (Elt F)),
    reshape main_v34 main_v35 rfl shapeCasts_S1x32x64_S32x64,
    binary main_arg0 main_v35 main_v36 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_cst_9 (constant S_ .f32 0x00000000#32),
    unary main_cst_9 main_v37 (broadcastInDim S100000x32 ![] bcast_S_S100000x32 : (⟨S_, .f32⟩ : BufTy).Contents (Elt F) → (⟨S100000x32, .f32⟩ : BufTy).Contents (Elt F)),
    unary main_v33 main_v38 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v39 (broadcastInDim S1600000 ![] bcast_S_S1600000 : (⟨S_, .i32⟩ : BufTy).Contents (Elt F) → (⟨S1600000, .i32⟩ : BufTy).Contents (Elt F)),
    binary main_v1 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v41 (broadcastInDim S1600000 ![] bcast_S_S1600000 : (⟨S_, .i32⟩ : BufTy).Contents (Elt F) → (⟨S1600000, .i32⟩ : BufTy).Contents (Elt F)),
    binary main_v1 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_v1 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_arg0 main_v44 main_v45 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v38 main_v46 (broadcastInDim S1600000x32 ![0, 1] bcast_S1600000x1_S1600000x32_0_1 : (⟨S1600000x1, .f32⟩ : BufTy).Contents (Elt F) → (⟨S1600000x32, .f32⟩ : BufTy).Contents (Elt F)),
    binary main_v46 main_v45 main_v47 (mulf : (⟨S1600000x32, .f32⟩ : BufTy).Contents (Elt F) → (⟨S1600000x32, .f32⟩ : BufTy).Contents (Elt F) → (⟨S1600000x32, .f32⟩ : BufTy).Contents (Elt F)),
    nullary main_c_12 (constantI S_ 32 0#32),
    unary main_c_12 main_v48 (broadcastInDim S1600000 ![] bcast_S_S1600000 : (⟨S_, .i32⟩ : BufTy).Contents (Elt F) → (⟨S1600000, .i32⟩ : BufTy).Contents (Elt F)),
    binary main_v3 main_v48 main_v49 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v50 (broadcastInDim S1600000 ![] bcast_S_S1600000 : (⟨S_, .i32⟩ : BufTy).Contents (Elt F) → (⟨S1600000, .i32⟩ : BufTy).Contents (Elt F)),
    binary main_v3 main_v50 main_v51 (addi : (⟨S1600000, .i32⟩ : BufTy).Contents (Elt F) → (⟨S1600000, .i32⟩ : BufTy).Contents (Elt F) → (⟨S1600000, .i32⟩ : BufTy).Contents (Elt F)),
    ternary main_v49 main_v51 main_v3 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v52 main_v53 (broadcastInDim S1600000x1 ![0] bcast_S1600000_S1600000x1_0 : (⟨S1600000, .i32⟩ : BufTy).Contents (Elt F) → (⟨S1600000x1, .i32⟩ : BufTy).Contents (Elt F)),
    ternary main_v37 main_v53 main_v47 main_v54 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg2 main_v55 ((extractStridedSlice S1x32x64 ![1, 0, 0] · slices_S4x32x64_S1x32x64_1_0_0) : (⟨S4x32x64, .f32⟩ : BufTy).Contents (Elt F) → (⟨S1x32x64, .f32⟩ : BufTy).Contents (Elt F)),
    reshape main_v55 main_v56 rfl shapeCasts_S1x32x64_S32x64,
    binary main_v54 main_v56 main_v57 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v36 main_v57 main_v58 (addf : (⟨S100000x64, .f32⟩ : BufTy).Contents (Elt F) → (⟨S100000x64, .f32⟩ : BufTy).Contents (Elt F) → (⟨S100000x64, .f32⟩ : BufTy).Contents (Elt F)),
    nullary main_cst_14 (constant S_ .f32 0x00000000#32),
    unary main_cst_14 main_v59 (broadcastInDim S100000x32 ![] bcast_S_S100000x32 : (⟨S_, .f32⟩ : BufTy).Contents (Elt F) → (⟨S100000x32, .f32⟩ : BufTy).Contents (Elt F)),
    unary main_v33 main_v60 (broadcastInDim S1600000x1 ![0] bcast_S1600000_S1600000x1_0 : (⟨S1600000, .f32⟩ : BufTy).Contents (Elt F) → (⟨S1600000x1, .f32⟩ : BufTy).Contents (Elt F)),
    nullary main_c_15 (constantI S_ 32 0#32),
    unary main_c_15 main_v61 (broadcastInDim S1600000 ![] bcast_S_S1600000 : (⟨S_, .i32⟩ : BufTy).Contents (Elt F) → (⟨S1600000, .i32⟩ : BufTy).Contents (Elt F)),
    binary main_v1 main_v61 main_v62 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v63 (broadcastInDim S1600000 ![] bcast_S_S1600000 : (⟨S_, .i32⟩ : BufTy).Contents (Elt F) → (⟨S1600000, .i32⟩ : BufTy).Contents (Elt F)),
    binary main_v1 main_v63 main_v64 (addi : (⟨S1600000, .i32⟩ : BufTy).Contents (Elt F) → (⟨S1600000, .i32⟩ : BufTy).Contents (Elt F) → (⟨S1600000, .i32⟩ : BufTy).Contents (Elt F)),
    ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v65 main_v66 (broadcastInDim S1600000x1 ![0] bcast_S1600000_S1600000x1_0 : (⟨S1600000, .i32⟩ : BufTy).Contents (Elt F) → (⟨S1600000x1, .i32⟩ : BufTy).Contents (Elt F)),
    binary main_v54 main_v66 main_v67 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v60 main_v68 (broadcastInDim S1600000x32 ![0, 1] bcast_S1600000x1_S1600000x32_0_1 : (⟨S1600000x1, .f32⟩ : BufTy).Contents (Elt F) → (⟨S1600000x32, .f32⟩ : BufTy).Contents (Elt F)),
    binary main_v68 main_v67 main_v69 (mulf : (⟨S1600000x32, .f32⟩ : BufTy).Contents (Elt F) → (⟨S1600000x32, .f32⟩ : BufTy).Contents (Elt F) → (⟨S1600000x32, .f32⟩ : BufTy).Contents (Elt F)),
    nullary main_c_17 (constantI S_ 32 0#32),
    unary main_c_17 main_v70 (broadcastInDim S1600000 ![] bcast_S_S1600000 : (⟨S_, .i32⟩ : BufTy).Contents (Elt F) → (⟨S1600000, .i32⟩ : BufTy).Contents (Elt F)),
    binary main_v3 main_v70 main_v71 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v72 (broadcastInDim S1600000 ![] bcast_S_S1600000 : (⟨S_, .i32⟩ : BufTy).Contents (Elt F) → (⟨S1600000, .i32⟩ : BufTy).Contents (Elt F)),
    binary main_v3 main_v72 main_v73 (addi : (⟨S1600000, .i32⟩ : BufTy).Contents (Elt F) → (⟨S1600000, .i32⟩ : BufTy).Contents (Elt F) → (⟨S1600000, .i32⟩ : BufTy).Contents (Elt F)),
    ternary main_v71 main_v73 main_v3 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v74 main_v75 (broadcastInDim S1600000x1 ![0] bcast_S1600000_S1600000x1_0 : (⟨S1600000, .i32⟩ : BufTy).Contents (Elt F) → (⟨S1600000x1, .i32⟩ : BufTy).Contents (Elt F)),
    ternary main_v59 main_v75 main_v69 main_v76 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg2 main_v77 ((extractStridedSlice S1x32x64 ![2, 0, 0] · slices_S4x32x64_S1x32x64_2_0_0) : (⟨S4x32x64, .f32⟩ : BufTy).Contents (Elt F) → (⟨S1x32x64, .f32⟩ : BufTy).Contents (Elt F)),
    reshape main_v77 main_v78 rfl shapeCasts_S1x32x64_S32x64,
    binary main_v76 main_v78 main_v79 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v58 main_v79 main_v80 (addf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    unary main_cst_19 main_v81 (broadcastInDim S100000x32 ![] bcast_S_S100000x32 : (⟨S_, .f32⟩ : BufTy).Contents (Elt F) → (⟨S100000x32, .f32⟩ : BufTy).Contents (Elt F)),
    unary main_v33 main_v82 (broadcastInDim S1600000x1 ![0] bcast_S1600000_S1600000x1_0 : (⟨S1600000, .f32⟩ : BufTy).Contents (Elt F) → (⟨S1600000x1, .f32⟩ : BufTy).Contents (Elt F)),
    nullary main_c_20 (constantI S_ 32 0#32),
    unary main_c_20 main_v83 (broadcastInDim S1600000 ![] bcast_S_S1600000 : (⟨S_, .i32⟩ : BufTy).Contents (Elt F) → (⟨S1600000, .i32⟩ : BufTy).Contents (Elt F)),
    binary main_v1 main_v83 main_v84 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v85 (broadcastInDim S1600000 ![] bcast_S_S1600000 : (⟨S_, .i32⟩ : BufTy).Contents (Elt F) → (⟨S1600000, .i32⟩ : BufTy).Contents (Elt F)),
    binary main_v1 main_v85 main_v86 (addi : (⟨S1600000, .i32⟩ : BufTy).Contents (Elt F) → (⟨S1600000, .i32⟩ : BufTy).Contents (Elt F) → (⟨S1600000, .i32⟩ : BufTy).Contents (Elt F)),
    ternary main_v84 main_v86 main_v1 main_v87 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v87 main_v88 (broadcastInDim S1600000x1 ![0] bcast_S1600000_S1600000x1_0 : (⟨S1600000, .i32⟩ : BufTy).Contents (Elt F) → (⟨S1600000x1, .i32⟩ : BufTy).Contents (Elt F)),
    binary main_v76 main_v88 main_v89 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v82 main_v90 (broadcastInDim S1600000x32 ![0, 1] bcast_S1600000x1_S1600000x32_0_1 : (⟨S1600000x1, .f32⟩ : BufTy).Contents (Elt F) → (⟨S1600000x32, .f32⟩ : BufTy).Contents (Elt F)),
    binary main_v90 main_v89 main_v91 (mulf : (⟨S1600000x32, .f32⟩ : BufTy).Contents (Elt F) → (⟨S1600000x32, .f32⟩ : BufTy).Contents (Elt F) → (⟨S1600000x32, .f32⟩ : BufTy).Contents (Elt F)),
    nullary main_c_22 (constantI S_ 32 0#32),
    unary main_c_22 main_v92 (broadcastInDim S1600000 ![] bcast_S_S1600000 : (⟨S_, .i32⟩ : BufTy).Contents (Elt F) → (⟨S1600000, .i32⟩ : BufTy).Contents (Elt F)),
    binary main_v3 main_v92 main_v93 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v94 (broadcastInDim S1600000 ![] bcast_S_S1600000 : (⟨S_, .i32⟩ : BufTy).Contents (Elt F) → (⟨S1600000, .i32⟩ : BufTy).Contents (Elt F)),
    binary main_v3 main_v94 main_v95 (addi : (⟨S1600000, .i32⟩ : BufTy).Contents (Elt F) → (⟨S1600000, .i32⟩ : BufTy).Contents (Elt F) → (⟨S1600000, .i32⟩ : BufTy).Contents (Elt F)),
    ternary main_v93 main_v95 main_v3 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v96 main_v97 (broadcastInDim S1600000x1 ![0] bcast_S1600000_S1600000x1_0 : (⟨S1600000, .i32⟩ : BufTy).Contents (Elt F) → (⟨S1600000x1, .i32⟩ : BufTy).Contents (Elt F)),
    ternary main_v81 main_v97 main_v91 main_v98 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg2 main_v99 ((extractStridedSlice S1x32x64 ![3, 0, 0] · slices_S4x32x64_S1x32x64_3_0_0) : (⟨S4x32x64, .f32⟩ : BufTy).Contents (Elt F) → (⟨S1x32x64, .f32⟩ : BufTy).Contents (Elt F)),
    reshape main_v99 main_v100 rfl shapeCasts_S1x32x64_S32x64,
    binary main_v98 main_v100 main_v101 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v80 main_v101 main_v102 (addf : (⟨S100000x64, .f32⟩ : BufTy).Contents (Elt F) → (⟨S100000x64, .f32⟩ : BufTy).Contents (Elt F) → (⟨S100000x64, .f32⟩ : BufTy).Contents (Elt F)),
    unary main_arg3 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v102 main_v104 main_v105 (addf : (⟨S100000x64, .f32⟩ : BufTy).Contents (Elt F) → (⟨S100000x64, .f32⟩ : BufTy).Contents (Elt F) → (⟨S100000x64, .f32⟩ : BufTy).Contents (Elt F)) ]

set_option maxRecDepth 65536 in
set_option maxHeartbeats 8000000 in
theorem B_v105 (W : Valuation τ sig (Elt F)) (x1 : (⟨S2x1600000, .i32⟩ : BufTy).Contents (Elt F))
    (e1 : W (Proc.devRef .tc main_v1) = Cert.ReferenceIdeal.ReadP.val_main_v1 (F := F) x1) (e3 : W (Proc.devRef .tc main_v3) = Cert.ReferenceIdeal.ReadP.val_main_v3 (F := F) x1)
    (e18 : W (Proc.devRef .tc main_v18) = Cert.ReferenceIdeal.ReadP.val_main_v18 (F := F) x1) :
    after (opsB (F := F)) W (Proc.devRef .tc main_v105)
      = Cert.ReferenceIdeal.ReadP.val_main_v105 (F := F) (W (Proc.devRef .tc main_arg0)) x1 (W (Proc.devRef .tc main_arg2)) (W (Proc.devRef .tc main_arg3)) := by
  after_results_simp
  simp only [e1, e3, e18]
  rfl

set_option maxRecDepth 65536 in
set_option maxHeartbeats 8000000 in
theorem B_v33 (W : Valuation τ sig (Elt F)) (x1 : (⟨S2x1600000, .i32⟩ : BufTy).Contents (Elt F))
    (e1 : W (Proc.devRef .tc main_v1) = Cert.ReferenceIdeal.ReadP.val_main_v1 (F := F) x1) (e3 : W (Proc.devRef .tc main_v3) = Cert.ReferenceIdeal.ReadP.val_main_v3 (F := F) x1)
    (e18 : W (Proc.devRef .tc main_v18) = Cert.ReferenceIdeal.ReadP.val_main_v18 (F := F) x1) :
    after (opsB (F := F)) W (Proc.devRef .tc main_v33) = Cert.ReferenceIdeal.ReadP.val_main_v33 (F := F) x1 := by
  after_results_simp
  simp only [e1, e3, e18]
  rfl

set_option maxRecDepth 65536 in
set_option maxHeartbeats 8000000 in
theorem B_keep_main_v1 (W : Valuation τ sig (Elt F)) : after (opsB (F := F)) W (Proc.devRef .tc main_v1) = W (Proc.devRef .tc main_v1) := by
  after_results_simp

set_option maxRecDepth 65536 in
set_option maxHeartbeats 8000000 in
theorem B_keep_main_v3 (W : Valuation τ sig (Elt F)) : after (opsB (F := F)) W (Proc.devRef .tc main_v3) = W (Proc.devRef .tc main_v3) := by
  after_results_simp

set_option maxRecDepth 65536 in
set_option maxHeartbeats 8000000 in
theorem B_keep_main_arg4 (W : Valuation τ sig (Elt F)) : after (opsB (F := F)) W (Proc.devRef .tc main_arg4) = W (Proc.devRef .tc main_arg4) := by
  after_results_simp

set_option maxRecDepth 65536 in
set_option maxHeartbeats 8000000 in
theorem B_keep_main_arg5 (W : Valuation τ sig (Elt F)) : after (opsB (F := F)) W (Proc.devRef .tc main_arg5) = W (Proc.devRef .tc main_arg5) := by
  after_results_simp

abbrev opsRe : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v105) (TRef.of (T := ⟨S100000x64, .f32⟩) main_call1_v0) (TRef.of (T := ⟨S100000x64, .f32⟩) main_v106) maximumf ]

set_option maxRecDepth 65536 in
set_option maxHeartbeats 8000000 in
theorem Re_v106 (W : Valuation τ sig (Elt F)) :
    after (opsRe (F := F)) W (Proc.devRef .tc main_v106)
      = maximumf (W (Proc.devRef .tc main_v105)) (broadcastInDim S100000x64 ![] bcast_S_S100000x64 (constant S_ .f32 0x00000000#32)) := by
  after_results_simp
  rfl

set_option maxRecDepth 65536 in
set_option maxHeartbeats 8000000 in
theorem Re_keep_main_v33 (W : Valuation τ sig (Elt F)) : after (opsRe (F := F)) W (Proc.devRef .tc main_v33) = W (Proc.devRef .tc main_v33) := by
  after_results_simp

set_option maxRecDepth 65536 in
set_option maxHeartbeats 8000000 in
theorem Re_keep_main_v1 (W : Valuation τ sig (Elt F)) : after (opsRe (F := F)) W (Proc.devRef .tc main_v1) = W (Proc.devRef .tc main_v1) := by
  after_results_simp

set_option maxRecDepth 65536 in
set_option maxHeartbeats 8000000 in
theorem Re_keep_main_v3 (W : Valuation τ sig (Elt F)) : after (opsRe (F := F)) W (Proc.devRef .tc main_v3) = W (Proc.devRef .tc main_v3) := by
  after_results_simp

set_option maxRecDepth 65536 in
set_option maxHeartbeats 8000000 in
theorem Re_keep_main_arg4 (W : Valuation τ sig (Elt F)) : after (opsRe (F := F)) W (Proc.devRef .tc main_arg4) = W (Proc.devRef .tc main_arg4) := by
  after_results_simp

set_option maxRecDepth 65536 in
set_option maxHeartbeats 8000000 in
theorem Re_keep_main_arg5 (W : Valuation τ sig (Elt F)) : after (opsRe (F := F)) W (Proc.devRef .tc main_arg5) = W (Proc.devRef .tc main_arg5) := by
  after_results_simp

abbrev opsC : List (HloOp τ sig (Elt F)) :=
  [ unary main_arg4 main_v107 ((extractStridedSlice S1x64x10 ![0, 0, 0] · slices_S4x64x10_S1x64x10_0_0_0) : (⟨S4x64x10, .f32⟩ : BufTy).Contents (Elt F) → (⟨S1x64x10, .f32⟩ : BufTy).Contents (Elt F)),
    reshape main_v107 main_v108 rfl shapeCasts_S1x64x10_S64x10,
    binary main_v106 main_v108 main_v109 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    nullary main_cst_24 (constant S_ .f32 0x00000000#32),
    unary main_cst_24 main_v110 (broadcastInDim S100000x64 ![] bcast_S_S100000x64 : (⟨S_, .f32⟩ : BufTy).Contents (Elt F) → (⟨S100000x64, .f32⟩ : BufTy).Contents (Elt F)),
    unary main_v33 main_v111 (broadcastInDim S1600000x1 ![0] bcast_S1600000_S1600000x1_0 : (⟨S1600000, .f32⟩ : BufTy).Contents (Elt F) → (⟨S1600000x1, .f32⟩ : BufTy).Contents (Elt F)),
    nullary main_c_25 (constantI S_ 32 0#32),
    unary main_c_25 main_v112 (broadcastInDim S1600000 ![] bcast_S_S1600000 : (⟨S_, .i32⟩ : BufTy).Contents (Elt F) → (⟨S1600000, .i32⟩ : BufTy).Contents (Elt F)),
    binary main_v1 main_v112 main_v113 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v114 (broadcastInDim S1600000 ![] bcast_S_S1600000 : (⟨S_, .i32⟩ : BufTy).Contents (Elt F) → (⟨S1600000, .i32⟩ : BufTy).Contents (Elt F)),
    binary main_v1 main_v114 main_v115 (addi : (⟨S1600000, .i32⟩ : BufTy).Contents (Elt F) → (⟨S1600000, .i32⟩ : BufTy).Contents (Elt F) → (⟨S1600000, .i32⟩ : BufTy).Contents (Elt F)),
    ternary main_v113 main_v115 main_v1 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v116 main_v117 (broadcastInDim S1600000x1 ![0] bcast_S1600000_S1600000x1_0 : (⟨S1600000, .i32⟩ : BufTy).Contents (Elt F) → (⟨S1600000x1, .i32⟩ : BufTy).Contents (Elt F)),
    binary main_v106 main_v117 main_v118 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v111 main_v119 (broadcastInDim S1600000x64 ![0, 1] bcast_S1600000x1_S1600000x64_0_1 : (⟨S1600000x1, .f32⟩ : BufTy).Contents (Elt F) → (⟨S1600000x64, .f32⟩ : BufTy).Contents (Elt F)),
    binary main_v119 main_v118 main_v120 (mulf : (⟨S1600000x64, .f32⟩ : BufTy).Contents (Elt F) → (⟨S1600000x64, .f32⟩ : BufTy).Contents (Elt F) → (⟨S1600000x64, .f32⟩ : BufTy).Contents (Elt F)),
    nullary main_c_27 (constantI S_ 32 0#32),
    unary main_c_27 main_v121 (broadcastInDim S1600000 ![] bcast_S_S1600000 : (⟨S_, .i32⟩ : BufTy).Contents (Elt F) → (⟨S1600000, .i32⟩ : BufTy).Contents (Elt F)),
    binary main_v3 main_v121 main_v122 (cmpi .slt : (⟨S1600000, .i32⟩ : BufTy).Contents (Elt F) → (⟨S1600000, .i32⟩ : BufTy).Contents (Elt F) → (⟨S1600000, .i1⟩ : BufTy).Contents (Elt F)),
    nullary main_c_28 (constantI S_ 32 100000#32),
    unary main_c_28 main_v123 (broadcastInDim S1600000 ![] bcast_S_S1600000 : (⟨S_, .i32⟩ : BufTy).Contents (Elt F) → (⟨S1600000, .i32⟩ : BufTy).Contents (Elt F)),
    binary main_v3 main_v123 main_v124 (addi : (⟨S1600000, .i32⟩ : BufTy).Contents (Elt F) → (⟨S1600000, .i32⟩ : BufTy).Contents (Elt F) → (⟨S1600000, .i32⟩ : BufTy).Contents (Elt F)),
    ternary main_v122 main_v124 main_v3 main_v125 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v125 main_v126 (broadcastInDim S1600000x1 ![0] bcast_S1600000_S1600000x1_0 : (⟨S1600000, .i32⟩ : BufTy).Contents (Elt F) → (⟨S1600000x1, .i32⟩ : BufTy).Contents (Elt F)),
    ternary main_v110 main_v126 main_v120 main_v127 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg4 main_v128 ((extractStridedSlice S1x64x10 ![1, 0, 0] · slices_S4x64x10_S1x64x10_1_0_0) : (⟨S4x64x10, .f32⟩ : BufTy).Contents (Elt F) → (⟨S1x64x10, .f32⟩ : BufTy).Contents (Elt F)),
    reshape main_v128 main_v129 rfl shapeCasts_S1x64x10_S64x10,
    binary main_v127 main_v129 main_v130 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    binary main_v109 main_v130 main_v131 (addf : (⟨S100000x10, .f32⟩ : BufTy).Contents (Elt F) → (⟨S100000x10, .f32⟩ : BufTy).Contents (Elt F) → (⟨S100000x10, .f32⟩ : BufTy).Contents (Elt F)),
    nullary main_cst_29 (constant S_ .f32 0x00000000#32),
    unary main_cst_29 main_v132 (broadcastInDim S100000x64 ![] bcast_S_S100000x64 : (⟨S_, .f32⟩ : BufTy).Contents (Elt F) → (⟨S100000x64, .f32⟩ : BufTy).Contents (Elt F)),
    unary main_v33 main_v133 (broadcastInDim S1600000x1 ![0] bcast_S1600000_S1600000x1_0 : (⟨S1600000, .f32⟩ : BufTy).Contents (Elt F) → (⟨S1600000x1, .f32⟩ : BufTy).Contents (Elt F)),
    nullary main_c_30 (constantI S_ 32 0#32),
    unary main_c_30 main_v134 (broadcastInDim S1600000 ![] bcast_S_S1600000 : (⟨S_, .i32⟩ : BufTy).Contents (Elt F) → (⟨S1600000, .i32⟩ : BufTy).Contents (Elt F)),
    binary main_v1 main_v134 main_v135 (cmpi .slt : (⟨S1600000, .i32⟩ : BufTy).Contents (Elt F) → (⟨S1600000, .i32⟩ : BufTy).Contents (Elt F) → (⟨S1600000, .i1⟩ : BufTy).Contents (Elt F)),
    nullary main_c_31 (constantI S_ 32 100000#32),
    unary main_c_31 main_v136 (broadcastInDim S1600000 ![] bcast_S_S1600000 : (⟨S_, .i32⟩ : BufTy).Contents (Elt F) → (⟨S1600000, .i32⟩ : BufTy).Contents (Elt F)),
    binary main_v1 main_v136 main_v137 (addi : (⟨S1600000, .i32⟩ : BufTy).Contents (Elt F) → (⟨S1600000, .i32⟩ : BufTy).Contents (Elt F) → (⟨S1600000, .i32⟩ : BufTy).Contents (Elt F)),
    ternary main_v135 main_v137 main_v1 main_v138 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v138 main_v139 (broadcastInDim S1600000x1 ![0] bcast_S1600000_S1600000x1_0 : (⟨S1600000, .i32⟩ : BufTy).Contents (Elt F) → (⟨S1600000x1, .i32⟩ : BufTy).Contents (Elt F)),
    binary main_v127 main_v139 main_v140 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v133 main_v141 (broadcastInDim S1600000x64 ![0, 1] bcast_S1600000x1_S1600000x64_0_1 : (⟨S1600000x1, .f32⟩ : BufTy).Contents (Elt F) → (⟨S1600000x64, .f32⟩ : BufTy).Contents (Elt F)),
    binary main_v141 main_v140 main_v142 (mulf : (⟨S1600000x64, .f32⟩ : BufTy).Contents (Elt F) → (⟨S1600000x64, .f32⟩ : BufTy).Contents (Elt F) → (⟨S1600000x64, .f32⟩ : BufTy).Contents (Elt F)),
    nullary main_c_32 (constantI S_ 32 0#32),
    unary main_c_32 main_v143 (broadcastInDim S1600000 ![] bcast_S_S1600000 : (⟨S_, .i32⟩ : BufTy).Contents (Elt F) → (⟨S1600000, .i32⟩ : BufTy).Contents (Elt F)),
    binary main_v3 main_v143 main_v144 (cmpi .slt : (⟨S1600000, .i32⟩ : BufTy).Contents (Elt F) → (⟨S1600000, .i32⟩ : BufTy).Contents (Elt F) → (⟨S1600000, .i1⟩ : BufTy).Contents (Elt F)),
    nullary main_c_33 (constantI S_ 32 100000#32),
    unary main_c_33 main_v145 (broadcastInDim S1600000 ![] bcast_S_S1600000 : (⟨S_, .i32⟩ : BufTy).Contents (Elt F) → (⟨S1600000, .i32⟩ : BufTy).Contents (Elt F)),
    binary main_v3 main_v145 main_v146 (addi : (⟨S1600000, .i32⟩ : BufTy).Contents (Elt F) → (⟨S1600000, .i32⟩ : BufTy).Contents (Elt F) → (⟨S1600000, .i32⟩ : BufTy).Contents (Elt F)),
    ternary main_v144 main_v146 main_v3 main_v147 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v147 main_v148 (broadcastInDim S1600000x1 ![0] bcast_S1600000_S1600000x1_0 : (⟨S1600000, .i32⟩ : BufTy).Contents (Elt F) → (⟨S1600000x1, .i32⟩ : BufTy).Contents (Elt F)),
    ternary main_v132 main_v148 main_v142 main_v149 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg4 main_v150 ((extractStridedSlice S1x64x10 ![2, 0, 0] · slices_S4x64x10_S1x64x10_2_0_0) : (⟨S4x64x10, .f32⟩ : BufTy).Contents (Elt F) → (⟨S1x64x10, .f32⟩ : BufTy).Contents (Elt F)),
    reshape main_v150 main_v151 rfl shapeCasts_S1x64x10_S64x10,
    binary main_v149 main_v151 main_v152 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    binary main_v131 main_v152 main_v153 (addf : (⟨S100000x10, .f32⟩ : BufTy).Contents (Elt F) → (⟨S100000x10, .f32⟩ : BufTy).Contents (Elt F) → (⟨S100000x10, .f32⟩ : BufTy).Contents (Elt F)),
    nullary main_cst_34 (constant S_ .f32 0x00000000#32),
    unary main_cst_34 main_v154 (broadcastInDim S100000x64 ![] bcast_S_S100000x64 : (⟨S_, .f32⟩ : BufTy).Contents (Elt F) → (⟨S100000x64, .f32⟩ : BufTy).Contents (Elt F)),
    unary main_v33 main_v155 (broadcastInDim S1600000x1 ![0] bcast_S1600000_S1600000x1_0 : (⟨S1600000, .f32⟩ : BufTy).Contents (Elt F) → (⟨S1600000x1, .f32⟩ : BufTy).Contents (Elt F)),
    nullary main_c_35 (constantI S_ 32 0#32),
    unary main_c_35 main_v156 (broadcastInDim S1600000 ![] bcast_S_S1600000 : (⟨S_, .i32⟩ : BufTy).Contents (Elt F) → (⟨S1600000, .i32⟩ : BufTy).Contents (Elt F)),
    binary main_v1 main_v156 main_v157 (cmpi .slt : (⟨S1600000, .i32⟩ : BufTy).Contents (Elt F) → (⟨S1600000, .i32⟩ : BufTy).Contents (Elt F) → (⟨S1600000, .i1⟩ : BufTy).Contents (Elt F)),
    nullary main_c_36 (constantI S_ 32 100000#32),
    unary main_c_36 main_v158 (broadcastInDim S1600000 ![] bcast_S_S1600000 : (⟨S_, .i32⟩ : BufTy).Contents (Elt F) → (⟨S1600000, .i32⟩ : BufTy).Contents (Elt F)),
    binary main_v1 main_v158 main_v159 (addi : (⟨S1600000, .i32⟩ : BufTy).Contents (Elt F) → (⟨S1600000, .i32⟩ : BufTy).Contents (Elt F) → (⟨S1600000, .i32⟩ : BufTy).Contents (Elt F)),
    ternary main_v157 main_v159 main_v1 main_v160 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v160 main_v161 (broadcastInDim S1600000x1 ![0] bcast_S1600000_S1600000x1_0 : (⟨S1600000, .i32⟩ : BufTy).Contents (Elt F) → (⟨S1600000x1, .i32⟩ : BufTy).Contents (Elt F)),
    binary main_v149 main_v161 main_v162 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v155 main_v163 (broadcastInDim S1600000x64 ![0, 1] bcast_S1600000x1_S1600000x64_0_1 : (⟨S1600000x1, .f32⟩ : BufTy).Contents (Elt F) → (⟨S1600000x64, .f32⟩ : BufTy).Contents (Elt F)),
    binary main_v163 main_v162 main_v164 (mulf : (⟨S1600000x64, .f32⟩ : BufTy).Contents (Elt F) → (⟨S1600000x64, .f32⟩ : BufTy).Contents (Elt F) → (⟨S1600000x64, .f32⟩ : BufTy).Contents (Elt F)),
    nullary main_c_37 (constantI S_ 32 0#32),
    unary main_c_37 main_v165 (broadcastInDim S1600000 ![] bcast_S_S1600000 : (⟨S_, .i32⟩ : BufTy).Contents (Elt F) → (⟨S1600000, .i32⟩ : BufTy).Contents (Elt F)),
    binary main_v3 main_v165 main_v166 (cmpi .slt : (⟨S1600000, .i32⟩ : BufTy).Contents (Elt F) → (⟨S1600000, .i32⟩ : BufTy).Contents (Elt F) → (⟨S1600000, .i1⟩ : BufTy).Contents (Elt F)),
    nullary main_c_38 (constantI S_ 32 100000#32),
    unary main_c_38 main_v167 (broadcastInDim S1600000 ![] bcast_S_S1600000 : (⟨S_, .i32⟩ : BufTy).Contents (Elt F) → (⟨S1600000, .i32⟩ : BufTy).Contents (Elt F)),
    binary main_v3 main_v167 main_v168 (addi : (⟨S1600000, .i32⟩ : BufTy).Contents (Elt F) → (⟨S1600000, .i32⟩ : BufTy).Contents (Elt F) → (⟨S1600000, .i32⟩ : BufTy).Contents (Elt F)),
    ternary main_v166 main_v168 main_v3 main_v169 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v169 main_v170 (broadcastInDim S1600000x1 ![0] bcast_S1600000_S1600000x1_0 : (⟨S1600000, .i32⟩ : BufTy).Contents (Elt F) → (⟨S1600000x1, .i32⟩ : BufTy).Contents (Elt F)),
    ternary main_v154 main_v170 main_v164 main_v171 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg4 main_v172 ((extractStridedSlice S1x64x10 ![3, 0, 0] · slices_S4x64x10_S1x64x10_3_0_0) : (⟨S4x64x10, .f32⟩ : BufTy).Contents (Elt F) → (⟨S1x64x10, .f32⟩ : BufTy).Contents (Elt F)),
    reshape main_v172 main_v173 rfl shapeCasts_S1x64x10_S64x10,
    binary main_v171 main_v173 main_v174 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    binary main_v153 main_v174 main_v175 (addf : (⟨S100000x10, .f32⟩ : BufTy).Contents (Elt F) → (⟨S100000x10, .f32⟩ : BufTy).Contents (Elt F) → (⟨S100000x10, .f32⟩ : BufTy).Contents (Elt F)),
    unary main_arg5 main_v176 (broadcastInDim S1x10 ![1] bcast_S10_S1x10_1 : (⟨S10, .f32⟩ : BufTy).Contents (Elt F) → (⟨S1x10, .f32⟩ : BufTy).Contents (Elt F)),
    unary main_v176 main_v177 (broadcastInDim S100000x10 ![0, 1] bcast_S1x10_S100000x10_0_1 : (⟨S1x10, .f32⟩ : BufTy).Contents (Elt F) → (⟨S100000x10, .f32⟩ : BufTy).Contents (Elt F)),
    binary main_v175 main_v177 main_v178 (addf : (⟨S100000x10, .f32⟩ : BufTy).Contents (Elt F) → (⟨S100000x10, .f32⟩ : BufTy).Contents (Elt F) → (⟨S100000x10, .f32⟩ : BufTy).Contents (Elt F)) ]

set_option maxRecDepth 65536 in
set_option maxHeartbeats 8000000 in
theorem C_v178 (W : Valuation τ sig (Elt F)) (x0 : (⟨S100000x32, .f32⟩ : BufTy).Contents (Elt F)) (x1 : (⟨S2x1600000, .i32⟩ : BufTy).Contents (Elt F))
    (x2 : (⟨S4x32x64, .f32⟩ : BufTy).Contents (Elt F)) (x3 : (⟨S64, .f32⟩ : BufTy).Contents (Elt F))
    (e1 : W (Proc.devRef .tc main_v1) = Cert.ReferenceIdeal.ReadP.val_main_v1 (F := F) x1) (e3 : W (Proc.devRef .tc main_v3) = Cert.ReferenceIdeal.ReadP.val_main_v3 (F := F) x1)
    (e33 : W (Proc.devRef .tc main_v33) = Cert.ReferenceIdeal.ReadP.val_main_v33 (F := F) x1)
    (e106 : W (Proc.devRef .tc main_v106) = Cert.ReferenceIdeal.ReadP.val_main_v106 (F := F) x0 x1 x2 x3) :
    after (opsC (F := F)) W (Proc.devRef .tc main_v178)
      = Cert.ReferenceIdeal.ReadP.val_main_v178 (F := F) x0 x1 x2 x3 (W (Proc.devRef .tc main_arg4)) (W (Proc.devRef .tc main_arg5)) := by
  after_results_simp
  simp only [e1, e3, e33, e106]
  rfl

abbrev opsLs : List (HloOp τ sig (Elt F)) :=
  [ TRef.nullary (TRef.of (T := ⟨S_, .f32⟩) main_call2_cst) (constant S_ .f32 0xFF800000#32),
    TRef.binary (TRef.of (T := ⟨S100000x10, .f32⟩) main_v178) (TRef.of (T := ⟨S_, .f32⟩) main_call2_cst) (TRef.of (T := ⟨S100000, .f32⟩) main_call2_v0) (fun x v => Host.reduce FloatOps.maximumf x v reducesTo_S100000x10_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x10, .f32⟩) main_call2_v4) (broadcastInDim S100000x10 ![0, 1] bcast_S100000x1_S100000x10_0_1),
    TRef.binary (TRef.of (T := ⟨S100000x10, .f32⟩) main_v178) (TRef.of (T := ⟨S100000x10, .f32⟩) main_call2_v4) (TRef.of (T := ⟨S100000x10, .f32⟩) main_call2_v5) subf,
    TRef.unary (TRef.of (T := ⟨S100000x10, .f32⟩) main_call2_v5) (TRef.of (T := ⟨S100000x10, .f32⟩) main_call2_v6) Host.exp,
    TRef.nullary (TRef.of (T := ⟨S_, .f32⟩) main_call2_cst_1) (constant S_ .f32 0x00000000#32),
    TRef.binary (TRef.of (T := ⟨S100000x10, .f32⟩) main_call2_v6) (TRef.of (T := ⟨S_, .f32⟩) main_call2_cst_1) (TRef.of (T := ⟨S100000, .f32⟩) main_call2_v7) (fun x v => Host.reduceAdd x v reducesTo_S100000x10_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x10, .f32⟩) main_call2_v10) (broadcastInDim S100000x10 ![0, 1] bcast_S100000x1_S100000x10_0_1),
    TRef.binary (TRef.of (T := ⟨S100000x10, .f32⟩) main_call2_v5) (TRef.of (T := ⟨S100000x10, .f32⟩) main_call2_v10) (TRef.of (T := ⟨S100000x10, .f32⟩) main_v179) subf ]

/-- The row normalisation of the last call, as one function of the array it is applied to. -/
def lsOf (a : (⟨S100000x10, .f32⟩ : BufTy).Contents (Elt F)) : (⟨S100000x10, .f32⟩ : BufTy).Contents (Elt F) :=
  subf
    (subf a (broadcastInDim S100000x10 ![0, 1] bcast_S100000x1_S100000x10_0_1 (broadcastInDim S100000x1 ![0] bcast_S100000_S100000x1_0
      (maximumf (broadcastInDim S100000 ![] bcast_S_S100000 (constant S_ .f32 0xFF800000#32))
        (Host.reduce FloatOps.maximumf a (constant S_ .f32 0xFF800000#32) reducesTo_S100000x10_S100000_d1 h_S_)))))
    (broadcastInDim S100000x10 ![0, 1] bcast_S100000x1_S100000x10_0_1 (Host.log (broadcastInDim S100000x1 ![0] bcast_S100000_S100000x1_0
      (Host.reduceAdd (Host.exp (subf a (broadcastInDim S100000x10 ![0, 1] bcast_S100000x1_S100000x10_0_1 (broadcastInDim S100000x1 ![0] bcast_S100000_S100000x1_0
        (maximumf (broadcastInDim S100000 ![] bcast_S_S100000 (constant S_ .f32 0xFF800000#32))
          (Host.reduce FloatOps.maximumf a (constant S_ .f32 0xFF800000#32) reducesTo_S100000x10_S100000_d1 h_S_))))))
        (constant S_ .f32 0x00000000#32) reducesTo_S100000x10_S100000_d1 h_S_))))

set_option maxRecDepth 65536 in
set_option maxHeartbeats 8000000 in
/-- The last call's fifteen operations, for ANY functions at their types: the result as their composition. -/
theorem Ls_shape (c0 : (⟨S_, .f32⟩ : BufTy).Contents (Elt F))
    (f1 : (⟨S100000x10, .f32⟩ : BufTy).Contents (Elt F) → (⟨S_, .f32⟩ : BufTy).Contents (Elt F) → (⟨S100000, .f32⟩ : BufTy).Contents (Elt F))
    (c2 : (⟨S_, .f32⟩ : BufTy).Contents (Elt F))
    (f3 : (⟨S_, .f32⟩ : BufTy).Contents (Elt F) → (⟨S100000, .f32⟩ : BufTy).Contents (Elt F))
    (f4 : (⟨S100000, .f32⟩ : BufTy).Contents (Elt F) → (⟨S100000, .f32⟩ : BufTy).Contents (Elt F) → (⟨S100000, .f32⟩ : BufTy).Contents (Elt F))
    (f5 : (⟨S100000, .f32⟩ : BufTy).Contents (Elt F) → (⟨S100000x1, .f32⟩ : BufTy).Contents (Elt F))
    (f6 : (⟨S100000x1, .f32⟩ : BufTy).Contents (Elt F) → (⟨S100000x10, .f32⟩ : BufTy).Contents (Elt F))
    (f7 : (⟨S100000x10, .f32⟩ : BufTy).Contents (Elt F) → (⟨S100000x10, .f32⟩ : BufTy).Contents (Elt F) → (⟨S100000x10, .f32⟩ : BufTy).Contents (Elt F))
    (f8 : (⟨S100000x10, .f32⟩ : BufTy).Contents (Elt F) → (⟨S100000x10, .f32⟩ : BufTy).Contents (Elt F))
    (c9 : (⟨S_, .f32⟩ : BufTy).Contents (Elt F))
    (f10 : (⟨S100000x10, .f32⟩ : BufTy).Contents (Elt F) → (⟨S_, .f32⟩ : BufTy).Contents (Elt F) → (⟨S100000, .f32⟩ : BufTy).Contents (Elt F))
    (f11 : (⟨S100000, .f32⟩ : BufTy).Contents (Elt F) → (⟨S100000x1, .f32⟩ : BufTy).Contents (Elt F))
    (f12 : (⟨S100000x1, .f32⟩ : BufTy).Contents (Elt F) → (⟨S100000x1, .f32⟩ : BufTy).Contents (Elt F))
    (f13 : (⟨S100000x1, .f32⟩ : BufTy).Contents (Elt F) → (⟨S100000x10, .f32⟩ : BufTy).Contents (Elt F))
    (f14 : (⟨S100000x10, .f32⟩ : BufTy).Contents (Elt F) → (⟨S100000x10, .f32⟩ : BufTy).Contents (Elt F) → (⟨S100000x10, .f32⟩ : BufTy).Contents (Elt F))
    (W : Valuation τ sig (Elt F)) :
    after ([ TRef.nullary (TRef.of (T := ⟨S_, .f32⟩) main_call2_cst) c0,
      TRef.binary (TRef.of (T := ⟨S100000x10, .f32⟩) main_v178) (TRef.of (T := ⟨S_, .f32⟩) main_call2_cst) (TRef.of (T := ⟨S100000, .f32⟩) main_call2_v0) f1,
      TRef.nullary (TRef.of (T := ⟨S_, .f32⟩) main_call2_cst_0) c2,
      TRef.unary (TRef.of (T := ⟨S_, .f32⟩) main_call2_cst_0) (TRef.of (T := ⟨S100000, .f32⟩) main_call2_v1) f3,
      TRef.binary (TRef.of (T := ⟨S100000, .f32⟩) main_call2_v1) (TRef.of (T := ⟨S100000, .f32⟩) main_call2_v0) (TRef.of (T := ⟨S100000, .f32⟩) main_call2_v2) f4,
      TRef.unary (TRef.of (T := ⟨S100000, .f32⟩) main_call2_v2) (TRef.of (T := ⟨S100000x1, .f32⟩) main_call2_v3) f5,
      TRef.unary (TRef.of (T := ⟨S100000x1, .f32⟩) main_call2_v3) (TRef.of (T := ⟨S100000x10, .f32⟩) main_call2_v4) f6,
      TRef.binary (TRef.of (T := ⟨S100000x10, .f32⟩) main_v178) (TRef.of (T := ⟨S100000x10, .f32⟩) main_call2_v4) (TRef.of (T := ⟨S100000x10, .f32⟩) main_call2_v5) f7,
      TRef.unary (TRef.of (T := ⟨S100000x10, .f32⟩) main_call2_v5) (TRef.of (T := ⟨S100000x10, .f32⟩) main_call2_v6) f8,
      TRef.nullary (TRef.of (T := ⟨S_, .f32⟩) main_call2_cst_1) c9,
      TRef.binary (TRef.of (T := ⟨S100000x10, .f32⟩) main_call2_v6) (TRef.of (T := ⟨S_, .f32⟩) main_call2_cst_1) (TRef.of (T := ⟨S100000, .f32⟩) main_call2_v7) f10,
      TRef.unary (TRef.of (T := ⟨S100000, .f32⟩) main_call2_v7) (TRef.of (T := ⟨S100000x1, .f32⟩) main_call2_v8) f11,
      TRef.unary (TRef.of (T := ⟨S100000x1, .f32⟩) main_call2_v8) (TRef.of (T := ⟨S100000x1, .f32⟩) main_call2_v9) f12,
      TRef.unary (TRef.of (T := ⟨S100000x1, .f32⟩) main_call2_v9) (TRef.of (T := ⟨S100000x10, .f32⟩) main_call2_v10) f13,
      TRef.binary (TRef.of (T := ⟨S100000x10, .f32⟩) main_call2_v5) (TRef.of (T := ⟨S100000x10, .f32⟩) main_call2_v10) (TRef.of (T := ⟨S100000x10, .f32⟩) main_v179) f14 ] : List (HloOp τ sig (Elt F))) W (Proc.devRef .tc main_v179)
      = (f14 (f7 (W (Proc.devRef .tc main_v178)) (f6 (f5 (f4 (f3 c2) (f1 (W (Proc.devRef .tc main_v178)) c0))))) (f13 (f12 (f11 (f10 (f8 (f7 (W (Proc.devRef .tc main_v178)) (f6 (f5 (f4 (f3 c2) (f1 (W (Proc.devRef .tc main_v178)) c0)))))) c9))))) := by
  after_results_simp
  rfl

theorem Ls_v179 (W : Valuation τ sig (Elt F)) :
    after (opsLs (F := F)) W (Proc.devRef .tc main_v179) = lsOf (F := F) (W (Proc.devRef .tc main_v178)) :=
  Ls_shape (constant S_ .f32 0xFF800000#32) (fun x v => Host.reduce FloatOps.maximumf x v reducesTo_S100000x10_S100000_d1 h_S_) (constant S_ .f32 0xFF800000#32) (broadcastInDim S100000 ![] bcast_S_S100000) (maximumf) (broadcastInDim S100000x1 ![0] bcast_S100000_S100000x1_0) (broadcastInDim S100000x10 ![0, 1] bcast_S100000x1_S100000x10_0_1) (subf) (Host.exp) (constant S_ .f32 0x00000000#32) (fun x v => Host.reduceAdd x v reducesTo_S100000x10_S100000_d1 h_S_) (broadcastInDim S100000x1 ![0] bcast_S100000_S100000x1_0) (Host.log) (broadcastInDim S100000x10 ![0, 1] bcast_S100000x1_S100000x10_0_1) (subf) W

/-- The last stage of the reference's reading is that function of the stage before the call. -/
theorem val_v179_eq (x0 : (⟨S100000x32, .f32⟩ : BufTy).Contents (Elt F)) (x1 : (⟨S2x1600000, .i32⟩ : BufTy).Contents (Elt F))
    (x2 : (⟨S4x32x64, .f32⟩ : BufTy).Contents (Elt F)) (x3 : (⟨S64, .f32⟩ : BufTy).Contents (Elt F))
    (x4 : (⟨S4x64x10, .f32⟩ : BufTy).Contents (Elt F)) (x5 : (⟨S10, .f32⟩ : BufTy).Contents (Elt F)) :
    Cert.ReferenceIdeal.ReadP.val_main_v179 (F := F) x0 x1 x2 x3 x4 x5 = lsOf (F := F) (Cert.ReferenceIdeal.ReadP.val_main_v178 (F := F) x0 x1 x2 x3 x4 x5) := by
  unfold lsOf
  simp only [Cert.ReferenceIdeal.ReadP.val_main_v179, Cert.ReferenceIdeal.ReadP.val_main_call2_v10, Cert.ReferenceIdeal.ReadP.val_main_call2_v9,
    Cert.ReferenceIdeal.ReadP.val_main_call2_v8, Cert.ReferenceIdeal.ReadP.val_main_call2_v7, Cert.ReferenceIdeal.ReadP.val_main_call2_cst_1,
    Cert.ReferenceIdeal.ReadP.val_main_call2_v6, Cert.ReferenceIdeal.ReadP.val_main_call2_v5, Cert.ReferenceIdeal.ReadP.val_main_call2_v4,
    Cert.ReferenceIdeal.ReadP.val_main_call2_v3, Cert.ReferenceIdeal.ReadP.val_main_call2_v2, Cert.ReferenceIdeal.ReadP.val_main_call2_v1,
    Cert.ReferenceIdeal.ReadP.val_main_call2_cst_0, Cert.ReferenceIdeal.ReadP.val_main_call2_v0, Cert.ReferenceIdeal.ReadP.val_main_call2_cst]

/-- The list of operations cut at the three outlined calls. -/
theorem ops_split : (ops (F := F)) = opsA ++ (opsWh ++ (opsB ++ (opsRe ++ (opsC ++ opsLs)))) := rfl

set_option maxRecDepth 65536 in
set_option maxHeartbeats 8000000 in
/-- THE RESULT of the 239 operations from any contents `W`: the last stage of the reading, of `W` at the six arguments. -/
theorem ops_v179 (W : Valuation τ sig (Elt F)) :
    after (ops (F := F)) W (Proc.devRef .tc main_v179)
      = Cert.ReferenceIdeal.ReadP.val_main_v179 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [ops_split, after_append, after_append, after_append, after_append, after_append]
  generalize hA : after (opsA (F := F)) W = WA
  generalize hW : after (opsWh (F := F)) WA = WW
  generalize hB : after (opsB (F := F)) WW = WB
  generalize hR : after (opsRe (F := F)) WB = WR
  generalize hC : after (opsC (F := F)) WR = WC
  -- after the first stretch
  have a14 : WA (Proc.devRef .tc main_v14) = Cert.ReferenceIdeal.ReadP.val_main_v14 (F := F) (W (Proc.devRef .tc main_arg1)) := by rw [← hA]; exact A_v14 W
  have a17 : WA (Proc.devRef .tc main_v17) = Cert.ReferenceIdeal.ReadP.val_main_v17 (F := F) (W (Proc.devRef .tc main_arg1)) := by rw [← hA]; exact A_v17 W
  have ac4 : WA (Proc.devRef .tc main_cst_4) = Cert.ReferenceIdeal.ReadP.val_main_cst_4 (F := F) := by rw [← hA]; exact A_cst_4 W
  have a1 : WA (Proc.devRef .tc main_v1) = Cert.ReferenceIdeal.ReadP.val_main_v1 (F := F) (W (Proc.devRef .tc main_arg1)) := by rw [← hA]; exact A_v1 W
  have a3 : WA (Proc.devRef .tc main_v3) = Cert.ReferenceIdeal.ReadP.val_main_v3 (F := F) (W (Proc.devRef .tc main_arg1)) := by rw [← hA]; exact A_v3 W
  have aa0 : WA (Proc.devRef .tc main_arg0) = W (Proc.devRef .tc main_arg0) := by rw [← hA]; exact A_keep_main_arg0 W
  have aa2 : WA (Proc.devRef .tc main_arg2) = W (Proc.devRef .tc main_arg2) := by rw [← hA]; exact A_keep_main_arg2 W
  have aa3 : WA (Proc.devRef .tc main_arg3) = W (Proc.devRef .tc main_arg3) := by rw [← hA]; exact A_keep_main_arg3 W
  have aa4 : WA (Proc.devRef .tc main_arg4) = W (Proc.devRef .tc main_arg4) := by rw [← hA]; exact A_keep_main_arg4 W
  have aa5 : WA (Proc.devRef .tc main_arg5) = W (Proc.devRef .tc main_arg5) := by rw [← hA]; exact A_keep_main_arg5 W
  -- after the first call
  have w18 : WW (Proc.devRef .tc main_v18) = Cert.ReferenceIdeal.ReadP.val_main_v18 (F := F) (W (Proc.devRef .tc main_arg1)) := by
    rw [← hW, Wh_v18, a14, a17, ac4]; rfl
  have w1 : WW (Proc.devRef .tc main_v1) = Cert.ReferenceIdeal.ReadP.val_main_v1 (F := F) (W (Proc.devRef .tc main_arg1)) := by rw [← hW, Wh_keep_main_v1, a1]
  have w3 : WW (Proc.devRef .tc main_v3) = Cert.ReferenceIdeal.ReadP.val_main_v3 (F := F) (W (Proc.devRef .tc main_arg1)) := by rw [← hW, Wh_keep_main_v3, a3]
  have wa0 : WW (Proc.devRef .tc main_arg0) = W (Proc.devRef .tc main_arg0) := by rw [← hW, Wh_keep_main_arg0, aa0]
  have wa2 : WW (Proc.devRef .tc main_arg2) = W (Proc.devRef .tc main_arg2) := by rw [← hW, Wh_keep_main_arg2, aa2]
  have wa3 : WW (Proc.devRef .tc main_arg3) = W (Proc.devRef .tc main_arg3) := by rw [← hW, Wh_keep_main_arg3, aa3]
  have wa4 : WW (Proc.devRef .tc main_arg4) = W (Proc.devRef .tc main_arg4) := by rw [← hW, Wh_keep_main_arg4, aa4]
  have wa5 : WW (Proc.devRef .tc main_arg5) = W (Proc.devRef .tc main_arg5) := by rw [← hW, Wh_keep_main_arg5, aa5]
  -- after the second stretch
  have b105 : WB (Proc.devRef .tc main_v105) = Cert.ReferenceIdeal.ReadP.val_main_v105 (F := F) (W (Proc.devRef .tc main_arg0)) (W (Proc.devRef .tc main_arg1)) (W (Proc.devRef .tc main_arg2)) (W (Proc.devRef .tc main_arg3)) := by
    rw [← hB, B_v105 WW _ w1 w3 w18, wa0, wa2, wa3]
  have b33 : WB (Proc.devRef .tc main_v33) = Cert.ReferenceIdeal.ReadP.val_main_v33 (F := F) (W (Proc.devRef .tc main_arg1)) := by
    rw [← hB]; exact B_v33 WW _ w1 w3 w18
  have b1 : WB (Proc.devRef .tc main_v1) = Cert.ReferenceIdeal.ReadP.val_main_v1 (F := F) (W (Proc.devRef .tc main_arg1)) := by rw [← hB, B_keep_main_v1, w1]
  have b3 : WB (Proc.devRef .tc main_v3) = Cert.ReferenceIdeal.ReadP.val_main_v3 (F := F) (W (Proc.devRef .tc main_arg1)) := by rw [← hB, B_keep_main_v3, w3]
  have ba4 : WB (Proc.devRef .tc main_arg4) = W (Proc.devRef .tc main_arg4) := by rw [← hB, B_keep_main_arg4, wa4]
  have ba5 : WB (Proc.devRef .tc main_arg5) = W (Proc.devRef .tc main_arg5) := by rw [← hB, B_keep_main_arg5, wa5]
  -- after the second call
  have r106 : WR (Proc.devRef .tc main_v106) = Cert.ReferenceIdeal.ReadP.val_main_v106 (F := F) (W (Proc.devRef .tc main_arg0)) (W (Proc.devRef .tc main_arg1)) (W (Proc.devRef .tc main_arg2)) (W (Proc.devRef .tc main_arg3)) := by
    rw [← hR, Re_v106, b105]; rfl
  have r33 : WR (Proc.devRef .tc main_v33) = Cert.ReferenceIdeal.ReadP.val_main_v33 (F := F) (W (Proc.devRef .tc main_arg1)) := by rw [← hR, Re_keep_main_v33, b33]
  have r1 : WR (Proc.devRef .tc main_v1) = Cert.ReferenceIdeal.ReadP.val_main_v1 (F := F) (W (Proc.devRef .tc main_arg1)) := by rw [← hR, Re_keep_main_v1, b1]
  have r3 : WR (Proc.devRef .tc main_v3) = Cert.ReferenceIdeal.ReadP.val_main_v3 (F := F) (W (Proc.devRef .tc main_arg1)) := by rw [← hR, Re_keep_main_v3, b3]
  have ra4 : WR (Proc.devRef .tc main_arg4) = W (Proc.devRef .tc main_arg4) := by rw [← hR, Re_keep_main_arg4, ba4]
  have ra5 : WR (Proc.devRef .tc main_arg5) = W (Proc.devRef .tc main_arg5) := by rw [← hR, Re_keep_main_arg5, ba5]
  -- after the third stretch, and the last call
  have c178 : WC (Proc.devRef .tc main_v178) = Cert.ReferenceIdeal.ReadP.val_main_v178 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
    rw [← hC, C_v178 WR _ _ _ _ r1 r3 r33 r106, ra4, ra5]
  rw [Ls_v179, c178, val_v179_eq]

set_option maxRecDepth 65536 in
set_option maxHeartbeats 95600000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v179) = Cert.ReferenceIdeal.ReadP.val_main_v179 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v179).trans (ops_v179 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.ValueP

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.RefValue.lean ====
/-
  The reference program's value, stage by stage, against the two-layer model.

  One hop of the propagation sends node features `h` to the array whose row `t` is the sum, over the edges that end at
  `t`, of the edge's weight times the row of `h` at the edge's start: rows are gathered at the start column, scaled by
  the weights, and summed into a zero array at the end column. The program spells this out three times per layer
  with freshly named copies of the zero array, the two index columns and the broadcast weights; the copies have the
  same definitions, so each hop is the same map `prop32` (32 features) or `prop64` (64 features) applied to the hop
  before (the first hop of the first layer is that map by definition). With the hops named, the first layer's value
  read at a node and an output feature is the four contractions against the four weight slices, added left to right,
  plus the bias, clipped below at zero; the second layer's is the same combination followed by the row-wise
  log-softmax. Only the definitions of the operations at an
  entry are used, so no entry need be finite, and the propagation map is never opened.
-/
import proofs.«137570_j56891136803143_1_alg».proof.Proof.RefRead
import proofs.«137570_j56891136803143_1_alg».proof.Proof.RefProp
import proofs.«137570_j56891136803143_1_alg».proof.Proof.Spec
import proofs.«137570_j56891136803143_1_alg».proof.Proof.LibPlainProduct
import proofs.«137570_j56891136803143_1_alg».proof.Proof.LibHostRowForms
import proofs.«137570_j56891136803143_1_alg».proof.Proof.LibRowSoftmax

noncomputable section

open scoped BigOperators

namespace Cert.ReferenceIdeal.RefValue

open Cert.ReferenceIdeal Cert.ReferenceIdeal.Gen Cert.ReferenceIdeal.ReadP Cert.ReferenceIdeal.RefProp Idealize.ShloMosaic Idealize.ShloMosaic.TcCoe
  Idealize.SL.Sem Idealize.ShloMosaic.StableHlo Idealize.ShloMosaic.ValueIdx

/-! ## The later hops' zero arrays, index columns and broadcast weights are the first hop's -/

theorem zeros32_2 : val_main_v59 (F := Ideal) = val_main_v37 (F := Ideal) := by
  simp only [val_main_v59, val_main_cst_14, val_main_v37, val_main_cst_9]

theorem zeros32_3 : val_main_v81 (F := Ideal) = val_main_v37 (F := Ideal) := by
  simp only [val_main_v81, val_main_cst_19, val_main_v37, val_main_cst_9]

theorem col32_2 (x1 : (⟨S2x1600000, .i32⟩ : BufTy).Contents (Elt Ideal)) : val_main_v75 (F := Ideal) x1 = val_main_v53 (F := Ideal) x1 := by
  simp only [val_main_v75, val_main_v74, val_main_v71, val_main_v70, val_main_c_17, val_main_v73, val_main_v72, val_main_c_18, val_main_v53, val_main_v52, val_main_v49, val_main_v48, val_main_c_12, val_main_v51, val_main_v50, val_main_c_13]

theorem col32_3 (x1 : (⟨S2x1600000, .i32⟩ : BufTy).Contents (Elt Ideal)) : val_main_v97 (F := Ideal) x1 = val_main_v53 (F := Ideal) x1 := by
  simp only [val_main_v97, val_main_v96, val_main_v93, val_main_v92, val_main_c_22, val_main_v95, val_main_v94, val_main_c_23, val_main_v53, val_main_v52, val_main_v49, val_main_v48, val_main_c_12, val_main_v51, val_main_v50, val_main_c_13]

theorem nrm32_2 (x1 : (⟨S2x1600000, .i32⟩ : BufTy).Contents (Elt Ideal)) : val_main_v68 (F := Ideal) x1 = val_main_v46 (F := Ideal) x1 := by
  simp only [val_main_v68, val_main_v60, val_main_v46, val_main_v38]

theorem nrm32_3 (x1 : (⟨S2x1600000, .i32⟩ : BufTy).Contents (Elt Ideal)) : val_main_v90 (F := Ideal) x1 = val_main_v46 (F := Ideal) x1 := by
  simp only [val_main_v90, val_main_v82, val_main_v46, val_main_v38]

theorem row32_2 (x1 : (⟨S2x1600000, .i32⟩ : BufTy).Contents (Elt Ideal)) : val_main_v66 (F := Ideal) x1 = val_main_v44 (F := Ideal) x1 := by
  simp only [val_main_v66, val_main_v65, val_main_v62, val_main_v61, val_main_c_15, val_main_v64, val_main_v63, val_main_c_16, val_main_v44, val_main_v43, val_main_v40, val_main_v39, val_main_c_10, val_main_v42, val_main_v41, val_main_c_11]

theorem row32_3 (x1 : (⟨S2x1600000, .i32⟩ : BufTy).Contents (Elt Ideal)) : val_main_v88 (F := Ideal) x1 = val_main_v44 (F := Ideal) x1 := by
  simp only [val_main_v88, val_main_v87, val_main_v84, val_main_v83, val_main_c_20, val_main_v86, val_main_v85, val_main_c_21, val_main_v44, val_main_v43, val_main_v40, val_main_v39, val_main_c_10, val_main_v42, val_main_v41, val_main_c_11]

theorem zeros64_2 : val_main_v132 (F := Ideal) = val_main_v110 (F := Ideal) := by
  simp only [val_main_v132, val_main_cst_29, val_main_v110, val_main_cst_24]

theorem zeros64_3 : val_main_v154 (F := Ideal) = val_main_v110 (F := Ideal) := by
  simp only [val_main_v154, val_main_cst_34, val_main_v110, val_main_cst_24]

theorem col64_2 (x1 : (⟨S2x1600000, .i32⟩ : BufTy).Contents (Elt Ideal)) : val_main_v148 (F := Ideal) x1 = val_main_v126 (F := Ideal) x1 := by
  simp only [val_main_v148, val_main_v147, val_main_v144, val_main_v143, val_main_c_32, val_main_v146, val_main_v145, val_main_c_33, val_main_v126, val_main_v125, val_main_v122, val_main_v121, val_main_c_27, val_main_v124, val_main_v123, val_main_c_28]

theorem col64_3 (x1 : (⟨S2x1600000, .i32⟩ : BufTy).Contents (Elt Ideal)) : val_main_v170 (F := Ideal) x1 = val_main_v126 (F := Ideal) x1 := by
  simp only [val_main_v170, val_main_v169, val_main_v166, val_main_v165, val_main_c_37, val_main_v168, val_main_v167, val_main_c_38, val_main_v126, val_main_v125, val_main_v122, val_main_v121, val_main_c_27, val_main_v124, val_main_v123, val_main_c_28]

theorem nrm64_2 (x1 : (⟨S2x1600000, .i32⟩ : BufTy).Contents (Elt Ideal)) : val_main_v141 (F := Ideal) x1 = val_main_v119 (F := Ideal) x1 := by
  simp only [val_main_v141, val_main_v133, val_main_v119, val_main_v111]

theorem nrm64_3 (x1 : (⟨S2x1600000, .i32⟩ : BufTy).Contents (Elt Ideal)) : val_main_v163 (F := Ideal) x1 = val_main_v119 (F := Ideal) x1 := by
  simp only [val_main_v163, val_main_v155, val_main_v119, val_main_v111]

theorem row64_2 (x1 : (⟨S2x1600000, .i32⟩ : BufTy).Contents (Elt Ideal)) : val_main_v139 (F := Ideal) x1 = val_main_v117 (F := Ideal) x1 := by
  simp only [val_main_v139, val_main_v138, val_main_v135, val_main_v134, val_main_c_30, val_main_v137, val_main_v136, val_main_c_31, val_main_v117, val_main_v116, val_main_v113, val_main_v112, val_main_c_25, val_main_v115, val_main_v114, val_main_c_26]

theorem row64_3 (x1 : (⟨S2x1600000, .i32⟩ : BufTy).Contents (Elt Ideal)) : val_main_v161 (F := Ideal) x1 = val_main_v117 (F := Ideal) x1 := by
  simp only [val_main_v161, val_main_v160, val_main_v157, val_main_v156, val_main_c_35, val_main_v159, val_main_v158, val_main_c_36, val_main_v117, val_main_v116, val_main_v113, val_main_v112, val_main_c_25, val_main_v115, val_main_v114, val_main_c_26]

/-! ## Every hop is the one map applied to the hop before -/

theorem hop32_2 (x0 : (⟨S100000x32, .f32⟩ : BufTy).Contents (Elt Ideal)) (x1 : (⟨S2x1600000, .i32⟩ : BufTy).Contents (Elt Ideal)) : val_main_v76 (F := Ideal) x0 x1 = prop32 x1 (val_main_v54 (F := Ideal) x0 x1) := by
  unfold val_main_v76 val_main_v69 val_main_v67 prop32
  rw [zeros32_2, col32_2, nrm32_2, row32_2]

theorem hop32_3 (x0 : (⟨S100000x32, .f32⟩ : BufTy).Contents (Elt Ideal)) (x1 : (⟨S2x1600000, .i32⟩ : BufTy).Contents (Elt Ideal)) : val_main_v98 (F := Ideal) x0 x1 = prop32 x1 (val_main_v76 (F := Ideal) x0 x1) := by
  unfold val_main_v98 val_main_v91 val_main_v89 prop32
  rw [zeros32_3, col32_3, nrm32_3, row32_3]

theorem hop64_1 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) :
    val_main_v127 (F := Ideal) x0 x1 x2 x3 = prop64 x1 (val_main_v106 (F := Ideal) x0 x1 x2 x3) := by
  unfold val_main_v127 val_main_v120 val_main_v118 prop64
  rfl

theorem hop64_2 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) :
    val_main_v149 (F := Ideal) x0 x1 x2 x3 = prop64 x1 (val_main_v127 (F := Ideal) x0 x1 x2 x3) := by
  unfold val_main_v149 val_main_v142 val_main_v140 prop64
  rw [zeros64_2, col64_2, nrm64_2, row64_2]

theorem hop64_3 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) :
    val_main_v171 (F := Ideal) x0 x1 x2 x3 = prop64 x1 (val_main_v149 (F := Ideal) x0 x1 x2 x3) := by
  unfold val_main_v171 val_main_v164 val_main_v162 prop64
  rw [zeros64_3, col64_3, nrm64_3, row64_3]

/-! ## The first layer read at a node and an output feature -/

/-- A contraction of 32-feature rows with a 32 by 64 matrix, read at `(r, o)`. -/
theorem dot32_apply (A : FVec Ideal S100000x32 .f32) (B : FVec Ideal S32x64 .f32)
    (r : Fin 100000) (o : Fin 64) :
    Host.dotGeneral (F := Ideal) (φ₁ := .f32) (φ₂ := .f32) dot_S100000x32_S32x64_S100000x64_1_0_0_1_n_n none A B (ix2 r o)
      = ∑ c : Fin 32, A (ix2 r c) * B (ix2 c o) :=
  PlainProduct.dotGeneral_of_plain dot_S100000x32_S32x64_S100000x64_1_0_0_1_n_n rfl none A B r o

/-- The `g`-th slice of the stacked weights, reshaped to a matrix, reads the stack at `(g, c, o)`. -/
theorem w1_0 (x2 : (⟨S4x32x64, .f32⟩ : BufTy).Contents (Elt Ideal)) (c : Fin 32) (o : Fin 64) :
    val_main_v35 (F := Ideal) x2 (ix2 c o) = x2 (ix3 (0 : Fin 4) c o) := by
  rw [val_main_v35_apply, val_main_v34_apply]
  refine congrArg x2 (funext fun a => Fin.ext ?_)
  have hc := c.isLt
  have ho := o.isLt
  match a with
  | ⟨0, _⟩ => rfl
  | ⟨1, _⟩ => show (c.val * 64 + o.val) / 64 % 32 = c.val; omega
  | ⟨2, _⟩ => show (c.val * 64 + o.val) % 64 = o.val; omega

theorem w1_1 (x2 : (⟨S4x32x64, .f32⟩ : BufTy).Contents (Elt Ideal)) (c : Fin 32) (o : Fin 64) :
    val_main_v56 (F := Ideal) x2 (ix2 c o) = x2 (ix3 (1 : Fin 4) c o) := by
  rw [val_main_v56_apply, val_main_v55_apply]
  refine congrArg x2 (funext fun a => Fin.ext ?_)
  have hc := c.isLt
  have ho := o.isLt
  match a with
  | ⟨0, _⟩ => rfl
  | ⟨1, _⟩ => show (c.val * 64 + o.val) / 64 % 32 = c.val; omega
  | ⟨2, _⟩ => show (c.val * 64 + o.val) % 64 = o.val; omega

theorem w1_2 (x2 : (⟨S4x32x64, .f32⟩ : BufTy).Contents (Elt Ideal)) (c : Fin 32) (o : Fin 64) :
    val_main_v78 (F := Ideal) x2 (ix2 c o) = x2 (ix3 (2 : Fin 4) c o) := by
  rw [val_main_v78_apply, val_main_v77_apply]
  refine congrArg x2 (funext fun a => Fin.ext ?_)
  have hc := c.isLt
  have ho := o.isLt
  match a with
  | ⟨0, _⟩ => rfl
  | ⟨1, _⟩ => show (c.val * 64 + o.val) / 64 % 32 = c.val; omega
  | ⟨2, _⟩ => show (c.val * 64 + o.val) % 64 = o.val; omega

theorem w1_3 (x2 : (⟨S4x32x64, .f32⟩ : BufTy).Contents (Elt Ideal)) (c : Fin 32) (o : Fin 64) :
    val_main_v100 (F := Ideal) x2 (ix2 c o) = x2 (ix3 (3 : Fin 4) c o) := by
  rw [val_main_v100_apply, val_main_v99_apply]
  refine congrArg x2 (funext fun a => Fin.ext ?_)
  have hc := c.isLt
  have ho := o.isLt
  match a with
  | ⟨0, _⟩ => rfl
  | ⟨1, _⟩ => show (c.val * 64 + o.val) / 64 % 32 = c.val; omega
  | ⟨2, _⟩ => show (c.val * 64 + o.val) % 64 = o.val; omega

/-- The bias vector, broadcast to a row and then to every row, reads the vector at the output feature. -/
theorem bias1 (x3 : (⟨S64, .f32⟩ : BufTy).Contents (Elt Ideal)) (r : Fin 100000) (o : Fin 64) : val_main_v104 (F := Ideal) x3 (ix2 r o) = x3 (ix1 o) := by
  rw [val_main_v104_apply, val_main_v103_apply]
  exact congrArg x3 (funext fun a => Fin.ext (by match a with | ⟨0, _⟩ => rfl))

/-- The clipping constant, broadcast to every entry, reads the zero word's value. -/
theorem zero1 (r : Fin 100000) (o : Fin 64) :
    val_main_call1_v0 (F := Ideal) (ix2 r o) = Ideal.ofBits .f32 0x00000000#32 := by
  rw [val_main_call1_v0_apply]
  rfl

theorem dot1_0 (x0 : (⟨S100000x32, .f32⟩ : BufTy).Contents (Elt Ideal)) (x2 : (⟨S4x32x64, .f32⟩ : BufTy).Contents (Elt Ideal)) (r : Fin 100000) (o : Fin 64) :
    val_main_v36 (F := Ideal) x0 x2 (ix2 r o) = ∑ c : Fin 32, x0 (ix2 r c) * x2 (ix3 (0 : Fin 4) c o) := by
  unfold val_main_v36
  rw [dot32_apply]
  exact Finset.sum_congr rfl fun c _ => by rw [w1_0]

theorem dot1_1 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (r : Fin 100000) (o : Fin 64) :
    val_main_v57 (F := Ideal) x0 x1 x2 (ix2 r o)
      = ∑ c : Fin 32, prop32 x1 x0 (ix2 r c) * x2 (ix3 (1 : Fin 4) c o) := by
  unfold val_main_v57
  rw [dot32_apply, hop32_1]
  exact Finset.sum_congr rfl fun c _ => by rw [w1_1]

theorem dot1_2 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (r : Fin 100000) (o : Fin 64) :
    val_main_v79 (F := Ideal) x0 x1 x2 (ix2 r o)
      = ∑ c : Fin 32, prop32 x1 (prop32 x1 x0) (ix2 r c) * x2 (ix3 (2 : Fin 4) c o) := by
  unfold val_main_v79
  rw [dot32_apply, hop32_2, hop32_1]
  exact Finset.sum_congr rfl fun c _ => by rw [w1_2]

theorem dot1_3 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (r : Fin 100000) (o : Fin 64) :
    val_main_v101 (F := Ideal) x0 x1 x2 (ix2 r o)
      = ∑ c : Fin 32, prop32 x1 (prop32 x1 (prop32 x1 x0)) (ix2 r c) * x2 (ix3 (3 : Fin 4) c o) := by
  unfold val_main_v101
  rw [dot32_apply, hop32_3, hop32_2, hop32_1]
  exact Finset.sum_congr rfl fun c _ => by rw [w1_3]

/-- THE FIRST LAYER: the reference's value after the clipping is the model's first layer over the hop map. -/
theorem layer1_eq (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) :
    val_main_v106 (F := Ideal) x0 x1 x2 x3 = Cert.TagSpec.layer1 (prop32 x1) x0 x2 x3 := by
  funext i
  obtain ⟨r, o, rfl⟩ : ∃ (r : Fin 100000) (o : Fin 64), i = ix2 r o := ⟨i 0, i 1, eq_ix2 i⟩
  rw [Cert.TagSpec.layer1_ix2]
  show max ((((val_main_v36 (F := Ideal) x0 x2 (ix2 r o) + val_main_v57 (F := Ideal) x0 x1 x2 (ix2 r o))
      + val_main_v79 (F := Ideal) x0 x1 x2 (ix2 r o)) + val_main_v101 (F := Ideal) x0 x1 x2 (ix2 r o))
      + val_main_v104 (F := Ideal) x3 (ix2 r o)) (val_main_call1_v0 (F := Ideal) (ix2 r o)) = _
  rw [dot1_0, dot1_1, dot1_2, dot1_3, bias1, zero1]
  rfl

/-! ## The second layer before the normalisation, read at a node and a class -/

/-- A contraction of 64-feature rows with a 64 by 10 matrix, read at `(r, o)`. -/
theorem dot64_apply (A : FVec Ideal S100000x64 .f32) (B : FVec Ideal S64x10 .f32) (r : Fin 100000) (o : Fin 10) :
    Host.dotGeneral (F := Ideal) (φ₁ := .f32) (φ₂ := .f32) dot_S100000x64_S64x10_S100000x10_1_0_0_1_n_n none A B (ix2 r o)
      = ∑ c : Fin 64, A (ix2 r c) * B (ix2 c o) :=
  PlainProduct.dotGeneral_of_plain dot_S100000x64_S64x10_S100000x10_1_0_0_1_n_n rfl none A B r o

theorem w2_0 (x4 : (⟨S4x64x10, .f32⟩ : BufTy).Contents (Elt Ideal)) (c : Fin 64) (o : Fin 10) :
    val_main_v108 (F := Ideal) x4 (ix2 c o) = x4 (ix3 (0 : Fin 4) c o) := by
  rw [val_main_v108_apply, val_main_v107_apply]
  refine congrArg x4 (funext fun a => Fin.ext ?_)
  have hc := c.isLt
  have ho := o.isLt
  match a with
  | ⟨0, _⟩ => rfl
  | ⟨1, _⟩ => show (c.val * 10 + o.val) / 10 % 64 = c.val; omega
  | ⟨2, _⟩ => show (c.val * 10 + o.val) % 10 = o.val; omega

theorem w2_1 (x4 : (⟨S4x64x10, .f32⟩ : BufTy).Contents (Elt Ideal)) (c : Fin 64) (o : Fin 10) :
    val_main_v129 (F := Ideal) x4 (ix2 c o) = x4 (ix3 (1 : Fin 4) c o) := by
  rw [val_main_v129_apply, val_main_v128_apply]
  refine congrArg x4 (funext fun a => Fin.ext ?_)
  have hc := c.isLt
  have ho := o.isLt
  match a with
  | ⟨0, _⟩ => rfl
  | ⟨1, _⟩ => show (c.val * 10 + o.val) / 10 % 64 = c.val; omega
  | ⟨2, _⟩ => show (c.val * 10 + o.val) % 10 = o.val; omega

theorem w2_2 (x4 : (⟨S4x64x10, .f32⟩ : BufTy).Contents (Elt Ideal)) (c : Fin 64) (o : Fin 10) :
    val_main_v151 (F := Ideal) x4 (ix2 c o) = x4 (ix3 (2 : Fin 4) c o) := by
  rw [val_main_v151_apply, val_main_v150_apply]
  refine congrArg x4 (funext fun a => Fin.ext ?_)
  have hc := c.isLt
  have ho := o.isLt
  match a with
  | ⟨0, _⟩ => rfl
  | ⟨1, _⟩ => show (c.val * 10 + o.val) / 10 % 64 = c.val; omega
  | ⟨2, _⟩ => show (c.val * 10 + o.val) % 10 = o.val; omega

theorem w2_3 (x4 : (⟨S4x64x10, .f32⟩ : BufTy).Contents (Elt Ideal)) (c : Fin 64) (o : Fin 10) :
    val_main_v173 (F := Ideal) x4 (ix2 c o) = x4 (ix3 (3 : Fin 4) c o) := by
  rw [val_main_v173_apply, val_main_v172_apply]
  refine congrArg x4 (funext fun a => Fin.ext ?_)
  have hc := c.isLt
  have ho := o.isLt
  match a with
  | ⟨0, _⟩ => rfl
  | ⟨1, _⟩ => show (c.val * 10 + o.val) / 10 % 64 = c.val; omega
  | ⟨2, _⟩ => show (c.val * 10 + o.val) % 10 = o.val; omega

theorem bias2 (x5 : (⟨S10, .f32⟩ : BufTy).Contents (Elt Ideal)) (r : Fin 100000) (o : Fin 10) : val_main_v177 (F := Ideal) x5 (ix2 r o) = x5 (ix1 o) := by
  rw [val_main_v177_apply, val_main_v176_apply]
  exact congrArg x5 (funext fun a => Fin.ext (by match a with | ⟨0, _⟩ => rfl))

theorem dot2_0 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (r : Fin 100000) (o : Fin 10) :
    val_main_v109 (F := Ideal) x0 x1 x2 x3 x4 (ix2 r o)
      = ∑ c : Fin 64, val_main_v106 (F := Ideal) x0 x1 x2 x3 (ix2 r c) * x4 (ix3 (0 : Fin 4) c o) := by
  unfold val_main_v109
  rw [dot64_apply]
  exact Finset.sum_congr rfl fun c _ => by rw [w2_0]

theorem dot2_1 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (r : Fin 100000) (o : Fin 10) :
    val_main_v130 (F := Ideal) x0 x1 x2 x3 x4 (ix2 r o)
      = ∑ c : Fin 64, prop64 x1 (val_main_v106 (F := Ideal) x0 x1 x2 x3) (ix2 r c) * x4 (ix3 (1 : Fin 4) c o) := by
  unfold val_main_v130
  rw [dot64_apply, hop64_1]
  exact Finset.sum_congr rfl fun c _ => by rw [w2_1]

theorem dot2_2 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (r : Fin 100000) (o : Fin 10) :
    val_main_v152 (F := Ideal) x0 x1 x2 x3 x4 (ix2 r o)
      = ∑ c : Fin 64, prop64 x1 (prop64 x1 (val_main_v106 (F := Ideal) x0 x1 x2 x3)) (ix2 r c) * x4 (ix3 (2 : Fin 4) c o) := by
  unfold val_main_v152
  rw [dot64_apply, hop64_2, hop64_1]
  exact Finset.sum_congr rfl fun c _ => by rw [w2_2]

theorem dot2_3 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (r : Fin 100000) (o : Fin 10) :
    val_main_v174 (F := Ideal) x0 x1 x2 x3 x4 (ix2 r o)
      = ∑ c : Fin 64, prop64 x1 (prop64 x1 (prop64 x1 (val_main_v106 (F := Ideal) x0 x1 x2 x3))) (ix2 r c)
          * x4 (ix3 (3 : Fin 4) c o) := by
  unfold val_main_v174
  rw [dot64_apply, hop64_3, hop64_2, hop64_1]
  exact Finset.sum_congr rfl fun c _ => by rw [w2_3]

/-- The second layer's sums plus the bias: the combination over the four hop powers of the first layer's value. -/
theorem pre2 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (x5 : (⟨S10, .f32⟩ : BufTy).Contents (Elt Ideal)) (r : Fin 100000) (o : Fin 10) :
    val_main_v178 (F := Ideal) x0 x1 x2 x3 x4 x5 (ix2 r o)
      = Cert.TagSpec.comb4 (fun g c => Cert.TagSpec.hops (prop64 x1) (val_main_v106 (F := Ideal) x0 x1 x2 x3) g (ix2 r c))
          (fun g c => x4 (ix3 g c o)) (x5 (ix1 o)) := by
  show (((val_main_v109 (F := Ideal) x0 x1 x2 x3 x4 (ix2 r o) + val_main_v130 (F := Ideal) x0 x1 x2 x3 x4 (ix2 r o))
      + val_main_v152 (F := Ideal) x0 x1 x2 x3 x4 (ix2 r o)) + val_main_v174 (F := Ideal) x0 x1 x2 x3 x4 (ix2 r o))
      + val_main_v177 (F := Ideal) x5 (ix2 r o) = _
  rw [dot2_0, dot2_1, dot2_2, dot2_3, bias2]
  rfl

/-! ## The row-wise log-softmax -/

/-- The host's row maximum from minus infinity is the fold of `max` over the row. -/
theorem rowmax0 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (x5 : (⟨S10, .f32⟩ : BufTy).Contents (Elt Ideal)) (r : Fin 100000) :
    val_main_call2_v0 (F := Ideal) x0 x1 x2 x3 x4 x5 (ix1 r)
      = Finset.univ.fold max (Ideal.ofBits .f32 0xFF800000#32) (fun k : Fin 10 => val_main_v178 (F := Ideal) x0 x1 x2 x3 x4 x5 (ix2 r k)) := by
  unfold val_main_call2_v0 val_main_call2_cst
  generalize val_main_v178 (F := Ideal) x0 x1 x2 x3 x4 x5 = pre
  exact Cert.HostRowForms.reduceMax_rows pre reducesTo_S100000x10_S100000_d1 (by decide) h_S_ r

/-- The splat of minus infinity reads that word's value. -/
theorem rowmax1 (r : Fin 100000) : val_main_call2_v1 (F := Ideal) (ix1 r) = (Ideal.ofBits .f32 0xFF800000#32) := by
  rw [val_main_call2_v1_apply, val_main_call2_cst_0_apply, Ideal.ofBits_def]

/-- Taking the maximum with minus infinity once more changes nothing. -/
theorem rowmax2 (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (x5 : (⟨S10, .f32⟩ : BufTy).Contents (Elt Ideal)) (r : Fin 100000) :
    val_main_call2_v2 (F := Ideal) x0 x1 x2 x3 x4 x5 (ix1 r)
      = Finset.univ.fold max (Ideal.ofBits .f32 0xFF800000#32) (fun k : Fin 10 => val_main_v178 (F := Ideal) x0 x1 x2 x3 x4 x5 (ix2 r k)) := by
  rw [val_main_call2_v2_apply, rowmax1, rowmax0, Ideal.maximumf_def, Cert.RowSoftmax.max_fold_max_self]

/-- The row maximum copied back along the row. -/
theorem rowmax (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (x5 : (⟨S10, .f32⟩ : BufTy).Contents (Elt Ideal)) (r : Fin 100000) (o : Fin 10) :
    val_main_call2_v4 (F := Ideal) x0 x1 x2 x3 x4 x5 (ix2 r o)
      = Finset.univ.fold max (Ideal.ofBits .f32 0xFF800000#32) (fun k : Fin 10 => val_main_v178 (F := Ideal) x0 x1 x2 x3 x4 x5 (ix2 r k)) := by
  have hi : idx_main_call2_v3 (idx_main_call2_v4 (ix2 r o)) = ix1 r :=
    funext fun a => Fin.ext (by match a with | ⟨0, _⟩ => rfl)
  rw [val_main_call2_v4_apply, val_main_call2_v3_apply, hi, rowmax2]

/-- The host's row sum from the zero word of the exponentials of the differences from the row maximum. -/
theorem rowsum (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (x5 : (⟨S10, .f32⟩ : BufTy).Contents (Elt Ideal)) (r : Fin 100000) :
    val_main_call2_v7 (F := Ideal) x0 x1 x2 x3 x4 x5 (ix1 r)
      = ∑ k : Fin 10, Ideal.exp (val_main_v178 (F := Ideal) x0 x1 x2 x3 x4 x5 (ix2 r k)
          - Finset.univ.fold max (Ideal.ofBits .f32 0xFF800000#32) (fun k : Fin 10 => val_main_v178 (F := Ideal) x0 x1 x2 x3 x4 x5 (ix2 r k))) := by
  have h7 : val_main_call2_v7 (F := Ideal) x0 x1 x2 x3 x4 x5 (ix1 r)
      = ∑ k : Fin 10, val_main_call2_v6 (F := Ideal) x0 x1 x2 x3 x4 x5 (ix2 r k) := by
    unfold val_main_call2_v7 val_main_call2_cst_1
    generalize val_main_call2_v6 (F := Ideal) x0 x1 x2 x3 x4 x5 = y
    exact Cert.HostRowForms.reduceAdd_rows y reducesTo_S100000x10_S100000_d1 (by decide) h_S_ r
  rw [h7]
  refine Finset.sum_congr rfl fun k _ => ?_
  rw [val_main_call2_v6_apply, val_main_call2_v5_apply, rowmax, Ideal.hostUnary_exp_def, Ideal.subf_def]

/-- The logarithm of that sum, copied back along the row. -/
theorem rowlse (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (x5 : (⟨S10, .f32⟩ : BufTy).Contents (Elt Ideal)) (r : Fin 100000) (o : Fin 10) :
    val_main_call2_v10 (F := Ideal) x0 x1 x2 x3 x4 x5 (ix2 r o)
      = Ideal.log (∑ k : Fin 10, Ideal.exp (val_main_v178 (F := Ideal) x0 x1 x2 x3 x4 x5 (ix2 r k)
          - Finset.univ.fold max (Ideal.ofBits .f32 0xFF800000#32) (fun k : Fin 10 => val_main_v178 (F := Ideal) x0 x1 x2 x3 x4 x5 (ix2 r k)))) := by
  have hi : idx_main_call2_v8 (idx_main_call2_v10 (ix2 r o)) = ix1 r :=
    funext fun a => Fin.ext (by match a with | ⟨0, _⟩ => rfl)
  rw [val_main_call2_v10_apply, val_main_call2_v9_apply, val_main_call2_v8_apply, hi, rowsum, Ideal.hostUnary_log_def]

/-- THE RESULT: the reference's value is the two-layer model over the two hop maps. -/
theorem result_eq (x0 : (⟨S100000x32, .f32⟩ : BufTy).Contents (Elt Ideal)) (x1 : (⟨S2x1600000, .i32⟩ : BufTy).Contents (Elt Ideal)) (x2 : (⟨S4x32x64, .f32⟩ : BufTy).Contents (Elt Ideal)) (x3 : (⟨S64, .f32⟩ : BufTy).Contents (Elt Ideal)) (x4 : (⟨S4x64x10, .f32⟩ : BufTy).Contents (Elt Ideal)) (x5 : (⟨S10, .f32⟩ : BufTy).Contents (Elt Ideal)) :
    val_main_v179 (F := Ideal) x0 x1 x2 x3 x4 x5 = Cert.TagSpec.model (prop32 x1) (prop64 x1) x0 x2 x3 x4 x5 := by
  funext i
  obtain ⟨r, o, rfl⟩ : ∃ (r : Fin 100000) (o : Fin 10), i = ix2 r o := ⟨i 0, i 1, eq_ix2 i⟩
  unfold Cert.TagSpec.model
  rw [Cert.TagSpec.layer2_ix2]
  unfold Cert.RowSoftmax.lsmRow
  rw [val_main_v179_apply, val_main_call2_v5_apply, rowmax, rowlse]
  simp only [Ideal.subf_def, pre2]
  rw [layer1_eq]

end Cert.ReferenceIdeal.RefValue

end
-- ==== Proof.lean ====
/-
  A two-layer graph convolution over three hops (each layer combines the features after 0, 1, 2 and 3 hops of a
  normalised-adjacency propagation with four weight matrices and a bias), a clipping at zero between the layers and
  a row-wise log-softmax at the end: the kernel program against its reference, at the ideal values.

  Both programs compute the propagation on the host, by the same gather, product and accumulating scatter. The
  kernel program stacks the four hop powers and hands them to a kernel region tiled over the nodes, which forms the
  four matrix products of each block of rows with the four weight matrices, adds them left to right, adds the bias
  and applies the clipping (first region) or the log-softmax of each row (second region). The reference forms the same
  four products over all rows and adds them in the same order. At the ideal values a matrix product is the sum over
  the contracted coordinate, narrowing the operands changes nothing, and the blocks tile the rows, so both results
  are one function of the arguments (the two-layer model of Spec.lean over the shared hop map); no law of arithmetic
  beyond the operations' definitions is used and no entry need be finite.

  The frames: each program terminates without a fault and leaves its arguments unchanged. For the kernel programs this
  is the run through the host stretches and the two regions (at the word level and at the ideal values, the same
  text); for the reference it is its host run with the result dropped. No rewrite separates the kernel from its
  idealization.
-/
import proofs.«137570_j56891136803143_1_alg».proof.Defs
import proofs.«137570_j56891136803143_1_alg».proof.Proof.Gen.Kernel
import proofs.«137570_j56891136803143_1_alg».proof.Proof.Gen.KernelIdeal
import proofs.«137570_j56891136803143_1_alg».proof.Proof.Gen.ReferenceIdeal
import proofs.«137570_j56891136803143_1_alg».proof.Proof.Gen.Pre_finite_inputs
import proofs.«137570_j56891136803143_1_alg».proof.Proof.KRun
import proofs.«137570_j56891136803143_1_alg».proof.Proof.KiValue
import proofs.«137570_j56891136803143_1_alg».proof.Proof.RefRun
import proofs.«137570_j56891136803143_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is a line of host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs end with the two-layer model of the arguments: the kernel program by its run through the
    two regions, the reference by its host run, its last stage read entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run_val m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2.1, (hagree c).2.2.2.2.2]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
